-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x11 : Shape := ⟨2, ![2000000, 11]⟩
abbrev S2x2 : Shape := ⟨2, ![2, 2]⟩
abbrev S2 : Shape := ⟨1, ![2]⟩
abbrev S4x4 : Shape := ⟨2, ![4, 4]⟩
abbrev S4 : Shape := ⟨1, ![4]⟩
abbrev S6x6 : Shape := ⟨2, ![6, 6]⟩
abbrev S6 : Shape := ⟨1, ![6]⟩
abbrev S11x16 : Shape := ⟨2, ![11, 16]⟩
abbrev S16 : Shape := ⟨1, ![16]⟩
abbrev S16x16 : Shape := ⟨2, ![16, 16]⟩
abbrev S16x6 : Shape := ⟨2, ![16, 6]⟩
abbrev S6x4 : Shape := ⟨2, ![6, 4]⟩
abbrev S4x2 : Shape := ⟨2, ![4, 2]⟩
abbrev S8x4 : Shape := ⟨2, ![8, 4]⟩
abbrev S4x1 : Shape := ⟨2, ![4, 1]⟩
abbrev S1 : Shape := ⟨1, ![1]⟩
abbrev S_ : Shape := ⟨0, ![]⟩

class Facts : Prop where
  bcast_S_S2000000x11 : S_.BroadcastsInDim S2000000x11 (![] : Fin 0 → Fin S2000000x11.rank)
  reducesTo_S2000000x11_S_d0_1 : S2000000x11.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S6x6 : S_.BroadcastsInDim S6x6 (![] : Fin 0 → Fin S6x6.rank)
  reducesTo_S6x6_S_d0_1 : S6x6.ReducesTo [0, 1] S_
  bcast_S_S6 : S_.BroadcastsInDim S6 (![] : Fin 0 → Fin S6.rank)
  reducesTo_S6_S_d0 : S6.ReducesTo [0] S_
  bcast_S_S11x16 : S_.BroadcastsInDim S11x16 (![] : Fin 0 → Fin S11x16.rank)
  reducesTo_S11x16_S_d0_1 : S11x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x6 : S_.BroadcastsInDim S16x6 (![] : Fin 0 → Fin S16x6.rank)
  reducesTo_S16x6_S_d0_1 : S16x6.ReducesTo [0, 1] S_
  bcast_S_S6x4 : S_.BroadcastsInDim S6x4 (![] : Fin 0 → Fin S6x4.rank)
  reducesTo_S6x4_S_d0_1 : S6x4.ReducesTo [0, 1] S_
  bcast_S_S4x2 : S_.BroadcastsInDim S4x2 (![] : Fin 0 → Fin S4x2.rank)
  reducesTo_S4x2_S_d0_1 : S4x2.ReducesTo [0, 1] S_
  bcast_S_S8x4 : S_.BroadcastsInDim S8x4 (![] : Fin 0 → Fin S8x4.rank)
  reducesTo_S8x4_S_d0_1 : S8x4.ReducesTo [0, 1] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_

variable [Facts]

def fn_part11 {F : FTy → Type} [FloatOps F] (main_arg38 : FVec F S1 .f32) (main_v183 : IVec S_ 1) (main_v187 : IVec S_ 1) : IVec S_ 1 :=
  let main_v188 : IVec S_ 1 := andi main_v183 main_v187
  let main_v189 : FVec F S1 .f32 := Host.absf main_arg38
  let main_cst_74 : FVec F S_ .f32 := constant S_ .f32 0x7F800000#32
  let main_v190 : FVec F S1 .f32 := broadcastInDim S1 ![] bcast_S_S1 main_cst_74
  let main_v191 : IVec S1 1 := cmpf .olt main_v189 main_v190
  let main_c_75 : IVec S_ 1 := constantI S_ 1 1#1
  let main_v192 : IVec S_ 1 := (fun x v => Host.reduce IntOp.andi x v reducesTo_S1_S_d0 h_S_) main_v191 main_c_75
  let main_v193 : IVec S_ 1 := andi main_v188 main_v192
  main_v193

def fn_part10 {F : FTy → Type} [FloatOps F] (main_arg35 : FVec F S4x4 .f32) (main_arg36 : FVec F S4 .f32) (main_arg37 : FVec F S4x1 .f32) (main_arg38 : FVec F S1 .f32) (main_v168 : IVec S_ 1) (main_v169 : FVec F S1 .f32) (main_v170 : FVec F S1 .f32) : IVec S_ 1 :=
  let main_v171 : IVec S1 1 := cmpf .olt main_v169 main_v170
  let main_c_67 : IVec S_ 1 := constantI S_ 1 1#1
  let main_v172 : IVec S_ 1 := (fun x v => Host.reduce IntOp.andi x v reducesTo_S1_S_d0 h_S_) main_v171 main_c_67
  let main_v173 : IVec S_ 1 := andi main_v168 main_v172
  let main_v174 : FVec F S4x4 .f32 := Host.absf main_arg35
  let main_cst_68 : FVec F S_ .f32 := constant S_ .f32 0x7F800000#32
  let main_v175 : FVec F S4x4 .f32 := broadcastInDim S4x4 ![] bcast_S_S4x4 main_cst_68
  let main_v176 : IVec S4x4 1 := cmpf .olt main_v174 main_v175
  let main_c_69 : IVec S_ 1 := constantI S_ 1 1#1
  let main_v177 : IVec S_ 1 := (fun x v => Host.reduce IntOp.andi x v reducesTo_S4x4_S_d0_1 h_S_) main_v176 main_c_69
  let main_v178 : IVec S_ 1 := andi main_v173 main_v177
  let main_v179 : FVec F S4 .f32 := Host.absf main_arg36
  let main_cst_70 : FVec F S_ .f32 := constant S_ .f32 0x7F800000#32
  let main_v180 : FVec F S4 .f32 := broadcastInDim S4 ![] bcast_S_S4 main_cst_70
  let main_v181 : IVec S4 1 := cmpf .olt main_v179 main_v180
  let main_c_71 : IVec S_ 1 := constantI S_ 1 1#1
  let main_v182 : IVec S_ 1 := (fun x v => Host.reduce IntOp.andi x v reducesTo_S4_S_d0 h_S_) main_v181 main_c_71
  let main_v183 : IVec S_ 1 := andi main_v178 main_v182
  let main_v184 : FVec F S4x1 .f32 := Host.absf main_arg37
  let main_cst_72 : FVec F S_ .f32 := constant S_ .f32 0x7F800000#32
  let main_v185 : FVec F S4x1 .f32 := broadcastInDim S4x1 ![] bcast_S_S4x1 main_cst_72
  let main_v186 : IVec S4x1 1 := cmpf .olt main_v184 main_v185
  let main_c_73 : IVec S_ 1 := constantI S_ 1 1#1
  let main_v187 : IVec S_ 1 := (fun x v => Host.reduce IntOp.andi x v reducesTo_S4x1_S_d0_1 h_S_) main_v186 main_c_73
  fn_part11 (F := F) main_arg38 main_v183 main_v187

def fn_part9 {F : FTy → Type} [FloatOps F] (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v153 : IVec S_ 1) : IVec S_ 1 :=
  let main_v154 : FVec F S6x4 .f32 := Host.absf main_arg31
  let main_cst_60 : FVec F S_ .f32 := constant S_ .f32 0x7F800000#32
  let main_v155 : FVec F S6x4 .f32 := broadcastInDim S6x4 ![] bcast_S_S6x4 main_cst_60
  let main_v156 : IVec S6x4 1 := cmpf .olt main_v154 main_v155
  let main_c_61 : IVec S_ 1 := constantI S_ 1 1#1
  let main_v157 : IVec S_ 1 := (fun x v => Host.reduce IntOp.andi x v reducesTo_S6x4_S_d0_1 h_S_) main_v156 main_c_61
  let main_v158 : IVec S_ 1 := andi main_v153 main_v157
  let main_v159 : FVec F S4 .f32 := Host.absf main_arg32
  let main_cst_62 : FVec F S_ .f32 := constant S_ .f32 0x7F800000#32
  let main_v160 : FVec F S4 .f32 := broadcastInDim S4 ![] bcast_S_S4 main_cst_62
  let main_v161 : IVec S4 1 := cmpf .olt main_v159 main_v160
  let main_c_63 : IVec S_ 1 := constantI S_ 1 1#1
  let main_v162 : IVec S_ 1 := (fun x v => Host.reduce IntOp.andi x v reducesTo_S4_S_d0 h_S_) main_v161 main_c_63
  let main_v163 : IVec S_ 1 := andi main_v158 main_v162
  let main_v164 : FVec F S4x1 .f32 := Host.absf main_arg33
  let main_cst_64 : FVec F S_ .f32 := constant S_ .f32 0x7F800000#32
  let main_v165 : FVec F S4x1 .f32 := broadcastInDim S4x1 ![] bcast_S_S4x1 main_cst_64
  let main_v166 : IVec S4x1 1 := cmpf .olt main_v164 main_v165
  let main_c_65 : IVec S_ 1 := constantI S_ 1 1#1
  let main_v167 : IVec S_ 1 := (fun x v => Host.reduce IntOp.andi x v reducesTo_S4x1_S_d0_1 h_S_) main_v166 main_c_65
  let main_v168 : IVec S_ 1 := andi main_v163 main_v167
  let main_v169 : FVec F S1 .f32 := Host.absf main_arg34
  let main_cst_66 : FVec F S_ .f32 := constant S_ .f32 0x7F800000#32
  let main_v170 : FVec F S1 .f32 := broadcastInDim S1 ![] bcast_S_S1 main_cst_66
  fn_part10 (F := F) main_arg35 main_arg36 main_arg37 main_arg38 main_v168 main_v169 main_v170

def fn_part8 {F : FTy → Type} [FloatOps F] (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v133 : IVec S_ 1) (main_v136 : IVec S8x4 1) : IVec S_ 1 :=
  let main_c_53 : IVec S_ 1 := constantI S_ 1 1#1
  let main_v137 : IVec S_ 1 := (fun x v => Host.reduce IntOp.andi x v reducesTo_S8x4_S_d0_1 h_S_) main_v136 main_c_53
  let main_v138 : IVec S_ 1 := andi main_v133 main_v137
  let main_v139 : FVec F S4 .f32 := Host.absf main_arg28
  let main_cst_54 : FVec F S_ .f32 := constant S_ .f32 0x7F800000#32
  let main_v140 : FVec F S4 .f32 := broadcastInDim S4 ![] bcast_S_S4 main_cst_54
  let main_v141 : IVec S4 1 := cmpf .olt main_v139 main_v140
  let main_c_55 : IVec S_ 1 := constantI S_ 1 1#1
  let main_v142 : IVec S_ 1 := (fun x v => Host.reduce IntOp.andi x v reducesTo_S4_S_d0 h_S_) main_v141 main_c_55
  let main_v143 : IVec S_ 1 := andi main_v138 main_v142
  let main_v144 : FVec F S4x1 .f32 := Host.absf main_arg29
  let main_cst_56 : FVec F S_ .f32 := constant S_ .f32 0x7F800000#32
  let main_v145 : FVec F S4x1 .f32 := broadcastInDim S4x1 ![] bcast_S_S4x1 main_cst_56
  let main_v146 : IVec S4x1 1 := cmpf .olt main_v144 main_v145
  let main_c_57 : IVec S_ 1 := constantI S_ 1 1#1
  let main_v147 : IVec S_ 1 := (fun x v => Host.reduce IntOp.andi x v reducesTo_S4x1_S_d0_1 h_S_) main_v146 main_c_57
  let main_v148 : IVec S_ 1 := andi main_v143 main_v147
  let main_v149 : FVec F S1 .f32 := Host.absf main_arg30
  let main_cst_58 : FVec F S_ .f32 := constant S_ .f32 0x7F800000#32
  let main_v150 : FVec F S1 .f32 := broadcastInDim S1 ![] bcast_S_S1 main_cst_58
  let main_v151 : IVec S1 1 := cmpf .olt main_v149 main_v150
  let main_c_59 : IVec S_ 1 := constantI S_ 1 1#1
  let main_v152 : IVec S_ 1 := (fun x v => Host.reduce IntOp.andi x v reducesTo_S1_S_d0 h_S_) main_v151 main_c_59
  let main_v153 : IVec S_ 1 := andi main_v148 main_v152
  fn_part9 (F := F) main_arg31 main_arg32 main_arg33 main_arg34 main_arg35 main_arg36 main_arg37 main_arg38 main_v153

def fn_part7 {F : FTy → Type} [FloatOps F] (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  let main_v124 : FVec F S2x2 .f32 := Host.absf main_arg25
  let main_cst_48 : FVec F S_ .f32 := constant S_ .f32 0x7F800000#32
  let main_v125 : FVec F S2x2 .f32 := broadcastInDim S2x2 ![] bcast_S_S2x2 main_cst_48
  let main_v126 : IVec S2x2 1 := cmpf .olt main_v124 main_v125
  let main_c_49 : IVec S_ 1 := constantI S_ 1 1#1
  let main_v127 : IVec S_ 1 := (fun x v => Host.reduce IntOp.andi x v reducesTo_S2x2_S_d0_1 h_S_) main_v126 main_c_49
  let main_v128 : IVec S_ 1 := andi main_v123 main_v127
  let main_v129 : FVec F S2 .f32 := Host.absf main_arg26
  let main_cst_50 : FVec F S_ .f32 := constant S_ .f32 0x7F800000#32
  let main_v130 : FVec F S2 .f32 := broadcastInDim S2 ![] bcast_S_S2 main_cst_50
  let main_v131 : IVec S2 1 := cmpf .olt main_v129 main_v130
  let main_c_51 : IVec S_ 1 := constantI S_ 1 1#1
  let main_v132 : IVec S_ 1 := (fun x v => Host.reduce IntOp.andi x v reducesTo_S2_S_d0 h_S_) main_v131 main_c_51
  let main_v133 : IVec S_ 1 := andi main_v128 main_v132
  let main_v134 : FVec F S8x4 .f32 := Host.absf main_arg27
  let main_cst_52 : FVec F S_ .f32 := constant S_ .f32 0x7F800000#32
  let main_v135 : FVec F S8x4 .f32 := broadcastInDim S8x4 ![] bcast_S_S8x4 main_cst_52
  let main_v136 : IVec S8x4 1 := cmpf .olt main_v134 main_v135
  fn_part8 (F := F) main_arg28 main_arg29 main_arg30 main_arg31 main_arg32 main_arg33 main_arg34 main_arg35 main_arg36 main_arg37 main_arg38 main_v133 main_v136

def fn_part6 {F : FTy → Type} [FloatOps F] (main_arg21 : FVec F S4x4 .f32) (main_arg22 : FVec F S4 .f32) (main_arg23 : FVec F S4x2 .f32) (main_arg24 : FVec F S2 .f32) (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  let main_v104 : FVec F S4x4 .f32 := Host.absf main_arg21
  let main_cst_40 : FVec F S_ .f32 := constant S_ .f32 0x7F800000#32
  let main_v105 : FVec F S4x4 .f32 := broadcastInDim S4x4 ![] bcast_S_S4x4 main_cst_40
  let main_v106 : IVec S4x4 1 := cmpf .olt main_v104 main_v105
  let main_c_41 : IVec S_ 1 := constantI S_ 1 1#1
  let main_v107 : IVec S_ 1 := (fun x v => Host.reduce IntOp.andi x v reducesTo_S4x4_S_d0_1 h_S_) main_v106 main_c_41
  let main_v108 : IVec S_ 1 := andi main_v103 main_v107
  let main_v109 : FVec F S4 .f32 := Host.absf main_arg22
  let main_cst_42 : FVec F S_ .f32 := constant S_ .f32 0x7F800000#32
  let main_v110 : FVec F S4 .f32 := broadcastInDim S4 ![] bcast_S_S4 main_cst_42
  let main_v111 : IVec S4 1 := cmpf .olt main_v109 main_v110
  let main_c_43 : IVec S_ 1 := constantI S_ 1 1#1
  let main_v112 : IVec S_ 1 := (fun x v => Host.reduce IntOp.andi x v reducesTo_S4_S_d0 h_S_) main_v111 main_c_43
  let main_v113 : IVec S_ 1 := andi main_v108 main_v112
  let main_v114 : FVec F S4x2 .f32 := Host.absf main_arg23
  let main_cst_44 : FVec F S_ .f32 := constant S_ .f32 0x7F800000#32
  let main_v115 : FVec F S4x2 .f32 := broadcastInDim S4x2 ![] bcast_S_S4x2 main_cst_44
  let main_v116 : IVec S4x2 1 := cmpf .olt main_v114 main_v115
  let main_c_45 : IVec S_ 1 := constantI S_ 1 1#1
  let main_v117 : IVec S_ 1 := (fun x v => Host.reduce IntOp.andi x v reducesTo_S4x2_S_d0_1 h_S_) main_v116 main_c_45
  let main_v118 : IVec S_ 1 := andi main_v113 main_v117
  let main_v119 : FVec F S2 .f32 := Host.absf main_arg24
  fn_part7 (F := F) main_arg25 main_arg26 main_arg27 main_arg28 main_arg29 main_arg30 main_arg31 main_arg32 main_arg33 main_arg34 main_arg35 main_arg36 main_arg37 main_arg38 main_v118 main_v119

def fn_part5 {F : FTy → Type} [FloatOps F] (main_arg18 : FVec F S6 .f32) (main_arg19 : FVec F S6x4 .f32) (main_arg20 : FVec F S4 .f32) (main_arg21 : FVec F S4x4 .f32) (main_arg22 : FVec F S4 .f32) (main_arg23 : FVec F S4x2 .f32) (main_arg24 : FVec F S2 .f32) (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v83 : IVec S_ 1) (main_v84 : FVec F S16x6 .f32) (main_cst_32 : FVec F S_ .f32) : IVec S_ 1 :=
  let main_v85 : FVec F S16x6 .f32 := broadcastInDim S16x6 ![] bcast_S_S16x6 main_cst_32
  let main_v86 : IVec S16x6 1 := cmpf .olt main_v84 main_v85
  let main_c_33 : IVec S_ 1 := constantI S_ 1 1#1
  let main_v87 : IVec S_ 1 := (fun x v => Host.reduce IntOp.andi x v reducesTo_S16x6_S_d0_1 h_S_) main_v86 main_c_33
  let main_v88 : IVec S_ 1 := andi main_v83 main_v87
  let main_v89 : FVec F S6 .f32 := Host.absf main_arg18
  let main_cst_34 : FVec F S_ .f32 := constant S_ .f32 0x7F800000#32
  let main_v90 : FVec F S6 .f32 := broadcastInDim S6 ![] bcast_S_S6 main_cst_34
  let main_v91 : IVec S6 1 := cmpf .olt main_v89 main_v90
  let main_c_35 : IVec S_ 1 := constantI S_ 1 1#1
  let main_v92 : IVec S_ 1 := (fun x v => Host.reduce IntOp.andi x v reducesTo_S6_S_d0 h_S_) main_v91 main_c_35
  let main_v93 : IVec S_ 1 := andi main_v88 main_v92
  let main_v94 : FVec F S6x4 .f32 := Host.absf main_arg19
  let main_cst_36 : FVec F S_ .f32 := constant S_ .f32 0x7F800000#32
  let main_v95 : FVec F S6x4 .f32 := broadcastInDim S6x4 ![] bcast_S_S6x4 main_cst_36
  let main_v96 : IVec S6x4 1 := cmpf .olt main_v94 main_v95
  let main_c_37 : IVec S_ 1 := constantI S_ 1 1#1
  let main_v97 : IVec S_ 1 := (fun x v => Host.reduce IntOp.andi x v reducesTo_S6x4_S_d0_1 h_S_) main_v96 main_c_37
  let main_v98 : IVec S_ 1 := andi main_v93 main_v97
  let main_v99 : FVec F S4 .f32 := Host.absf main_arg20
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_arg37 main_arg38 main_v98 main_v101 main_c_39

def fn_part4 {F : FTy → Type} [FloatOps F] (main_arg14 : FVec F S16 .f32) (main_arg15 : FVec F S16x16 .f32) (main_arg16 : FVec F S16 .f32) (main_arg17 : FVec F S16x6 .f32) (main_arg18 : FVec F S6 .f32) (main_arg19 : FVec F S6x4 .f32) (main_arg20 : FVec F S4 .f32) (main_arg21 : FVec F S4x4 .f32) (main_arg22 : FVec F S4 .f32) (main_arg23 : FVec F S4x2 .f32) (main_arg24 : FVec F S2 .f32) (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v63 : IVec S_ 1) (main_v67 : IVec S_ 1) : IVec S_ 1 :=
  let main_v68 : IVec S_ 1 := andi main_v63 main_v67
  let main_v69 : FVec F S16 .f32 := Host.absf main_arg14
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16x16 .f32 := Host.absf main_arg15
  let main_cst_28 : FVec F S_ .f32 := constant S_ .f32 0x7F800000#32
  let main_v75 : FVec F S16x16 .f32 := broadcastInDim S16x16 ![] bcast_S_S16x16 main_cst_28
  let main_v76 : IVec S16x16 1 := cmpf .olt main_v74 main_v75
  let main_c_29 : IVec S_ 1 := constantI S_ 1 1#1
  let main_v77 : IVec S_ 1 := (fun x v => Host.reduce IntOp.andi x v reducesTo_S16x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x6 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v83 main_v84 main_cst_32

def fn_part3 {F : FTy → Type} [FloatOps F] (main_arg11 : FVec F S6x6 .f32) (main_arg12 : FVec F S6 .f32) (main_arg13 : FVec F S11x16 .f32) (main_arg14 : FVec F S16 .f32) (main_arg15 : FVec F S16x16 .f32) (main_arg16 : FVec F S16 .f32) (main_arg17 : FVec F S16x6 .f32) (main_arg18 : FVec F S6 .f32) (main_arg19 : FVec F S6x4 .f32) (main_arg20 : FVec F S4 .f32) (main_arg21 : FVec F S4x4 .f32) (main_arg22 : FVec F S4 .f32) (main_arg23 : FVec F S4x2 .f32) (main_arg24 : FVec F S2 .f32) (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S6x6 .f32 := Host.absf main_arg11
  let main_cst_20 : FVec F S_ .f32 := constant S_ .f32 0x7F800000#32
  let main_v55 : FVec F S6x6 .f32 := broadcastInDim S6x6 ![] bcast_S_S6x6 main_cst_20
  let main_v56 : IVec S6x6 1 := cmpf .olt main_v54 main_v55
  let main_c_21 : IVec S_ 1 := constantI S_ 1 1#1
  let main_v57 : IVec S_ 1 := (fun x v => Host.reduce IntOp.andi x v reducesTo_S6x6_S_d0_1 h_S_) main_v56 main_c_21
  let main_v58 : IVec S_ 1 := andi main_v53 main_v57
  let main_v59 : FVec F S6 .f32 := Host.absf main_arg12
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  let main_v64 : FVec F S11x16 .f32 := Host.absf main_arg13
  let main_cst_24 : FVec F S_ .f32 := constant S_ .f32 0x7F800000#32
  let main_v65 : FVec F S11x16 .f32 := broadcastInDim S11x16 ![] bcast_S_S11x16 main_cst_24
  let main_v66 : IVec S11x16 1 := cmpf .olt main_v64 main_v65
  let main_c_25 : IVec S_ 1 := constantI S_ 1 1#1
  let main_v67 : IVec S_ 1 := (fun x v => Host.reduce IntOp.andi x v reducesTo_S11x16_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v63 main_v67

def fn_part2 {F : FTy → Type} [FloatOps F] (main_arg7 : FVec F S4x4 .f32) (main_arg8 : FVec F S4 .f32) (main_arg9 : FVec F S6x6 .f32) (main_arg10 : FVec F S6 .f32) (main_arg11 : FVec F S6x6 .f32) (main_arg12 : FVec F S6 .f32) (main_arg13 : FVec F S11x16 .f32) (main_arg14 : FVec F S16 .f32) (main_arg15 : FVec F S16x16 .f32) (main_arg16 : FVec F S16 .f32) (main_arg17 : FVec F S16x6 .f32) (main_arg18 : FVec F S6 .f32) (main_arg19 : FVec F S6x4 .f32) (main_arg20 : FVec F S4 .f32) (main_arg21 : FVec F S4x4 .f32) (main_arg22 : FVec F S4 .f32) (main_arg23 : FVec F S4x2 .f32) (main_arg24 : FVec F S2 .f32) (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v33 : IVec S_ 1) : IVec S_ 1 :=
  let main_v34 : FVec F S4x4 .f32 := Host.absf main_arg7
  let main_cst_12 : FVec F S_ .f32 := constant S_ .f32 0x7F800000#32
  let main_v35 : FVec F S4x4 .f32 := broadcastInDim S4x4 ![] bcast_S_S4x4 main_cst_12
  let main_v36 : IVec S4x4 1 := cmpf .olt main_v34 main_v35
  let main_c_13 : IVec S_ 1 := constantI S_ 1 1#1
  let main_v37 : IVec S_ 1 := (fun x v => Host.reduce IntOp.andi x v reducesTo_S4x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S6x6 .f32 := Host.absf main_arg9
  let main_cst_16 : FVec F S_ .f32 := constant S_ .f32 0x7F800000#32
  let main_v45 : FVec F S6x6 .f32 := broadcastInDim S6x6 ![] bcast_S_S6x6 main_cst_16
  let main_v46 : IVec S6x6 1 := cmpf .olt main_v44 main_v45
  let main_c_17 : IVec S_ 1 := constantI S_ 1 1#1
  let main_v47 : IVec S_ 1 := (fun x v => Host.reduce IntOp.andi x v reducesTo_S6x6_S_d0_1 h_S_) main_v46 main_c_17
  let main_v48 : IVec S_ 1 := andi main_v43 main_v47
  let main_v49 : FVec F S6 .f32 := Host.absf main_arg10
  let main_cst_18 : FVec F S_ .f32 := constant S_ .f32 0x7F800000#32
  let main_v50 : FVec F S6 .f32 := broadcastInDim S6 ![] bcast_S_S6 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v48 main_v49 main_v50

def fn_part1 {F : FTy → Type} [FloatOps F] (main_arg4 : FVec F S2 .f32) (main_arg5 : FVec F S4x4 .f32) (main_arg6 : FVec F S4 .f32) (main_arg7 : FVec F S4x4 .f32) (main_arg8 : FVec F S4 .f32) (main_arg9 : FVec F S6x6 .f32) (main_arg10 : FVec F S6 .f32) (main_arg11 : FVec F S6x6 .f32) (main_arg12 : FVec F S6 .f32) (main_arg13 : FVec F S11x16 .f32) (main_arg14 : FVec F S16 .f32) (main_arg15 : FVec F S16x16 .f32) (main_arg16 : FVec F S16 .f32) (main_arg17 : FVec F S16x6 .f32) (main_arg18 : FVec F S6 .f32) (main_arg19 : FVec F S6x4 .f32) (main_arg20 : FVec F S4 .f32) (main_arg21 : FVec F S4x4 .f32) (main_arg22 : FVec F S4 .f32) (main_arg23 : FVec F S4x2 .f32) (main_arg24 : FVec F S2 .f32) (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) (main_v13 : IVec S_ 1) (main_v16 : IVec S2x2 1) : IVec S_ 1 :=
  let main_c_5 : IVec S_ 1 := constantI S_ 1 1#1
  let main_v17 : IVec S_ 1 := (fun x v => Host.reduce IntOp.andi x v reducesTo_S2x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S4x4 .f32 := Host.absf main_arg5
  let main_cst_8 : FVec F S_ .f32 := constant S_ .f32 0x7F800000#32
  let main_v25 : FVec F S4x4 .f32 := broadcastInDim S4x4 ![] bcast_S_S4x4 main_cst_8
  let main_v26 : IVec S4x4 1 := cmpf .olt main_v24 main_v25
  let main_c_9 : IVec S_ 1 := constantI S_ 1 1#1
  let main_v27 : IVec S_ 1 := (fun x v => Host.reduce IntOp.andi x v reducesTo_S4x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v33

def fn {F : FTy → Type} [FloatOps F] (main_arg0 : FVec F S2000000x11 .f32) (main_arg1 : FVec F S2x2 .f32) (main_arg2 : FVec F S2 .f32) (main_arg3 : FVec F S2x2 .f32) (main_arg4 : FVec F S2 .f32) (main_arg5 : FVec F S4x4 .f32) (main_arg6 : FVec F S4 .f32) (main_arg7 : FVec F S4x4 .f32) (main_arg8 : FVec F S4 .f32) (main_arg9 : FVec F S6x6 .f32) (main_arg10 : FVec F S6 .f32) (main_arg11 : FVec F S6x6 .f32) (main_arg12 : FVec F S6 .f32) (main_arg13 : FVec F S11x16 .f32) (main_arg14 : FVec F S16 .f32) (main_arg15 : FVec F S16x16 .f32) (main_arg16 : FVec F S16 .f32) (main_arg17 : FVec F S16x6 .f32) (main_arg18 : FVec F S6 .f32) (main_arg19 : FVec F S6x4 .f32) (main_arg20 : FVec F S4 .f32) (main_arg21 : FVec F S4x4 .f32) (main_arg22 : FVec F S4 .f32) (main_arg23 : FVec F S4x2 .f32) (main_arg24 : FVec F S2 .f32) (main_arg25 : FVec F S2x2 .f32) (main_arg26 : FVec F S2 .f32) (main_arg27 : FVec F S8x4 .f32) (main_arg28 : FVec F S4 .f32) (main_arg29 : FVec F S4x1 .f32) (main_arg30 : FVec F S1 .f32) (main_arg31 : FVec F S6x4 .f32) (main_arg32 : FVec F S4 .f32) (main_arg33 : FVec F S4x1 .f32) (main_arg34 : FVec F S1 .f32) (main_arg35 : FVec F S4x4 .f32) (main_arg36 : FVec F S4 .f32) (main_arg37 : FVec F S4x1 .f32) (main_arg38 : FVec F S1 .f32) : IVec S_ 1 :=
  let main_v0 : FVec F S2000000x11 .f32 := Host.absf main_arg0
  let main_cst : FVec F S_ .f32 := constant S_ .f32 0x7F800000#32
  let main_v1 : FVec F S2000000x11 .f32 := broadcastInDim S2000000x11 ![] bcast_S_S2000000x11 main_cst
  let main_v2 : IVec S2000000x11 1 := cmpf .olt main_v0 main_v1
  let main_c : IVec S_ 1 := constantI S_ 1 1#1
  let main_v3 : IVec S_ 1 := (fun x v => Host.reduce IntOp.andi x v reducesTo_S2000000x11_S_d0_1 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2x2 .f32 := Host.absf main_arg3
  let main_cst_4 : FVec F S_ .f32 := constant S_ .f32 0x7F800000#32
  let main_v15 : FVec F S2x2 .f32 := broadcastInDim S2x2 ![] bcast_S_S2x2 main_cst_4
  let main_v16 : IVec S2x2 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v13 main_v16
-- ==== Kernel.lean ====
abbrev S2000000x11 : Shape := ⟨2, ![2000000, 11]⟩
abbrev S2x2 : Shape := ⟨2, ![2, 2]⟩
abbrev S2 : Shape := ⟨1, ![2]⟩
abbrev S4x4 : Shape := ⟨2, ![4, 4]⟩
abbrev S4 : Shape := ⟨1, ![4]⟩
abbrev S6x6 : Shape := ⟨2, ![6, 6]⟩
abbrev S6 : Shape := ⟨1, ![6]⟩
abbrev S11x16 : Shape := ⟨2, ![11, 16]⟩
abbrev S16 : Shape := ⟨1, ![16]⟩
abbrev S16x16 : Shape := ⟨2, ![16, 16]⟩
abbrev S16x6 : Shape := ⟨2, ![16, 6]⟩
abbrev S6x4 : Shape := ⟨2, ![6, 4]⟩
abbrev S4x2 : Shape := ⟨2, ![4, 2]⟩
abbrev S8x4 : Shape := ⟨2, ![8, 4]⟩
abbrev S4x1 : Shape := ⟨2, ![4, 1]⟩
abbrev S1 : Shape := ⟨1, ![1]⟩
abbrev S2000000x3 : Shape := ⟨2, ![2000000, 3]⟩
abbrev S8000x11 : Shape := ⟨2, ![8000, 11]⟩
abbrev S8000x3 : Shape := ⟨2, ![8000, 3]⟩
abbrev S8000x1 : Shape := ⟨2, ![8000, 1]⟩
abbrev S8000x2 : Shape := ⟨2, ![8000, 2]⟩
abbrev S8000x5 : Shape := ⟨2, ![8000, 5]⟩
abbrev S1x2 : Shape := ⟨2, ![1, 2]⟩
abbrev S8000x4 : Shape := ⟨2, ![8000, 4]⟩
abbrev S1x4 : Shape := ⟨2, ![1, 4]⟩
abbrev S8000x6 : Shape := ⟨2, ![8000, 6]⟩
abbrev S1x6 : Shape := ⟨2, ![1, 6]⟩
abbrev S8000x16 : Shape := ⟨2, ![8000, 16]⟩
abbrev S1x16 : Shape := ⟨2, ![1, 16]⟩
abbrev S8000x8 : Shape := ⟨2, ![8000, 8]⟩
abbrev S1x1 : Shape := ⟨2, ![1, 1]⟩

abbrev nBuf : Space → Nat
  | .hbm => 40
  | .vmem => 42
  | .smem => 0
  | _ => 0

abbrev bufTy : (tb : Table) → Fin (tcTables nBuf tb) → BufTy
  | .hbm, ⟨0, _⟩ => ⟨S2000000x11, .f32⟩
  | .hbm, ⟨1, _⟩ => ⟨S2x2, .f32⟩
  | .hbm, ⟨2, _⟩ => ⟨S2, .f32⟩
  | .hbm, ⟨3, _⟩ => ⟨S2x2, .f32⟩
  | .hbm, ⟨4, _⟩ => ⟨S2, .f32⟩
  | .hbm, ⟨5, _⟩ => ⟨S4x4, .f32⟩
  | .hbm, ⟨6, _⟩ => ⟨S4, .f32⟩
  | .hbm, ⟨7, _⟩ => ⟨S4x4, .f32⟩
  | .hbm, ⟨8, _⟩ => ⟨S4, .f32⟩
  | .hbm, ⟨9, _⟩ => ⟨S6x6, .f32⟩
  | .hbm, ⟨10, _⟩ => ⟨S6, .f32⟩
  | .hbm, ⟨11, _⟩ => ⟨S6x6, .f32⟩
  | .hbm, ⟨12, _⟩ => ⟨S6, .f32⟩
  | .hbm, ⟨13, _⟩ => ⟨S11x16, .f32⟩
  | .hbm, ⟨14, _⟩ => ⟨S16, .f32⟩
  | .hbm, ⟨15, _⟩ => ⟨S16x16, .f32⟩
  | .hbm, ⟨16, _⟩ => ⟨S16, .f32⟩
  | .hbm, ⟨17, _⟩ => ⟨S16x6, .f32⟩
  | .hbm, ⟨18, _⟩ => ⟨S6, .f32⟩
  | .hbm, ⟨19, _⟩ => ⟨S6x4, .f32⟩
  | .hbm, ⟨20, _⟩ => ⟨S4, .f32⟩
  | .hbm, ⟨21, _⟩ => ⟨S4x4, .f32⟩
  | .hbm, ⟨22, _⟩ => ⟨S4, .f32⟩
  | .hbm, ⟨23, _⟩ => ⟨S4x2, .f32⟩
  | .hbm, ⟨24, _⟩ => ⟨S2, .f32⟩
  | .hbm, ⟨25, _⟩ => ⟨S2x2, .f32⟩
  | .hbm, ⟨26, _⟩ => ⟨S2, .f32⟩
  | .hbm, ⟨27, _⟩ => ⟨S8x4, .f32⟩
  | .hbm, ⟨28, _⟩ => ⟨S4, .f32⟩
  | .hbm, ⟨29, _⟩ => ⟨S4x1, .f32⟩
  | .hbm, ⟨30, _⟩ => ⟨S1, .f32⟩
  | .hbm, ⟨31, _⟩ => ⟨S6x4, .f32⟩
  | .hbm, ⟨32, _⟩ => ⟨S4, .f32⟩
  | .hbm, ⟨33, _⟩ => ⟨S4x1, .f32⟩
  | .hbm, ⟨34, _⟩ => ⟨S1, .f32⟩
  | .hbm, ⟨35, _⟩ => ⟨S4x4, .f32⟩
  | .hbm, ⟨36, _⟩ => ⟨S4, .f32⟩
  | .hbm, ⟨37, _⟩ => ⟨S4x1, .f32⟩
  | .hbm, ⟨38, _⟩ => ⟨S1, .f32⟩
  | .hbm, ⟨39, _⟩ => ⟨S2000000x3, .f32⟩
  | .local _ .vmem, ⟨0, _⟩ => ⟨S8000x11, .f32⟩
  | .local _ .vmem, ⟨1, _⟩ => ⟨S8000x11, .f32⟩
  | .local _ .vmem, ⟨2, _⟩ => ⟨S2x2, .f32⟩
  | .local _ .vmem, ⟨3, _⟩ => ⟨S2, .f32⟩
  | .local _ .vmem, ⟨4, _⟩ => ⟨S2x2, .f32⟩
  | .local _ .vmem, ⟨5, _⟩ => ⟨S2, .f32⟩
  | .local _ .vmem, ⟨6, _⟩ => ⟨S4x4, .f32⟩
  | .local _ .vmem, ⟨7, _⟩ => ⟨S4, .f32⟩
  | .local _ .vmem, ⟨8, _⟩ => ⟨S4x4, .f32⟩
  | .local _ .vmem, ⟨9, _⟩ => ⟨S4, .f32⟩
  | .local _ .vmem, ⟨10, _⟩ => ⟨S6x6, .f32⟩
  | .local _ .vmem, ⟨11, _⟩ => ⟨S6, .f32⟩
  | .local _ .vmem, ⟨12, _⟩ => ⟨S6x6, .f32⟩
  | .local _ .vmem, ⟨13, _⟩ => ⟨S6, .f32⟩
  | .local _ .vmem, ⟨14, _⟩ => ⟨S11x16, .f32⟩
  | .local _ .vmem, ⟨15, _⟩ => ⟨S16, .f32⟩
  | .local _ .vmem, ⟨16, _⟩ => ⟨S16x16, .f32⟩
  | .local _ .vmem, ⟨17, _⟩ => ⟨S16, .f32⟩
  | .local _ .vmem, ⟨18, _⟩ => ⟨S16x6, .f32⟩
  | .local _ .vmem, ⟨19, _⟩ => ⟨S6, .f32⟩
  | .local _ .vmem, ⟨20, _⟩ => ⟨S6x4, .f32⟩
  | .local _ .vmem, ⟨21, _⟩ => ⟨S4, .f32⟩
  | .local _ .vmem, ⟨22, _⟩ => ⟨S4x4, .f32⟩
  | .local _ .vmem, ⟨23, _⟩ => ⟨S4, .f32⟩
  | .local _ .vmem, ⟨24, _⟩ => ⟨S4x2, .f32⟩
  | .local _ .vmem, ⟨25, _⟩ => ⟨S2, .f32⟩
  | .local _ .vmem, ⟨26, _⟩ => ⟨S2x2, .f32⟩
  | .local _ .vmem, ⟨27, _⟩ => ⟨S2, .f32⟩
  | .local _ .vmem, ⟨28, _⟩ => ⟨S8x4, .f32⟩
  | .local _ .vmem, ⟨29, _⟩ => ⟨S4, .f32⟩
  | .local _ .vmem, ⟨30, _⟩ => ⟨S4x1, .f32⟩
  | .local _ .vmem, ⟨31, _⟩ => ⟨S1, .f32⟩
  | .local _ .vmem, ⟨32, _⟩ => ⟨S6x4, .f32⟩
  | .local _ .vmem, ⟨33, _⟩ => ⟨S4, .f32⟩
  | .local _ .vmem, ⟨34, _⟩ => ⟨S4x1, .f32⟩
  | .local _ .vmem, ⟨35, _⟩ => ⟨S1, .f32⟩
  | .local _ .vmem, ⟨36, _⟩ => ⟨S4x4, .f32⟩
  | .local _ .vmem, ⟨37, _⟩ => ⟨S4, .f32⟩
  | .local _ .vmem, ⟨38, _⟩ => ⟨S4x1, .f32⟩
  | .local _ .vmem, ⟨39, _⟩ => ⟨S1, .f32⟩
  | .local _ .vmem, ⟨40, _⟩ => ⟨S8000x3, .f32⟩
  | .local _ .vmem, ⟨41, _⟩ => ⟨S8000x3, .f32⟩
  | _, _ => ⟨S2000000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg33_0 : Ref sig .tc := ⟨.vmem, 34, rfl⟩
abbrev cc0_stg34_0 : Ref sig .tc := ⟨.vmem, 35, rfl⟩
abbrev cc0_stg35_0 : Ref sig .tc := ⟨.vmem, 36, rfl⟩
abbrev cc0_stg36_0 : Ref sig .tc := ⟨.vmem, 37, rfl⟩
abbrev cc0_stg37_0 : Ref sig .tc := ⟨.vmem, 38, rfl⟩
abbrev cc0_stg38_0 : Ref sig .tc := ⟨.vmem, 39, rfl⟩
abbrev cc0_stg39_0 : Ref sig .tc := ⟨.vmem, 40, rfl⟩
abbrev cc0_stg39_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem33_0 : DmaSem sig := 34
abbrev cc0_sem34_0 : DmaSem sig := 35
abbrev cc0_sem35_0 : DmaSem sig := 36
abbrev cc0_sem36_0 : DmaSem sig := 37
abbrev cc0_sem37_0 : DmaSem sig := 38
abbrev cc0_sem38_0 : DmaSem sig := 39
abbrev cc0_sem39_0 : DmaSem sig := 40
abbrev cc0_sem39_1 : DmaSem sig := 41

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S11x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x6 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S6 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S6x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4x2 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2x2 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S2 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S8x4 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S4 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S4x1 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S6x4 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S4 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S4x1 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S4x4 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S4 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S4x1 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 2 → Memref sig .tc .vmem S8000x3 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

class Facts₀ : Prop where
  inb_S2x2_S2x2_0_0 : ∀ a, (![0, 0] : Fin 2 → Nat) a + S2x2.size a ≤ S2x2.size a
  h_S2x2 : 0 < S2x2.numel
  inb_S2_S2_0 : ∀ a, (![0] : Fin 1 → Nat) a + S2.size a ≤ S2.size a
  h_S2 : 0 < S2.numel
  inb_S4x4_S4x4_0_0 : ∀ a, (![0, 0] : Fin 2 → Nat) a + S4x4.size a ≤ S4x4.size a
  h_S4x4 : 0 < S4x4.numel
  inb_S4_S4_0 : ∀ a, (![0] : Fin 1 → Nat) a + S4.size a ≤ S4.size a
  h_S4 : 0 < S4.numel
  inb_S6x6_S6x6_0_0 : ∀ a, (![0, 0] : Fin 2 → Nat) a + S6x6.size a ≤ S6x6.size a
  h_S6x6 : 0 < S6x6.numel
  inb_S6_S6_0 : ∀ a, (![0] : Fin 1 → Nat) a + S6.size a ≤ S6.size a
  h_S6 : 0 < S6.numel
  inb_S11x16_S11x16_0_0 : ∀ a, (![0, 0] : Fin 2 → Nat) a + S11x16.size a ≤ S11x16.size a
  h_S11x16 : 0 < S11x16.numel
  inb_S16_S16_0 : ∀ a, (![0] : Fin 1 → Nat) a + S16.size a ≤ S16.size a
  h_S16 : 0 < S16.numel
  inb_S16x16_S16x16_0_0 : ∀ a, (![0, 0] : Fin 2 → Nat) a + S16x16.size a ≤ S16x16.size a
  h_S16x16 : 0 < S16x16.numel
  inb_S16x6_S16x6_0_0 : ∀ a, (![0, 0] : Fin 2 → Nat) a + S16x6.size a ≤ S16x6.size a
  h_S16x6 : 0 < S16x6.numel
  inb_S6x4_S6x4_0_0 : ∀ a, (![0, 0] : Fin 2 → Nat) a + S6x4.size a ≤ S6x4.size a
  h_S6x4 : 0 < S6x4.numel
  inb_S4x2_S4x2_0_0 : ∀ a, (![0, 0] : Fin 2 → Nat) a + S4x2.size a ≤ S4x2.size a
  h_S4x2 : 0 < S4x2.numel
  inb_S8x4_S8x4_0_0 : ∀ a, (![0, 0] : Fin 2 → Nat) a + S8x4.size a ≤ S8x4.size a
  h_S8x4 : 0 < S8x4.numel
  inb_S4x1_S4x1_0_0 : ∀ a, (![0, 0] : Fin 2 → Nat) a + S4x1.size a ≤ S4x1.size a
  h_S4x1 : 0 < S4x1.numel
  inb_S1_S1_0 : ∀ a, (![0] : Fin 1 → Nat) a + S1.size a ≤ S1.size a
  h_S1 : 0 < S1.numel
  inb_S8000x11_S8000x11_0_0 : ∀ a, (![0, 0] : Fin 2 → Nat) a + S8000x11.size a ≤ S8000x11.size a
  h_S8000x11 : 0 < S8000x11.numel
  slices_S8000x11_o0_2_S8000x1 : S8000x11.Slices ![0, 2] S8000x1
  slices_S8000x11_o0_3_S8000x1 : S8000x11.Slices ![0, 3] S8000x1
  slices_S8000x11_o0_4_S8000x1 : S8000x11.Slices ![0, 4] S8000x1
  slices_S8000x11_o0_8_S8000x1 : S8000x11.Slices ![0, 8] S8000x1
  slices_S8000x11_o0_9_S8000x1 : S8000x11.Slices ![0, 9] S8000x1
  slices_S8000x11_o0_10_S8000x1 : S8000x11.Slices ![0, 10] S8000x1
  slices_S8000x11_o0_0_S8000x2 : S8000x11.Slices ![0, 0] S8000x2
  slices_S8000x11_o0_5_S8000x3 : S8000x11.Slices ![0, 5] S8000x3
  concatenates_S8000x2_S8000x3_S8000x5_d1 : Shape.Concatenates [S8000x2, S8000x3] S8000x5 1
  concatenates_S8000x1_S8000x1_S8000x2_d1 : Shape.Concatenates [S8000x1, S8000x1] S8000x2 1
  shapeCasts_S2_S1x2 : S2.ShapeCasts S1x2
  broadcasts_S1x2_S8000x2 : S1x2.Broadcasts S8000x2
  concatenates_S8000x1_S8000x1_S8000x2_S8000x4_d1 : Shape.Concatenates [S8000x1, S8000x1, S8000x2] S8000x4 1
  shapeCasts_S4_S1x4 : S4.ShapeCasts S1x4
  broadcasts_S1x4_S8000x4 : S1x4.Broadcasts S8000x4
  concatenates_S8000x1_S8000x1_S8000x4_S8000x6_d1 : Shape.Concatenates [S8000x1, S8000x1, S8000x4] S8000x6 1
  shapeCasts_S6_S1x6 : S6.ShapeCasts S1x6
  broadcasts_S1x6_S8000x6 : S1x6.Broadcasts S8000x6
  concatenates_S8000x5_S8000x6_S8000x11_d1 : Shape.Concatenates [S8000x5, S8000x6] S8000x11 1
  shapeCasts_S16_S1x16 : S16.ShapeCasts S1x16
  broadcasts_S1x16_S8000x16 : S1x16.Broadcasts S8000x16
  concatenates_S8000x1_S8000x1_S8000x6_S8000x8_d1 : Shape.Concatenates [S8000x1, S8000x1, S8000x6] S8000x8 1
  shapeCasts_S1_S1x1 : S1.ShapeCasts S1x1
  broadcasts_S1x1_S8000x1 : S1x1.Broadcasts S8000x1
  concatenates_S8000x1_S8000x1_S8000x1_S8000x3_d1 : Shape.Concatenates [S8000x1, S8000x1, S8000x1] S8000x3 1
  inb_S8000x3_S8000x3_0_0 : ∀ a, (![0, 0] : Fin 2 → Nat) a + S8000x3.size a ≤ S8000x3.size a
  h_S8000x3 : 0 < S8000x3.numel
  dot_S8000x2_S2x2_S8000x2_1_0_0_1_n_n_wf : DotDims.WF S8000x2 S2x2 S8000x2 [1] [0] [0] [1] [] []
  dot_S8000x4_S4x4_S8000x4_1_0_0_1_n_n_wf : DotDims.WF S8000x4 S4x4 S8000x4 [1] [0] [0] [1] [] []
  dot_S8000x6_S6x6_S8000x6_1_0_0_1_n_n_wf : DotDims.WF S8000x6 S6x6 S8000x6 [1] [0] [0] [1] [] []
  dot_S8000x11_S11x16_S8000x16_1_0_0_1_n_n_wf : DotDims.WF S8000x11 S11x16 S8000x16 [1] [0] [0] [1] [] []
  dot_S8000x16_S16x16_S8000x16_1_0_0_1_n_n_wf : DotDims.WF S8000x16 S16x16 S8000x16 [1] [0] [0] [1] [] []
  dot_S8000x16_S16x6_S8000x6_1_0_0_1_n_n_wf : DotDims.WF S8000x16 S16x6 S8000x6 [1] [0] [0] [1] [] []
  dot_S8000x6_S6x4_S8000x4_1_0_0_1_n_n_wf : DotDims.WF S8000x6 S6x4 S8000x4 [1] [0] [0] [1] [] []
  dot_S8000x4_S4x2_S8000x2_1_0_0_1_n_n_wf : DotDims.WF S8000x4 S4x2 S8000x2 [1] [0] [0] [1] [] []
  dot_S8000x8_S8x4_S8000x4_1_0_0_1_n_n_wf : DotDims.WF S8000x8 S8x4 S8000x4 [1] [0] [0] [1] [] []
  dot_S8000x4_S4x1_S8000x1_1_0_0_1_n_n_wf : DotDims.WF S8000x4 S4x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x11.size a ≤ S2000000x11.size a
  hwx0_0 : ∀ i : grid0.Coords, EltTy.bits .f32 = 32 ∨ (Rect.block (s := S2000000x11) S8000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2.size a ≤ S2.size a
  hwx0_2 : ∀ i : grid0.Coords, EltTy.bits .f32 = 32 ∨ (Rect.block (s := S2) S2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2.size a ≤ S2x2.size a
  hwx0_3 : ∀ i : grid0.Coords, EltTy.bits .f32 = 32 ∨ (Rect.block (s := S2x2) S2x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2.size a ≤ S2.size a
  hwx0_4 : ∀ i : grid0.Coords, EltTy.bits .f32 = 32 ∨ (Rect.block (s := S2) S2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x4.size a ≤ S4x4.size a
  hwx0_5 : ∀ i : grid0.Coords, EltTy.bits .f32 = 32 ∨ (Rect.block (s := S4x4) S4x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4.size a ≤ S4.size a
  hwx0_6 : ∀ i : grid0.Coords, EltTy.bits .f32 = 32 ∨ (Rect.block (s := S4) S4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x4.size a ≤ S4x4.size a
  hwx0_7 : ∀ i : grid0.Coords, EltTy.bits .f32 = 32 ∨ (Rect.block (s := S4x4) S4x4.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4.size a ≤ S4.size a
  hwx0_8 : ∀ i : grid0.Coords, EltTy.bits .f32 = 32 ∨ (Rect.block (s := S4) S4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x6.size a ≤ S6x6.size a
  hwx0_9 : ∀ i : grid0.Coords, EltTy.bits .f32 = 32 ∨ (Rect.block (s := S6x6) S6x6.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6.size a ≤ S6.size a
  hwx0_10 : ∀ i : grid0.Coords, EltTy.bits .f32 = 32 ∨ (Rect.block (s := S6) S6.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x6.size a ≤ S6x6.size a
  hwx0_11 : ∀ i : grid0.Coords, EltTy.bits .f32 = 32 ∨ (Rect.block (s := S6x6) S6x6.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6.size a ≤ S6.size a
  hwx0_12 : ∀ i : grid0.Coords, EltTy.bits .f32 = 32 ∨ (Rect.block (s := S6) S6.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S11x16.size a ≤ S11x16.size a
  hwx0_13 : ∀ i : grid0.Coords, EltTy.bits .f32 = 32 ∨ (Rect.block (s := S11x16) S11x16.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16.size a ≤ S16.size a
  hwx0_14 : ∀ i : grid0.Coords, EltTy.bits .f32 = 32 ∨ (Rect.block (s := S16) S16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x16.size a ≤ S16x16.size a
  hwx0_15 : ∀ i : grid0.Coords, EltTy.bits .f32 = 32 ∨ (Rect.block (s := S16x16) S16x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16.size a ≤ S16.size a
  hwx0_16 : ∀ i : grid0.Coords, EltTy.bits .f32 = 32 ∨ (Rect.block (s := S16) S16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x6.size a ≤ S16x6.size a
  hwx0_17 : ∀ i : grid0.Coords, EltTy.bits .f32 = 32 ∨ (Rect.block (s := S16x6) S16x6.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S6.size a ≤ S6.size a
  hwx0_18 : ∀ i : grid0.Coords, EltTy.bits .f32 = 32 ∨ (Rect.block (s := S6) S6.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S6x4.size a ≤ S6x4.size a
  hwx0_19 : ∀ i : grid0.Coords, EltTy.bits .f32 = 32 ∨ (Rect.block (s := S6x4) S6x4.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S4.size a ≤ S4.size a
  hwx0_20 : ∀ i : grid0.Coords, EltTy.bits .f32 = 32 ∨ (Rect.block (s := S4) S4.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S4x4.size a ≤ S4x4.size a
  hwx0_21 : ∀ i : grid0.Coords, EltTy.bits .f32 = 32 ∨ (Rect.block (s := S4x4) S4x4.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S4.size a ≤ S4.size a
  hwx0_22 : ∀ i : grid0.Coords, EltTy.bits .f32 = 32 ∨ (Rect.block (s := S4) S4.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S4x2.size a ≤ S4x2.size a
  hwx0_23 : ∀ i : grid0.Coords, EltTy.bits .f32 = 32 ∨ (Rect.block (s := S4x2) S4x2.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S2.size a ≤ S2.size a
  hwx0_24 : ∀ i : grid0.Coords, EltTy.bits .f32 = 32 ∨ (Rect.block (s := S2) S2.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S2x2.size a ≤ S2x2.size a
  hwx0_25 : ∀ i : grid0.Coords, EltTy.bits .f32 = 32 ∨ (Rect.block (s := S2x2) S2x2.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S2.size a ≤ S2.size a
  hwx0_26 : ∀ i : grid0.Coords, EltTy.bits .f32 = 32 ∨ (Rect.block (s := S2) S2.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S8x4.size a ≤ S8x4.size a
  hwx0_27 : ∀ i : grid0.Coords, EltTy.bits .f32 = 32 ∨ (Rect.block (s := S8x4) S8x4.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S4.size a ≤ S4.size a
  hwx0_28 : ∀ i : grid0.Coords, EltTy.bits .f32 = 32 ∨ (Rect.block (s := S4) S4.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S4x1.size a ≤ S4x1.size a
  hwx0_29 : ∀ i : grid0.Coords, EltTy.bits .f32 = 32 ∨ (Rect.block (s := S4x1) S4x1.size (cc0_transform_29 i) (hinb0_29 i)).WholeWords (EltTy.packing .f32)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1.size a ≤ S1.size a
  hwx0_30 : ∀ i : grid0.Coords, EltTy.bits .f32 = 32 ∨ (Rect.block (s := S1) S1.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S6x4.size a ≤ S6x4.size a
  hwx0_31 : ∀ i : grid0.Coords, EltTy.bits .f32 = 32 ∨ (Rect.block (s := S6x4) S6x4.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S4.size a ≤ S4.size a
  hwx0_32 : ∀ i : grid0.Coords, EltTy.bits .f32 = 32 ∨ (Rect.block (s := S4) S4.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S4x1.size a ≤ S4x1.size a
  hwx0_33 : ∀ i : grid0.Coords, EltTy.bits .f32 = 32 ∨ (Rect.block (s := S4x1) S4x1.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1.size a ≤ S1.size a
  hwx0_34 : ∀ i : grid0.Coords, EltTy.bits .f32 = 32 ∨ (Rect.block (s := S1) S1.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S4x4.size a ≤ S4x4.size a
  hwx0_35 : ∀ i : grid0.Coords, EltTy.bits .f32 = 32 ∨ (Rect.block (s := S4x4) S4x4.size (cc0_transform_35 i) (hinb0_35 i)).WholeWords (EltTy.packing .f32)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S4.size a ≤ S4.size a
  hwx0_36 : ∀ i : grid0.Coords, EltTy.bits .f32 = 32 ∨ (Rect.block (s := S4) S4.size (cc0_transform_36 i) (hinb0_36 i)).WholeWords (EltTy.packing .f32)
  hstage0_37 : ∀ j, (stage0_37 j).IsWhole
  nbuf0_37 : grid0.bufCount reads0_37 true = 1
  hreads0_37 : ∀ i i' : grid0.Coords, (∀ a, reads0_37 a = true → i a = i' a) → cc0_transform_37 i = cc0_transform_37 i'
  hinb0_37 : ∀ (i : grid0.Coords) a, (cc0_transform_37 i a + 1) * S4x1.size a ≤ S4x1.size a
  hwx0_37 : ∀ i : grid0.Coords, EltTy.bits .f32 = 32 ∨ (Rect.block (s := S4x1) S4x1.size (cc0_transform_37 i) (hinb0_37 i)).WholeWords (EltTy.packing .f32)
  hstage0_38 : ∀ j, (stage0_38 j).IsWhole
  nbuf0_38 : grid0.bufCount reads0_38 true = 1
  hreads0_38 : ∀ i i' : grid0.Coords, (∀ a, reads0_38 a = true → i a = i' a) → cc0_transform_38 i = cc0_transform_38 i'
  hinb0_38 : ∀ (i : grid0.Coords) a, (cc0_transform_38 i a + 1) * S1.size a ≤ S1.size a
  hwx0_38 : ∀ i : grid0.Coords, EltTy.bits .f32 = 32 ∨ (Rect.block (s := S1) S1.size (cc0_transform_38 i) (hinb0_38 i)).WholeWords (EltTy.packing .f32)
  hstage0_39 : ∀ j, (stage0_39 j).IsWhole
  nbuf0_39 : grid0.bufCount reads0_39 false = 2
  hreads0_39 : ∀ i i' : grid0.Coords, (∀ a, reads0_39 a = true → i a = i' a) → cc0_transform_39 i = cc0_transform_39 i'
  hinb0_39 : ∀ (i : grid0.Coords) a, (cc0_transform_39 i a + 1) * S8000x3.size a ≤ S2000000x3.size a
  hwx0_39 : ∀ i : grid0.Coords, EltTy.bits .f32 = 32 ∨ (Rect.block (s := S2000000x3) S8000x3.size (cc0_transform_39 i) (hinb0_39 i)).WholeWords (EltTy.packing .f32)

variable [Facts₀]

def dot_S8000x2_S2x2_S8000x2_1_0_0_1_n_n : DotDims S8000x2 S2x2 S8000x2 where
  lhsContracting := [1]
  rhsContracting := [0]
  lhsNonContracting := [0]
  rhsNonContracting := [1]
  lhsBatch := []
  rhsBatch := []
  wf := dot_S8000x2_S2x2_S8000x2_1_0_0_1_n_n_wf
def dot_S8000x4_S4x4_S8000x4_1_0_0_1_n_n : DotDims S8000x4 S4x4 S8000x4 where
  lhsContracting := [1]
  rhsContracting := [0]
  lhsNonContracting := [0]
  rhsNonContracting := [1]
  lhsBatch := []
  rhsBatch := []
  wf := dot_S8000x4_S4x4_S8000x4_1_0_0_1_n_n_wf
def dot_S8000x6_S6x6_S8000x6_1_0_0_1_n_n : DotDims S8000x6 S6x6 S8000x6 where
  lhsContracting := [1]
  rhsContracting := [0]
  lhsNonContracting := [0]
  rhsNonContracting := [1]
  lhsBatch := []
  rhsBatch := []
  wf := dot_S8000x6_S6x6_S8000x6_1_0_0_1_n_n_wf
def dot_S8000x11_S11x16_S8000x16_1_0_0_1_n_n : DotDims S8000x11 S11x16 S8000x16 where
  lhsContracting := [1]
  rhsContracting := [0]
  lhsNonContracting := [0]
  rhsNonContracting := [1]
  lhsBatch := []
  rhsBatch := []
  wf := dot_S8000x11_S11x16_S8000x16_1_0_0_1_n_n_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S8000x16_S16x6_S8000x6_1_0_0_1_n_n : DotDims S8000x16 S16x6 S8000x6 where
  lhsContracting := [1]
  rhsContracting := [0]
  lhsNonContracting := [0]
  rhsNonContracting := [1]
  lhsBatch := []
  rhsBatch := []
  wf := dot_S8000x16_S16x6_S8000x6_1_0_0_1_n_n_wf
def dot_S8000x6_S6x4_S8000x4_1_0_0_1_n_n : DotDims S8000x6 S6x4 S8000x4 where
  lhsContracting := [1]
  rhsContracting := [0]
  lhsNonContracting := [0]
  rhsNonContracting := [1]
  lhsBatch := []
  rhsBatch := []
  wf := dot_S8000x6_S6x4_S8000x4_1_0_0_1_n_n_wf
def dot_S8000x4_S4x2_S8000x2_1_0_0_1_n_n : DotDims S8000x4 S4x2 S8000x2 where
  lhsContracting := [1]
  rhsContracting := [0]
  lhsNonContracting := [0]
  rhsNonContracting := [1]
  lhsBatch := []
  rhsBatch := []
  wf := dot_S8000x4_S4x2_S8000x2_1_0_0_1_n_n_wf
def dot_S8000x8_S8x4_S8000x4_1_0_0_1_n_n : DotDims S8000x8 S8x4 S8000x4 where
  lhsContracting := [1]
  rhsContracting := [0]
  lhsNonContracting := [0]
  rhsNonContracting := [1]
  lhsBatch := []
  rhsBatch := []
  wf := dot_S8000x8_S8x4_S8000x4_1_0_0_1_n_n_wf
def dot_S8000x4_S4x1_S8000x1_1_0_0_1_n_n : DotDims S8000x4 S4x1 S8000x1 where
  lhsContracting := [1]
  rhsContracting := [0]
  lhsNonContracting := [0]
  rhsNonContracting := [1]
  lhsBatch := []
  rhsBatch := []
  wf := dot_S8000x4_S4x1_S8000x1_1_0_0_1_n_n_wf

abbrev win0_0 : Pipeline.Window sig grid0 :=
  Pipeline.Window.ofSpec (Memref.whole main_arg0) S8000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S6x6.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S11x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S16x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S16x6.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S6.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S6x4.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S4.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S4x4.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S4.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S4x2.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S2.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S2x2.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S2.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_arg27) S8x4.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S4.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_arg29) S4x1.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg30) S1.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg31) S6x4.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_arg32) S4.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg33) S4x1.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_arg34) S1.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_arg35) S4x4.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_arg36) S4.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_arg37) S4x1.size cc0_transform_37 reads0_37 false true 1 stage0_37 sem0_37
    hrank0 hreads0_37 hinb0_37 nbuf0_37 (Memref.isWhole_whole _) hwx0_37 hstage0_37

abbrev win0_38 : Pipeline.Window sig grid0 :=
  Pipeline.Window.ofSpec (Memref.whole main_arg38) S1.size cc0_transform_38 reads0_38 false true 1 stage0_38 sem0_38
    hrank0 hreads0_38 hinb0_38 nbuf0_38 (Memref.isWhole_whole _) hwx0_38 hstage0_38

abbrev win0_39 : Pipeline.Window sig grid0 :=
  Pipeline.Window.ofSpec (Memref.whole main_v0) S8000x3.size cc0_transform_39 reads0_39 true false 2 stage0_39 sem0_39
    hrank0 hreads0_39 hinb0_39 nbuf0_39 (Memref.isWhole_whole _) hwx0_39 hstage0_39

abbrev win0 : Fin 40 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | ⟨_ + 40, h⟩ => absurd h (Nat.not_lt.2 (Nat.le_add_left _ _))
abbrev spec0 : Fin 40 → Pipeline.WinSpec sig grid0.rank := fun w => (win0 w).toWinSpec

class Facts : Prop extends Facts₀ where

variable [Facts]
-- ==== ReferenceIdeal.lean ====
abbrev S2000000x11 : Shape := ⟨2, ![2000000, 11]⟩
abbrev S2x2 : Shape := ⟨2, ![2, 2]⟩
abbrev S2 : Shape := ⟨1, ![2]⟩
abbrev S4x4 : Shape := ⟨2, ![4, 4]⟩
abbrev S4 : Shape := ⟨1, ![4]⟩
abbrev S6x6 : Shape := ⟨2, ![6, 6]⟩
abbrev S6 : Shape := ⟨1, ![6]⟩
abbrev S11x16 : Shape := ⟨2, ![11, 16]⟩
abbrev S16 : Shape := ⟨1, ![16]⟩
abbrev S16x16 : Shape := ⟨2, ![16, 16]⟩
abbrev S16x6 : Shape := ⟨2, ![16, 6]⟩
abbrev S6x4 : Shape := ⟨2, ![6, 4]⟩
abbrev S4x2 : Shape := ⟨2, ![4, 2]⟩
abbrev S8x4 : Shape := ⟨2, ![8, 4]⟩
abbrev S4x1 : Shape := ⟨2, ![4, 1]⟩
abbrev S1 : Shape := ⟨1, ![1]⟩
abbrev S5 : Shape := ⟨1, ![5]⟩
abbrev S2000000x1 : Shape := ⟨2, ![2000000, 1]⟩
abbrev S_ : Shape := ⟨0, ![]⟩
abbrev S5x1 : Shape := ⟨2, ![5, 1]⟩
abbrev S2000000x5 : Shape := ⟨2, ![2000000, 5]⟩
abbrev S2000000x2 : Shape := ⟨2, ![2000000, 2]⟩
abbrev S1x2 : Shape := ⟨2, ![1, 2]⟩
abbrev S2000000x4 : Shape := ⟨2, ![2000000, 4]⟩
abbrev S1x4 : Shape := ⟨2, ![1, 4]⟩
abbrev S2000000x6 : Shape := ⟨2, ![2000000, 6]⟩
abbrev S1x6 : Shape := ⟨2, ![1, 6]⟩
abbrev S2000000x16 : Shape := ⟨2, ![2000000, 16]⟩
abbrev S1x16 : Shape := ⟨2, ![1, 16]⟩
abbrev S2000000x8 : Shape := ⟨2, ![2000000, 8]⟩
abbrev S1x1 : Shape := ⟨2, ![1, 1]⟩
abbrev S2000000x3 : Shape := ⟨2, ![2000000, 3]⟩

abbrev nBuf : Space → Nat
  | .hbm => 187
  | .vmem => 0
  | .smem => 0
  | _ => 0

abbrev hbmTy0_0 (i : Nat) : BufTy := match i % 128 with
  | 0 => ⟨S2000000x11, .f32⟩
  | 1 => ⟨S2x2, .f32⟩
  | 2 => ⟨S2, .f32⟩
  | 3 => ⟨S2x2, .f32⟩
  | 4 => ⟨S2, .f32⟩
  | 5 => ⟨S4x4, .f32⟩
  | 6 => ⟨S4, .f32⟩
  | 7 => ⟨S4x4, .f32⟩
  | 8 => ⟨S4, .f32⟩
  | 9 => ⟨S6x6, .f32⟩
  | 10 => ⟨S6, .f32⟩
  | 11 => ⟨S6x6, .f32⟩
  | 12 => ⟨S6, .f32⟩
  | 13 => ⟨S11x16, .f32⟩
  | 14 => ⟨S16, .f32⟩
  | 15 => ⟨S16x16, .f32⟩
  | 16 => ⟨S16, .f32⟩
  | 17 => ⟨S16x6, .f32⟩
  | 18 => ⟨S6, .f32⟩
  | 19 => ⟨S6x4, .f32⟩
  | 20 => ⟨S4, .f32⟩
  | 21 => ⟨S4x4, .f32⟩
  | 22 => ⟨S4, .f32⟩
  | 23 => ⟨S4x2, .f32⟩
  | 24 => ⟨S2, .f32⟩
  | 25 => ⟨S2x2, .f32⟩
  | 26 => ⟨S2, .f32⟩
  | 27 => ⟨S8x4, .f32⟩
  | 28 => ⟨S4, .f32⟩
  | 29 => ⟨S4x1, .f32⟩
  | 30 => ⟨S1, .f32⟩
  | 31 => ⟨S6x4, .f32⟩
  | 32 => ⟨S4, .f32⟩
  | 33 => ⟨S4x1, .f32⟩
  | 34 => ⟨S1, .f32⟩
  | 35 => ⟨S4x4, .f32⟩
  | 36 => ⟨S4, .f32⟩
  | 37 => ⟨S4x1, .f32⟩
  | 38 => ⟨S1, .f32⟩
  | 39 => ⟨S5, .i32⟩
  | 40 => ⟨S2000000x1, .f32⟩
  | 41 => ⟨S2000000x1, .f32⟩
  | 42 => ⟨S2000000x1, .f32⟩
  | 43 => ⟨S2000000x1, .f32⟩
  | 44 => ⟨S2000000x1, .f32⟩
  | 45 => ⟨S2000000x1, .f32⟩
  | 46 => ⟨S_, .i32⟩
  | 47 => ⟨S5, .i32⟩
  | 48 => ⟨S5, .i1⟩
  | 49 => ⟨S_, .i32⟩
  | 50 => ⟨S5, .i32⟩
  | 51 => ⟨S5, .i32⟩
  | 52 => ⟨S5, .i32⟩
  | 53 => ⟨S5x1, .i32⟩
  | 54 => ⟨S2000000x5, .f32⟩
  | 55 => ⟨S2000000x2, .f32⟩
  | 56 => ⟨S2000000x2, .f32⟩
  | 57 => ⟨S1x2, .f32⟩
  | 58 => ⟨S2000000x2, .f32⟩
  | 59 => ⟨S2000000x2, .f32⟩
  | 60 => ⟨S_, .f32⟩
  | 61 => ⟨S2000000x2, .f32⟩
  | 62 => ⟨S2000000x2, .f32⟩
  | 63 => ⟨S2000000x2, .f32⟩
  | 64 => ⟨S1x2, .f32⟩
  | 65 => ⟨S2000000x2, .f32⟩
  | 66 => ⟨S2000000x2, .f32⟩
  | 67 => ⟨S_, .f32⟩
  | 68 => ⟨S2000000x2, .f32⟩
  | 69 => ⟨S2000000x2, .f32⟩
  | 70 => ⟨S2000000x4, .f32⟩
  | 71 => ⟨S2000000x4, .f32⟩
  | 72 => ⟨S1x4, .f32⟩
  | 73 => ⟨S2000000x4, .f32⟩
  | 74 => ⟨S2000000x4, .f32⟩
  | 75 => ⟨S_, .f32⟩
  | 76 => ⟨S2000000x4, .f32⟩
  | 77 => ⟨S2000000x4, .f32⟩
  | 78 => ⟨S2000000x4, .f32⟩
  | 79 => ⟨S1x4, .f32⟩
  | 80 => ⟨S2000000x4, .f32⟩
  | 81 => ⟨S2000000x4, .f32⟩
  | 82 => ⟨S_, .f32⟩
  | 83 => ⟨S2000000x4, .f32⟩
  | 84 => ⟨S2000000x4, .f32⟩
  | 85 => ⟨S2000000x6, .f32⟩
  | 86 => ⟨S2000000x6, .f32⟩
  | 87 => ⟨S1x6, .f32⟩
  | 88 => ⟨S2000000x6, .f32⟩
  | 89 => ⟨S2000000x6, .f32⟩
  | 90 => ⟨S_, .f32⟩
  | 91 => ⟨S2000000x6, .f32⟩
  | 92 => ⟨S2000000x6, .f32⟩
  | 93 => ⟨S2000000x6, .f32⟩
  | 94 => ⟨S1x6, .f32⟩
  | 95 => ⟨S2000000x6, .f32⟩
  | 96 => ⟨S2000000x6, .f32⟩
  | 97 => ⟨S_, .f32⟩
  | 98 => ⟨S2000000x6, .f32⟩
  | 99 => ⟨S2000000x6, .f32⟩
  | 100 => ⟨S2000000x11, .f32⟩
  | 101 => ⟨S2000000x16, .f32⟩
  | 102 => ⟨S1x16, .f32⟩
  | 103 => ⟨S2000000x16, .f32⟩
  | 104 => ⟨S2000000x16, .f32⟩
  | 105 => ⟨S_, .f32⟩
  | 106 => ⟨S2000000x16, .f32⟩
  | 107 => ⟨S2000000x16, .f32⟩
  | 108 => ⟨S2000000x16, .f32⟩
  | 109 => ⟨S1x16, .f32⟩
  | 110 => ⟨S2000000x16, .f32⟩
  | 111 => ⟨S2000000x16, .f32⟩
  | 112 => ⟨S_, .f32⟩
  | 113 => ⟨S2000000x16, .f32⟩
  | 114 => ⟨S2000000x16, .f32⟩
  | 115 => ⟨S2000000x6, .f32⟩
  | 116 => ⟨S1x6, .f32⟩
  | 117 => ⟨S2000000x6, .f32⟩
  | 118 => ⟨S2000000x6, .f32⟩
  | 119 => ⟨S_, .f32⟩
  | 120 => ⟨S2000000x6, .f32⟩
  | 121 => ⟨S2000000x6, .f32⟩
  | 122 => ⟨S2000000x4, .f32⟩
  | 123 => ⟨S1x4, .f32⟩
  | 124 => ⟨S2000000x4, .f32⟩
  | 125 => ⟨S2000000x4, .f32⟩
  | 126 => ⟨S_, .f32⟩
  | 127 => ⟨S2000000x4, .f32⟩
  | _ => ⟨S2000000x11, .f32⟩

abbrev hbmTy0_1 (i : Nat) : BufTy := match i % 128 with
  | 0 => ⟨S2000000x4, .f32⟩
  | 1 => ⟨S2000000x4, .f32⟩
  | 2 => ⟨S1x4, .f32⟩
  | 3 => ⟨S2000000x4, .f32⟩
  | 4 => ⟨S2000000x4, .f32⟩
  | 5 => ⟨S_, .f32⟩
  | 6 => ⟨S2000000x4, .f32⟩
  | 7 => ⟨S2000000x4, .f32⟩
  | 8 => ⟨S2000000x2, .f32⟩
  | 9 => ⟨S1x2, .f32⟩
  | 10 => ⟨S2000000x2, .f32⟩
  | 11 => ⟨S2000000x2, .f32⟩
  | 12 => ⟨S_, .f32⟩
  | 13 => ⟨S2000000x2, .f32⟩
  | 14 => ⟨S2000000x2, .f32⟩
  | 15 => ⟨S2000000x2, .f32⟩
  | 16 => ⟨S1x2, .f32⟩
  | 17 => ⟨S2000000x2, .f32⟩
  | 18 => ⟨S2000000x2, .f32⟩
  | 19 => ⟨S_, .f32⟩
  | 20 => ⟨S2000000x2, .f32⟩
  | 21 => ⟨S2000000x2, .f32⟩
  | 22 => ⟨S2000000x8, .f32⟩
  | 23 => ⟨S2000000x4, .f32⟩
  | 24 => ⟨S1x4, .f32⟩
  | 25 => ⟨S2000000x4, .f32⟩
  | 26 => ⟨S2000000x4, .f32⟩
  | 27 => ⟨S_, .f32⟩
  | 28 => ⟨S2000000x4, .f32⟩
  | 29 => ⟨S2000000x4, .f32⟩
  | 30 => ⟨S2000000x1, .f32⟩
  | 31 => ⟨S1x1, .f32⟩
  | 32 => ⟨S2000000x1, .f32⟩
  | 33 => ⟨S2000000x1, .f32⟩
  | 34 => ⟨S2000000x6, .f32⟩
  | 35 => ⟨S2000000x4, .f32⟩
  | 36 => ⟨S1x4, .f32⟩
  | 37 => ⟨S2000000x4, .f32⟩
  | 38 => ⟨S2000000x4, .f32⟩
  | 39 => ⟨S_, .f32⟩
  | 40 => ⟨S2000000x4, .f32⟩
  | 41 => ⟨S2000000x4, .f32⟩
  | 42 => ⟨S2000000x1, .f32⟩
  | 43 => ⟨S1x1, .f32⟩
  | 44 => ⟨S2000000x1, .f32⟩
  | 45 => ⟨S2000000x1, .f32⟩
  | 46 => ⟨S2000000x4, .f32⟩
  | 47 => ⟨S2000000x4, .f32⟩
  | 48 => ⟨S1x4, .f32⟩
  | 49 => ⟨S2000000x4, .f32⟩
  | 50 => ⟨S2000000x4, .f32⟩
  | 51 => ⟨S_, .f32⟩
  | 52 => ⟨S2000000x4, .f32⟩
  | 53 => ⟨S2000000x4, .f32⟩
  | 54 => ⟨S2000000x1, .f32⟩
  | 55 => ⟨S1x1, .f32⟩
  | 56 => ⟨S2000000x1, .f32⟩
  | 57 => ⟨S2000000x1, .f32⟩
  | 58 => ⟨S2000000x3, .f32⟩
  | _ => ⟨S2000000x11, .f32⟩

abbrev hbmTy (i : Nat) : BufTy := match i / 128 with
  | 0 => hbmTy0_0 i
  | 1 => hbmTy0_1 i
  | _ => ⟨S2000000x11, .f32⟩

abbrev bufTy : (tb : Table) → Fin (tcTables nBuf tb) → BufTy
  | .hbm, ⟨i, _⟩ => hbmTy i
  | _, _ => ⟨S2000000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_c : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_c_0 : Ref sig .tc := ⟨.hbm, 46, rfl⟩
abbrev main_v6 : Ref sig .tc := ⟨.hbm, 47, rfl⟩
abbrev main_v7 : Ref sig .tc := ⟨.hbm, 48, rfl⟩
abbrev main_c_1 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_call0_cst : Ref sig .tc := ⟨.hbm, 60, rfl⟩
abbrev main_call0_v0 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_call1_cst : Ref sig .tc := ⟨.hbm, 67, rfl⟩
abbrev main_call1_v0 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_call2_cst : Ref sig .tc := ⟨.hbm, 75, rfl⟩
abbrev main_call2_v0 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_call3_cst : Ref sig .tc := ⟨.hbm, 82, rfl⟩
abbrev main_call3_v0 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_call4_cst : Ref sig .tc := ⟨.hbm, 90, rfl⟩
abbrev main_call4_v0 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_call5_cst : Ref sig .tc := ⟨.hbm, 97, rfl⟩
abbrev main_call5_v0 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_call6_cst : Ref sig .tc := ⟨.hbm, 105, rfl⟩
abbrev main_call6_v0 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_call7_cst : Ref sig .tc := ⟨.hbm, 112, rfl⟩
abbrev main_call7_v0 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_call8_cst : Ref sig .tc := ⟨.hbm, 119, rfl⟩
abbrev main_call8_v0 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_call9_cst : Ref sig .tc := ⟨.hbm, 126, rfl⟩
abbrev main_call9_v0 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_call10_cst : Ref sig .tc := ⟨.hbm, 133, rfl⟩
abbrev main_call10_v0 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_call11_cst : Ref sig .tc := ⟨.hbm, 140, rfl⟩
abbrev main_call11_v0 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_call12_cst : Ref sig .tc := ⟨.hbm, 147, rfl⟩
abbrev main_call12_v0 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_call13_cst : Ref sig .tc := ⟨.hbm, 155, rfl⟩
abbrev main_call13_v0 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_call14_cst : Ref sig .tc := ⟨.hbm, 167, rfl⟩
abbrev main_call14_v0 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_call15_cst : Ref sig .tc := ⟨.hbm, 179, rfl⟩
abbrev main_call15_v0 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩

abbrev nD : Nat := 1
abbrev τ : Topo := Topo.v7x

variable {F : FTy → Type} [FloatOps F]

class Facts₀ : Prop where
  slices_S2000000x11_S2000000x1_0_2 : S2000000x11.Slices ![0, 2] S2000000x1
  slices_S2000000x11_S2000000x1_0_3 : S2000000x11.Slices ![0, 3] S2000000x1
  slices_S2000000x11_S2000000x1_0_4 : S2000000x11.Slices ![0, 4] S2000000x1
  slices_S2000000x11_S2000000x1_0_8 : S2000000x11.Slices ![0, 8] S2000000x1
  slices_S2000000x11_S2000000x1_0_9 : S2000000x11.Slices ![0, 9] S2000000x1
  slices_S2000000x11_S2000000x1_0_10 : S2000000x11.Slices ![0, 10] S2000000x1
  bcast_S_S5 : S_.BroadcastsInDim S5 (![] : Fin 0 → Fin S5.rank)
  bcast_S5_S5x1_0 : S5.BroadcastsInDim S5x1 (![0] : Fin 1 → Fin S5x1.rank)
  concatenates_S2000000x1_S2000000x1_S2000000x2_d1 : Shape.Concatenates [S2000000x1, S2000000x1] S2000000x2 1
  bcast_S2_S1x2_1 : S2.BroadcastsInDim S1x2 (![1] : Fin 1 → Fin S1x2.rank)
  bcast_S1x2_S2000000x2_0_1 : S1x2.BroadcastsInDim S2000000x2 (![0, 1] : Fin 2 → Fin S2000000x2.rank)
  bcast_S_S2000000x2 : S_.BroadcastsInDim S2000000x2 (![] : Fin 0 → Fin S2000000x2.rank)
  concatenates_S2000000x1_S2000000x1_S2000000x2_S2000000x4_d1 : Shape.Concatenates [S2000000x1, S2000000x1, S2000000x2] S2000000x4 1
  bcast_S4_S1x4_1 : S4.BroadcastsInDim S1x4 (![1] : Fin 1 → Fin S1x4.rank)
  bcast_S1x4_S2000000x4_0_1 : S1x4.BroadcastsInDim S2000000x4 (![0, 1] : Fin 2 → Fin S2000000x4.rank)
  bcast_S_S2000000x4 : S_.BroadcastsInDim S2000000x4 (![] : Fin 0 → Fin S2000000x4.rank)
  concatenates_S2000000x1_S2000000x1_S2000000x4_S2000000x6_d1 : Shape.Concatenates [S2000000x1, S2000000x1, S2000000x4] S2000000x6 1
  bcast_S6_S1x6_1 : S6.BroadcastsInDim S1x6 (![1] : Fin 1 → Fin S1x6.rank)
  bcast_S1x6_S2000000x6_0_1 : S1x6.BroadcastsInDim S2000000x6 (![0, 1] : Fin 2 → Fin S2000000x6.rank)
  bcast_S_S2000000x6 : S_.BroadcastsInDim S2000000x6 (![] : Fin 0 → Fin S2000000x6.rank)
  concatenates_S2000000x5_S2000000x6_S2000000x11_d1 : Shape.Concatenates [S2000000x5, S2000000x6] S2000000x11 1
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S2000000x16 : S_.BroadcastsInDim S2000000x16 (![] : Fin 0 → Fin S2000000x16.rank)
  concatenates_S2000000x1_S2000000x1_S2000000x6_S2000000x8_d1 : Shape.Concatenates [S2000000x1, S2000000x1, S2000000x6] S2000000x8 1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  concatenates_S2000000x1_S2000000x1_S2000000x1_S2000000x3_d1 : Shape.Concatenates [S2000000x1, S2000000x1, S2000000x1] S2000000x3 1
  gather_S2000000x11_S5x1_S2000000x5_0_1_n_n_1_1_20000001_wf : GatherDims.WF S2000000x11 S5x1 S2000000x5 [0] [1] [] [1] [] 1 ![2000000, 1]
  dot_S2000000x2_S2x2_S2000000x2_1_0_0_1_n_n_wf : DotDims.WF S2000000x2 S2x2 S2000000x2 [1] [0] [0] [1] [] []
  dot_S2000000x4_S4x4_S2000000x4_1_0_0_1_n_n_wf : DotDims.WF S2000000x4 S4x4 S2000000x4 [1] [0] [0] [1] [] []
  dot_S2000000x6_S6x6_S2000000x6_1_0_0_1_n_n_wf : DotDims.WF S2000000x6 S6x6 S2000000x6 [1] [0] [0] [1] [] []
  dot_S2000000x11_S11x16_S2000000x16_1_0_0_1_n_n_wf : DotDims.WF S2000000x11 S11x16 S2000000x16 [1] [0] [0] [1] [] []
  dot_S2000000x16_S16x16_S2000000x16_1_0_0_1_n_n_wf : DotDims.WF S2000000x16 S16x16 S2000000x16 [1] [0] [0] [1] [] []
  dot_S2000000x16_S16x6_S2000000x6_1_0_0_1_n_n_wf : DotDims.WF S2000000x16 S16x6 S2000000x6 [1] [0] [0] [1] [] []
  dot_S2000000x6_S6x4_S2000000x4_1_0_0_1_n_n_wf : DotDims.WF S2000000x6 S6x4 S2000000x4 [1] [0] [0] [1] [] []
  dot_S2000000x4_S4x2_S2000000x2_1_0_0_1_n_n_wf : DotDims.WF S2000000x4 S4x2 S2000000x2 [1] [0] [0] [1] [] []
  dot_S2000000x8_S8x4_S2000000x4_1_0_0_1_n_n_wf : DotDims.WF S2000000x8 S8x4 S2000000x4 [1] [0] [0] [1] [] []
  dot_S2000000x4_S4x1_S2000000x1_1_0_0_1_n_n_wf : DotDims.WF S2000000x4 S4x1 S2000000x1 [1] [0] [0] [1] [] []

variable [Facts₀]

def gather_S2000000x11_S5x1_S2000000x5_0_1_n_n_1_1_20000001 : GatherDims S2000000x11 S5x1 S2000000x5 where
  offsetDims := [0]
  collapsedSliceDims := [1]
  operandBatchingDims := []
  startIndicesBatchingDims := []
  startIndexMap := [1]
  indexVectorDim := 1
  sliceSizes := ![2000000, 1]
  wf := gather_S2000000x11_S5x1_S2000000x5_0_1_n_n_1_1_20000001_wf
def dot_S2000000x2_S2x2_S2000000x2_1_0_0_1_n_n : DotDims S2000000x2 S2x2 S2000000x2 where
  lhsContracting := [1]
  rhsContracting := [0]
  lhsNonContracting := [0]
  rhsNonContracting := [1]
  lhsBatch := []
  rhsBatch := []
  wf := dot_S2000000x2_S2x2_S2000000x2_1_0_0_1_n_n_wf
def dot_S2000000x4_S4x4_S2000000x4_1_0_0_1_n_n : DotDims S2000000x4 S4x4 S2000000x4 where
  lhsContracting := [1]
  rhsContracting := [0]
  lhsNonContracting := [0]
  rhsNonContracting := [1]
  lhsBatch := []
  rhsBatch := []
  wf := dot_S2000000x4_S4x4_S2000000x4_1_0_0_1_n_n_wf
def dot_S2000000x6_S6x6_S2000000x6_1_0_0_1_n_n : DotDims S2000000x6 S6x6 S2000000x6 where
  lhsContracting := [1]
  rhsContracting := [0]
  lhsNonContracting := [0]
  rhsNonContracting := [1]
  lhsBatch := []
  rhsBatch := []
  wf := dot_S2000000x6_S6x6_S2000000x6_1_0_0_1_n_n_wf
def dot_S2000000x11_S11x16_S2000000x16_1_0_0_1_n_n : DotDims S2000000x11 S11x16 S2000000x16 where
  lhsContracting := [1]
  rhsContracting := [0]
  lhsNonContracting := [0]
  rhsNonContracting := [1]
  lhsBatch := []
  rhsBatch := []
  wf := dot_S2000000x11_S11x16_S2000000x16_1_0_0_1_n_n_wf
def dot_S2000000x16_S16x16_S2000000x16_1_0_0_1_n_n : DotDims S2000000x16 S16x16 S2000000x16 where
  lhsContracting := [1]
  rhsContracting := [0]
  lhsNonContracting := [0]
  rhsNonContracting := [1]
  lhsBatch := []
  rhsBatch := []
  wf := dot_S2000000x16_S16x16_S2000000x16_1_0_0_1_n_n_wf
def dot_S2000000x16_S16x6_S2000000x6_1_0_0_1_n_n : DotDims S2000000x16 S16x6 S2000000x6 where
  lhsContracting := [1]
  rhsContracting := [0]
  lhsNonContracting := [0]
  rhsNonContracting := [1]
  lhsBatch := []
  rhsBatch := []
  wf := dot_S2000000x16_S16x6_S2000000x6_1_0_0_1_n_n_wf
def dot_S2000000x6_S6x4_S2000000x4_1_0_0_1_n_n : DotDims S2000000x6 S6x4 S2000000x4 where
  lhsContracting := [1]
  rhsContracting := [0]
  lhsNonContracting := [0]
  rhsNonContracting := [1]
  lhsBatch := []
  rhsBatch := []
  wf := dot_S2000000x6_S6x4_S2000000x4_1_0_0_1_n_n_wf
def dot_S2000000x4_S4x2_S2000000x2_1_0_0_1_n_n : DotDims S2000000x4 S4x2 S2000000x2 where
  lhsContracting := [1]
  rhsContracting := [0]
  lhsNonContracting := [0]
  rhsNonContracting := [1]
  lhsBatch := []
  rhsBatch := []
  wf := dot_S2000000x4_S4x2_S2000000x2_1_0_0_1_n_n_wf
def dot_S2000000x8_S8x4_S2000000x4_1_0_0_1_n_n : DotDims S2000000x8 S8x4 S2000000x4 where
  lhsContracting := [1]
  rhsContracting := [0]
  lhsNonContracting := [0]
  rhsNonContracting := [1]
  lhsBatch := []
  rhsBatch := []
  wf := dot_S2000000x8_S8x4_S2000000x4_1_0_0_1_n_n_wf
def dot_S2000000x4_S4x1_S2000000x1_1_0_0_1_n_n : DotDims S2000000x4 S4x1 S2000000x1 where
  lhsContracting := [1]
  rhsContracting := [0]
  lhsNonContracting := [0]
  rhsNonContracting := [1]
  lhsBatch := []
  rhsBatch := []
  wf := dot_S2000000x4_S4x1_S2000000x1_1_0_0_1_n_n_wf

class Facts : Prop extends Facts₀ where

variable [Facts]
-- ==== Proof.LibRows.lean ====
/-
  Rank-two arrays of extended reals read ROW BY ROW.

  A multilayer perceptron applied to a batch treats every row of its input alone: each operation it is made of
  (a product with a weight matrix, the addition of a bias vector, the maximum with zero, laying vectors side by
  side along the feature axis, cutting a band of columns out) sends row `r` of its operands to row `r` of its
  result. This file names that: `rowOf A r` is row `r` of a rank-two array, `lift1 f A` is the array whose every row
  is `f` of the same row of `A` (`lift2`, `lift3` for two and three operands), and each array operation — in the
  vector form a kernel body uses and in the host form a reference program uses — is proved to be the lift of a plain
  function of rows (`mm`, `addb`, `relu`, `cat2`, `cat3`, `cols`, `pick`). The number of rows is a variable throughout, so
  one lemma serves a block of a few thousand rows and an array of millions.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lib.Rows

open Idealize.ShloMosaic Idealize.ShloMosaic.ValueIdx

variable {α β γ δ : Type}

/-! ## Rows and lifts -/

/-- Row `r` of a rank-two array. -/
def rowOf {N K : Nat} (A : (⟨2, ![N, K]⟩ : Shape).Idx → α) (r : Fin N) : Fin K → α := fun k => A (ix2 r k)

/-- The array whose row `r` is `f` of row `r` of `A`. -/
def lift1 {N K J : Nat} (f : (Fin K → α) → Fin J → β) (A : (⟨2, ![N, K]⟩ : Shape).Idx → α) :
    (⟨2, ![N, J]⟩ : Shape).Idx → β := fun i => f (rowOf A (i 0)) (i 1)

/-- The array whose row `r` is `f` of rows `r` of `A` and `B`. -/
def lift2 {N K₁ K₂ J : Nat} (f : (Fin K₁ → α) → (Fin K₂ → β) → Fin J → γ) (A : (⟨2, ![N, K₁]⟩ : Shape).Idx → α)
    (B : (⟨2, ![N, K₂]⟩ : Shape).Idx → β) : (⟨2, ![N, J]⟩ : Shape).Idx → γ :=
  fun i => f (rowOf A (i 0)) (rowOf B (i 0)) (i 1)

/-- The array whose row `r` is `f` of rows `r` of `A`, `B` and `C`. -/
def lift3 {N K₁ K₂ K₃ J : Nat} (f : (Fin K₁ → α) → (Fin K₂ → β) → (Fin K₃ → γ) → Fin J → δ)
    (A : (⟨2, ![N, K₁]⟩ : Shape).Idx → α) (B : (⟨2, ![N, K₂]⟩ : Shape).Idx → β) (C : (⟨2, ![N, K₃]⟩ : Shape).Idx → γ) :
    (⟨2, ![N, J]⟩ : Shape).Idx → δ :=
  fun i => f (rowOf A (i 0)) (rowOf B (i 0)) (rowOf C (i 0)) (i 1)

theorem lift1_apply {N K J : Nat} (f : (Fin K → α) → Fin J → β) (A : (⟨2, ![N, K]⟩ : Shape).Idx → α) (r : Fin N) (j : Fin J) :
    lift1 f A (ix2 r j) = f (rowOf A r) j := rfl

theorem rowOf_lift1 {N K J : Nat} (f : (Fin K → α) → Fin J → β) (A : (⟨2, ![N, K]⟩ : Shape).Idx → α) (r : Fin N) :
    rowOf (lift1 f A) r = f (rowOf A r) := rfl

theorem rowOf_lift2 {N K₁ K₂ J : Nat} (f : (Fin K₁ → α) → (Fin K₂ → β) → Fin J → γ) (A : (⟨2, ![N, K₁]⟩ : Shape).Idx → α)
    (B : (⟨2, ![N, K₂]⟩ : Shape).Idx → β) (r : Fin N) : rowOf (lift2 f A B) r = f (rowOf A r) (rowOf B r) := rfl

theorem rowOf_lift3 {N K₁ K₂ K₃ J : Nat} (f : (Fin K₁ → α) → (Fin K₂ → β) → (Fin K₃ → γ) → Fin J → δ)
    (A : (⟨2, ![N, K₁]⟩ : Shape).Idx → α) (B : (⟨2, ![N, K₂]⟩ : Shape).Idx → β) (C : (⟨2, ![N, K₃]⟩ : Shape).Idx → γ) (r : Fin N) :
    rowOf (lift3 f A B C) r = f (rowOf A r) (rowOf B r) (rowOf C r) := rfl

/-- Two arrays are equal when their rows are. -/
theorem ext_rows {N K : Nat} {A B : (⟨2, ![N, K]⟩ : Shape).Idx → α} (h : ∀ r, rowOf A r = rowOf B r) : A = B := by
  funext i
  rw [eq_ix2 i]
  exact congrFun (h (i 0)) (i 1)

/-- Two arrays are equal when they agree at every pair of coordinates. -/
theorem ext_ix2 {N K : Nat} {A B : (⟨2, ![N, K]⟩ : Shape).Idx → α} (h : ∀ (r : Fin N) (j : Fin K), A (ix2 r j) = B (ix2 r j)) :
    A = B := by
  funext i
  rw [eq_ix2 i]
  exact h (i 0) (i 1)

/-- Lifts compose. -/
theorem lift1_lift1 {N K J L : Nat} (g : (Fin J → β) → Fin L → γ) (f : (Fin K → α) → Fin J → β)
    (A : (⟨2, ![N, K]⟩ : Shape).Idx → α) : lift1 g (lift1 f A) = lift1 (fun v => g (f v)) A := rfl

/-! ## The functions of rows -/

/-- A row times a matrix: entry `j` is the sum over `k` of `v k · W k j`. -/
def mm {K J : Nat} (W : (⟨2, ![K, J]⟩ : Shape).Idx → EReal) (v : Fin K → EReal) : Fin J → EReal :=
  fun j => ∑ k : Fin K, v k * W (ix2 k j)

/-- A row plus a bias vector. -/
def addb {J : Nat} (b : (⟨1, ![J]⟩ : Shape).Idx → EReal) (v : Fin J → EReal) : Fin J → EReal := fun j => v j + b (ix1 j)

/-- The maximum with zero, entry by entry. -/
def relu {J : Nat} (v : Fin J → EReal) : Fin J → EReal := fun j => max (v j) 0

/-- Two rows side by side (an entry past both is `0`; the lengths add up wherever this is used). -/
def cat2 {a b n : Nat} (u : Fin a → EReal) (v : Fin b → EReal) : Fin n → EReal :=
  fun j => if h : j.val < a then u ⟨j.val, h⟩ else if h' : j.val - a < b then v ⟨j.val - a, h'⟩ else 0

/-- Three rows side by side. -/
def cat3 {a b c n : Nat} (u : Fin a → EReal) (v : Fin b → EReal) (w : Fin c → EReal) : Fin n → EReal :=
  fun j => if h : j.val < a then u ⟨j.val, h⟩ else if h' : j.val - a < b then v ⟨j.val - a, h'⟩
    else if h'' : j.val - a - b < c then w ⟨j.val - a - b, h''⟩ else 0

/-- The band of `w` entries of a row that starts at entry `o`. -/
def cols {K w : Nat} (o : Nat) (v : Fin K → EReal) : Fin w → EReal :=
  fun j => if h : o + j.val < K then v ⟨o + j.val, h⟩ else 0

/-- The entries of a row at the positions a table names. -/
def pick {K w : Nat} (tbl : Fin w → Fin K) (v : Fin K → EReal) : Fin w → EReal := fun j => v (tbl j)

/-! ## The matrix product -/

/-- The sum over a one-axis contraction index of a matrix product's terms, as the sum over the feature index. -/
theorem sum_contr {N K J : Nat} (d : DotDims ⟨2, ![N, K]⟩ ⟨2, ![K, J]⟩ ⟨2, ![N, J]⟩)
    (hl : d.lhsContracting = [1]) (hr : d.rhsContracting = [0]) (hrank : d.contr.rank = 1)
    (hs : d.contr.size ⟨0, by omega⟩ = K)
    (hl0 : ∀ (j : (⟨2, ![N, J]⟩ : Shape).Idx) (k : d.contr.Idx), (d.lhsIdx j k 0).val = (j 0).val)
    (hr1 : ∀ (j : (⟨2, ![N, J]⟩ : Shape).Idx) (k : d.contr.Idx), (d.rhsIdx j k 1).val = (j 1).val)
    (L : (⟨2, ![N, K]⟩ : Shape).Idx → EReal) (W : (⟨2, ![K, J]⟩ : Shape).Idx → EReal) (r : Fin N) (j : Fin J) :
    ∑ k : d.contr.Idx, L (d.lhsIdx (ix2 r j) k) * W (d.rhsIdx (ix2 r j) k) = ∑ k : Fin K, L (ix2 r k) * W (ix2 k j) := by
  rw [← Equiv.sum_comp (contrEquiv1 d K hrank hs).symm]
  refine Finset.sum_congr rfl fun k _ => ?_
  have eL : d.lhsIdx (ix2 r j) ((contrEquiv1 d K hrank hs).symm k) = ix2 r k := by
    funext a
    refine Fin.ext ?_
    match a with
    | ⟨0, _⟩ => exact hl0 _ _
    | ⟨1, _⟩ => exact (d.lhsIdx_val_of_single hl _ _).trans (contrEquiv1_symm_val d K hrank hs k)
  have eR : d.rhsIdx (ix2 r j) ((contrEquiv1 d K hrank hs).symm k) = ix2 k j := by
    funext a
    refine Fin.ext ?_
    match a with
    | ⟨0, _⟩ => exact (d.rhsIdx_val_of_single hr _ _).trans (contrEquiv1_symm_val d K hrank hs k)
    | ⟨1, _⟩ => exact hr1 _ _
  rw [eL, eR]

/-- A vector matrix product into a zero accumulator is, row by row, the row times the matrix. -/
theorem matmul_eq_lift {N K J : Nat} (d : DotDims ⟨2, ![N, K]⟩ ⟨2, ![K, J]⟩ ⟨2, ![N, J]⟩)
    (hl : d.lhsContracting = [1]) (hr : d.rhsContracting = [0]) (hrank : d.contr.rank = 1)
    (hs : d.contr.size ⟨0, by omega⟩ = K)
    (hl0 : ∀ (j : (⟨2, ![N, J]⟩ : Shape).Idx) (k : d.contr.Idx), (d.lhsIdx j k 0).val = (j 0).val)
    (hr1 : ∀ (j : (⟨2, ![N, J]⟩ : Shape).Idx) (k : d.contr.Idx), (d.rhsIdx j k 1).val = (j 1).val)
    (prec : Option ContractPrecision) (L : FVec Ideal ⟨2, ![N, K]⟩ .f32) (W : FVec Ideal ⟨2, ![K, J]⟩ .f32) :
    matmul d prec L W (constant ⟨2, ![N, J]⟩ .f32 0x00000000#32) = lift1 (mm W) L := by
  funext i
  rw [eq_ix2 i]
  refine (Ideal.matmul_constant_zero_apply d prec L W _).trans ?_
  exact sum_contr d hl hr hrank hs hl0 hr1 L W (i 0) (i 1)

/-- The host's `dot_general` is the same function of rows. -/
theorem dotGeneral_eq_lift {N K J : Nat} (d : DotDims ⟨2, ![N, K]⟩ ⟨2, ![K, J]⟩ ⟨2, ![N, J]⟩)
    (hl : d.lhsContracting = [1]) (hr : d.rhsContracting = [0]) (hrank : d.contr.rank = 1)
    (hs : d.contr.size ⟨0, by omega⟩ = K)
    (hl0 : ∀ (j : (⟨2, ![N, J]⟩ : Shape).Idx) (k : d.contr.Idx), (d.lhsIdx j k 0).val = (j 0).val)
    (hr1 : ∀ (j : (⟨2, ![N, J]⟩ : Shape).Idx) (k : d.contr.Idx), (d.rhsIdx j k 1).val = (j 1).val)
    (prec : Option ContractPrecision) (L : FVec Ideal ⟨2, ![N, K]⟩ .f32) (W : FVec Ideal ⟨2, ![K, J]⟩ .f32) :
    Host.dotGeneral d prec L W = lift1 (mm W) L := by
  funext i
  rw [eq_ix2 i]
  refine (Ideal.dotGeneral_apply d prec .single L W _).trans ?_
  exact sum_contr d hl hr hrank hs hl0 hr1 L W (i 0) (i 1)

/-! ## The bias -/

/-- A bias vector cast to one row and broadcast down the rows (a kernel body's spelling), read at an entry. -/
theorem bias_vec_apply {N J : Nat} (b : (⟨1, ![J]⟩ : Shape).Idx → α) (h1 : (⟨1, ![J]⟩ : Shape).ShapeCasts ⟨2, ![1, J]⟩)
    (h2 : (⟨2, ![1, J]⟩ : Shape).Broadcasts ⟨2, ![N, J]⟩) (r : Fin N) (j : Fin J) :
    broadcastTo ⟨2, ![N, J]⟩ (shapeCast ⟨2, ![1, J]⟩ b h1) h2 (ix2 r j) = b (ix1 j) := by
  refine (broadcastTo_apply _ h2 (ix2 r j) (ix2 (0 : Fin 1) j) (fun a => ?_)).trans ?_
  · match a with
    | ⟨0, _⟩ => exact (if_pos rfl).symm
    | ⟨1, _⟩ =>
      show j.val = if J = 1 then 0 else j.val
      split_ifs with h
      · subst h; omega
      · rfl
  · exact shapeCast_apply b h1 _ (ix1 j) (by
      rw [Shape.rowMajor_val_one, Shape.rowMajor_val_two]
      show j.val = 0 * J + j.val
      omega)

/-- Adding that broadcast bias adds the bias vector to every row. -/
theorem addf_bias_vec {N J : Nat} (A : FVec Ideal ⟨2, ![N, J]⟩ .f32) (b : FVec Ideal ⟨1, ![J]⟩ .f32)
    (h1 : (⟨1, ![J]⟩ : Shape).ShapeCasts ⟨2, ![1, J]⟩) (h2 : (⟨2, ![1, J]⟩ : Shape).Broadcasts ⟨2, ![N, J]⟩) :
    addf A (broadcastTo ⟨2, ![N, J]⟩ (shapeCast ⟨2, ![1, J]⟩ b h1) h2) = lift1 (addb b) A := by
  refine ext_ix2 fun r j => ?_
  show A (ix2 r j) + _ = A (ix2 r j) + b (ix1 j)
  rw [bias_vec_apply b h1 h2 r j]

/-- A bias vector broadcast to one row and then down the rows (a host program's spelling), read at an entry. -/
theorem bias_host_apply {N J : Nat} (b : (⟨1, ![J]⟩ : Shape).Idx → α)
    (h1 : (⟨1, ![J]⟩ : Shape).BroadcastsInDim ⟨2, ![1, J]⟩ ![1])
    (h2 : (⟨2, ![1, J]⟩ : Shape).BroadcastsInDim ⟨2, ![N, J]⟩ ![0, 1]) (r : Fin N) (j : Fin J) :
    broadcastInDim ⟨2, ![N, J]⟩ ![0, 1] h2 (broadcastInDim ⟨2, ![1, J]⟩ ![1] h1 b) (ix2 r j) = b (ix1 j) := by
  refine (broadcastInDim_apply _ h2 _ (ix2 r j) (ix2 (0 : Fin 1) j) (fun a => ?_)).trans ?_
  · match a with
    | ⟨0, _⟩ => exact (if_pos rfl).symm
    | ⟨1, _⟩ =>
      show j.val = if J = 1 then 0 else j.val
      split_ifs with h
      · subst h; omega
      · rfl
  · refine broadcastInDim_apply _ h1 b _ (ix1 j) (fun a => ?_)
    match a with
    | ⟨0, _⟩ =>
      show j.val = if J = 1 then 0 else j.val
      split_ifs with h
      · subst h; omega
      · rfl

theorem addf_bias_host {N J : Nat} (A : FVec Ideal ⟨2, ![N, J]⟩ .f32) (b : FVec Ideal ⟨1, ![J]⟩ .f32)
    (h1 : (⟨1, ![J]⟩ : Shape).BroadcastsInDim ⟨2, ![1, J]⟩ ![1])
    (h2 : (⟨2, ![1, J]⟩ : Shape).BroadcastsInDim ⟨2, ![N, J]⟩ ![0, 1]) :
    addf A (broadcastInDim ⟨2, ![N, J]⟩ ![0, 1] h2 (broadcastInDim ⟨2, ![1, J]⟩ ![1] h1 b)) = lift1 (addb b) A := by
  refine ext_ix2 fun r j => ?_
  show A (ix2 r j) + _ = A (ix2 r j) + b (ix1 j)
  rw [bias_host_apply b h1 h2 r j]

/-! ## The maximum with zero -/

theorem relu_vec {N J : Nat} (A : FVec Ideal ⟨2, ![N, J]⟩ .f32) :
    maximumf A (broadcast ⟨2, ![N, J]⟩ (Scalar.ofBits (F := Ideal) .f32 0x00000000#32)) = lift1 relu A := by
  refine ext_ix2 fun r j => ?_
  show max (A (ix2 r j)) (Ideal.ofBits .f32 0x00000000#32) = max (A (ix2 r j)) 0
  rw [Ideal.ofBits_zero_f32]

theorem relu_host {N J : Nat} (A : FVec Ideal ⟨2, ![N, J]⟩ .f32)
    (h : (⟨0, ![]⟩ : Shape).BroadcastsInDim ⟨2, ![N, J]⟩ ![]) :
    maximumf A (broadcastInDim ⟨2, ![N, J]⟩ ![] h (constant (F := Ideal) ⟨0, ![]⟩ .f32 0x00000000#32)) = lift1 relu A := by
  refine ext_ix2 fun r j => ?_
  show max (A (ix2 r j)) _ = max (A (ix2 r j)) 0
  rw [broadcastInDim_apply ![] h (constant (F := Ideal) ⟨0, ![]⟩ .f32 0x00000000#32) (ix2 r j) ix0 (fun a => a.elim0)]
  show max (A (ix2 r j)) (Ideal.ofBits .f32 0x00000000#32) = max (A (ix2 r j)) 0
  rw [Ideal.ofBits_zero_f32]

/-! ## A band of columns -/

theorem slice_eq_lift {N K w : Nat} (o : Nat) (X : (⟨2, ![N, K]⟩ : Shape).Idx → EReal)
    (h : (⟨2, ![N, K]⟩ : Shape).Slices ![0, o] ⟨2, ![N, w]⟩) :
    extractStridedSlice ⟨2, ![N, w]⟩ ![0, o] X h = lift1 (cols o) X := by
  refine ext_ix2 fun r j => ?_
  rw [slice2_axis1_eq o X h r j]
  have hlt : o + j.val < K := Nat.lt_of_lt_of_le (Nat.add_lt_add_left j.isLt o) (h.2 1)
  show _ = cols o (rowOf X r) j
  unfold cols
  rw [dif_pos hlt]
  rfl

end Cert.Lib.Rows

end
-- ==== Proof.LibRowsCat.lean ====
/-
  Rows laid side by side, and rows re-indexed through a table.

  `concatenate` along the feature axis of two or three rank-two arrays with the same number of rows is, row by row,
  the rows laid end to end (`cat2`, `cat3` of Proof/LibRows.lean); a `stablehlo.gather` that takes whole columns of a
  rank-two operand at a column of start indices is, row by row, the row's entries at the positions the indices
  name (`pick`).
-/
import proofs.«160508_j9448928051825_1_alg».proof.Proof.LibRows

noncomputable section

open scoped BigOperators

namespace Cert.Lib.Rows

open Idealize.ShloMosaic Idealize.ShloMosaic.ValueIdx

/-! ## Concatenation along the feature axis -/

/-- The pieces' extents along the feature axis add up to the result's. -/
theorem concat2_extent {N a b n : Nat}
    (h : Shape.Concatenates [(⟨2, ![N, a]⟩ : Shape), ⟨2, ![N, b]⟩] ⟨2, ![N, n]⟩ 1) : a + b = n := by
  have e := h.2.2
  simpa using e

theorem concat3_extent {N a b c n : Nat}
    (h : Shape.Concatenates [(⟨2, ![N, a]⟩ : Shape), ⟨2, ![N, b]⟩, ⟨2, ![N, c]⟩] ⟨2, ![N, n]⟩ 1) : a + b + c = n := by
  have e := h.2.2
  simp at e
  omega

theorem concat2_eq_lift {N a b n : Nat} (A : (⟨2, ![N, a]⟩ : Shape).Idx → EReal) (B : (⟨2, ![N, b]⟩ : Shape).Idx → EReal)
    (h : Shape.Concatenates [(⟨2, ![N, a]⟩ : Shape), ⟨2, ![N, b]⟩] ⟨2, ![N, n]⟩ 1) :
    concatenate ⟨2, ![N, n]⟩ 1 [⟨⟨2, ![N, a]⟩, A⟩, ⟨⟨2, ![N, b]⟩, B⟩] h = lift2 cat2 A B := by
  have hn := concat2_extent h
  refine ext_ix2 fun r j => ?_
  show _ = cat2 (rowOf A r) (rowOf B r) j
  unfold cat2
  by_cases hj : j.val < a
  · rw [dif_pos hj]
    exact concatenate_apply_piece (t := ⟨2, ![N, n]⟩) 1 [⟨⟨2, ![N, a]⟩, A⟩, ⟨⟨2, ![N, b]⟩, B⟩] h (ix2 r j) 0 (by simp) ⟨2, ![N, a]⟩ A rfl rfl 0 rfl (ix2 r ⟨j.val, hj⟩)
      (fun bb hbb => by
        match bb with
        | ⟨0, _⟩ => rfl
        | ⟨1, _⟩ => exact absurd rfl hbb)
      (by show 0 + j.val = j.val; omega)
  · have h' : j.val - a < b := by have := j.isLt; omega
    rw [dif_neg hj, dif_pos h']
    exact concatenate_apply_piece (t := ⟨2, ![N, n]⟩) 1 [⟨⟨2, ![N, a]⟩, A⟩, ⟨⟨2, ![N, b]⟩, B⟩] h (ix2 r j) 1 (by simp) ⟨2, ![N, b]⟩ B rfl rfl a (by simp) (ix2 r ⟨j.val - a, h'⟩)
      (fun bb hbb => by
        match bb with
        | ⟨0, _⟩ => rfl
        | ⟨1, _⟩ => exact absurd rfl hbb)
      (by show a + (j.val - a) = j.val; omega)

theorem concat3_eq_lift {N a b c n : Nat} (A : (⟨2, ![N, a]⟩ : Shape).Idx → EReal) (B : (⟨2, ![N, b]⟩ : Shape).Idx → EReal)
    (C : (⟨2, ![N, c]⟩ : Shape).Idx → EReal)
    (h : Shape.Concatenates [(⟨2, ![N, a]⟩ : Shape), ⟨2, ![N, b]⟩, ⟨2, ![N, c]⟩] ⟨2, ![N, n]⟩ 1) :
    concatenate ⟨2, ![N, n]⟩ 1 [⟨⟨2, ![N, a]⟩, A⟩, ⟨⟨2, ![N, b]⟩, B⟩, ⟨⟨2, ![N, c]⟩, C⟩] h = lift3 cat3 A B C := by
  have hn := concat3_extent h
  refine ext_ix2 fun r j => ?_
  show _ = cat3 (rowOf A r) (rowOf B r) (rowOf C r) j
  unfold cat3
  by_cases hj : j.val < a
  · rw [dif_pos hj]
    exact concatenate_apply_piece (t := ⟨2, ![N, n]⟩) 1 [⟨⟨2, ![N, a]⟩, A⟩, ⟨⟨2, ![N, b]⟩, B⟩, ⟨⟨2, ![N, c]⟩, C⟩] h (ix2 r j) 0 (by simp) ⟨2, ![N, a]⟩ A rfl rfl 0 rfl (ix2 r ⟨j.val, hj⟩)
      (fun bb hbb => by
        match bb with
        | ⟨0, _⟩ => rfl
        | ⟨1, _⟩ => exact absurd rfl hbb)
      (by show 0 + j.val = j.val; omega)
  · rw [dif_neg hj]
    by_cases h' : j.val - a < b
    · rw [dif_pos h']
      exact concatenate_apply_piece (t := ⟨2, ![N, n]⟩) 1 [⟨⟨2, ![N, a]⟩, A⟩, ⟨⟨2, ![N, b]⟩, B⟩, ⟨⟨2, ![N, c]⟩, C⟩] h (ix2 r j) 1 (by simp) ⟨2, ![N, b]⟩ B rfl rfl a (by simp) (ix2 r ⟨j.val - a, h'⟩)
        (fun bb hbb => by
          match bb with
          | ⟨0, _⟩ => rfl
          | ⟨1, _⟩ => exact absurd rfl hbb)
        (by show a + (j.val - a) = j.val; omega)
    · have h'' : j.val - a - b < c := by have := j.isLt; omega
      rw [dif_neg h', dif_pos h'']
      exact concatenate_apply_piece (t := ⟨2, ![N, n]⟩) 1 [⟨⟨2, ![N, a]⟩, A⟩, ⟨⟨2, ![N, b]⟩, B⟩, ⟨⟨2, ![N, c]⟩, C⟩] h (ix2 r j) 2 (by simp) ⟨2, ![N, c]⟩ C rfl rfl (a + b) (by simp) (ix2 r ⟨j.val - a - b, h''⟩)
        (fun bb hbb => by
          match bb with
          | ⟨0, _⟩ => rfl
          | ⟨1, _⟩ => exact absurd rfl hbb)
        (by show a + b + (j.val - a - b) = j.val; omega)

end Cert.Lib.Rows

end
-- ==== Proof.Net.lean ====
/-
  The perceptron tree on ONE row.

  Every row of the input is treated alone. From a row `v` of eleven numbers — the observations `(v0, v1, v5, v6, v7)`
  of the root, and position and velocity of the hip `(v2, v8)`, the knee `(v3, v9)` and the foot `(v4, v10)` — the
  messages go up the leg (`fup`, `kup`, `hup`: foot to knee to hip, two affine layers each, every layer followed by the
  maximum with zero), through the root (`mdown`, three layers on the observations beside the hip's message), and down
  again (`hdown`, `kdown`), and each joint's action (`hact`, `kact`, `fact`: two layers, the second without the
  maximum) reads the joint's own two numbers beside the message that reached it on the way down. The result row is
  `(hact, fact, kact)`. The thirty-eight parameter arrays are numbered as the programs number their arguments:
  `a(2i-1)` is the weight matrix of layer `i` and `a(2i)` its bias vector, in the order fu1, fu2, ku1, ku2, hu1, hu2,
  md1, md2, md3, hd1, hd2, kd1, kd2, ha1, ha2, ka1, ka2, fa1, fa2. A layer is `addb b (mm W v)`: the row times the
  matrix plus the bias (Proof/LibRows.lean).
-/
import proofs.«160508_j9448928051825_1_alg».proof.Proof.LibRows

noncomputable section

namespace Cert.Net

open Idealize.ShloMosaic Idealize.ShloMosaic.ValueIdx Cert.Lib.Rows

/-- The parameter arrays. -/
structure Params where
  a1 : (⟨2, ![2, 2]⟩ : Shape).Idx → EReal
  a2 : (⟨1, ![2]⟩ : Shape).Idx → EReal
  a3 : (⟨2, ![2, 2]⟩ : Shape).Idx → EReal
  a4 : (⟨1, ![2]⟩ : Shape).Idx → EReal
  a5 : (⟨2, ![4, 4]⟩ : Shape).Idx → EReal
  a6 : (⟨1, ![4]⟩ : Shape).Idx → EReal
  a7 : (⟨2, ![4, 4]⟩ : Shape).Idx → EReal
  a8 : (⟨1, ![4]⟩ : Shape).Idx → EReal
  a9 : (⟨2, ![6, 6]⟩ : Shape).Idx → EReal
  a10 : (⟨1, ![6]⟩ : Shape).Idx → EReal
  a11 : (⟨2, ![6, 6]⟩ : Shape).Idx → EReal
  a12 : (⟨1, ![6]⟩ : Shape).Idx → EReal
  a13 : (⟨2, ![11, 16]⟩ : Shape).Idx → EReal
  a14 : (⟨1, ![16]⟩ : Shape).Idx → EReal
  a15 : (⟨2, ![16, 16]⟩ : Shape).Idx → EReal
  a16 : (⟨1, ![16]⟩ : Shape).Idx → EReal
  a17 : (⟨2, ![16, 6]⟩ : Shape).Idx → EReal
  a18 : (⟨1, ![6]⟩ : Shape).Idx → EReal
  a19 : (⟨2, ![6, 4]⟩ : Shape).Idx → EReal
  a20 : (⟨1, ![4]⟩ : Shape).Idx → EReal
  a21 : (⟨2, ![4, 4]⟩ : Shape).Idx → EReal
  a22 : (⟨1, ![4]⟩ : Shape).Idx → EReal
  a23 : (⟨2, ![4, 2]⟩ : Shape).Idx → EReal
  a24 : (⟨1, ![2]⟩ : Shape).Idx → EReal
  a25 : (⟨2, ![2, 2]⟩ : Shape).Idx → EReal
  a26 : (⟨1, ![2]⟩ : Shape).Idx → EReal
  a27 : (⟨2, ![8, 4]⟩ : Shape).Idx → EReal
  a28 : (⟨1, ![4]⟩ : Shape).Idx → EReal
  a29 : (⟨2, ![4, 1]⟩ : Shape).Idx → EReal
  a30 : (⟨1, ![1]⟩ : Shape).Idx → EReal
  a31 : (⟨2, ![6, 4]⟩ : Shape).Idx → EReal
  a32 : (⟨1, ![4]⟩ : Shape).Idx → EReal
  a33 : (⟨2, ![4, 1]⟩ : Shape).Idx → EReal
  a34 : (⟨1, ![1]⟩ : Shape).Idx → EReal
  a35 : (⟨2, ![4, 4]⟩ : Shape).Idx → EReal
  a36 : (⟨1, ![4]⟩ : Shape).Idx → EReal
  a37 : (⟨2, ![4, 1]⟩ : Shape).Idx → EReal
  a38 : (⟨1, ![1]⟩ : Shape).Idx → EReal

variable (P : Params) (v : Fin 11 → EReal)

/-- The root's observations: entries 0, 1 and 5, 6, 7. -/
def mobs : Fin 5 → EReal := cat2 (cols 0 v : Fin 2 → EReal) (cols 5 v : Fin 3 → EReal)

/-- The foot's message before the second layer's bias: from the foot's position and velocity. -/
def fup0 : Fin 2 → EReal := mm P.a3 (relu (addb P.a2 (mm P.a1 (cat2 (cols 4 v : Fin 1 → EReal) (cols 10 v : Fin 1 → EReal)))))

/-- The foot's message. -/
def fup : Fin 2 → EReal := relu (addb P.a4 (fup0 P v))

/-- The knee's message: from the knee's two numbers beside the foot's message. -/
def kup : Fin 4 → EReal :=
  relu (addb P.a8 (mm P.a7 (relu (addb P.a6 (mm P.a5 (cat3 (cols 3 v : Fin 1 → EReal) (cols 9 v : Fin 1 → EReal) (fup P v)))))))

/-- The hip's message. -/
def hup : Fin 6 → EReal :=
  relu (addb P.a12 (mm P.a11 (relu (addb P.a10 (mm P.a9 (cat3 (cols 2 v : Fin 1 → EReal) (cols 8 v : Fin 1 → EReal) (kup P v)))))))

/-- The root's message down, before the third layer's bias. -/
def mdown0 : Fin 6 → EReal :=
  mm P.a17 (relu (addb P.a16 (mm P.a15 (relu (addb P.a14 (mm P.a13 (cat2 (mobs v) (hup P v) : Fin 11 → EReal)))))))

/-- The root's message down. -/
def mdown : Fin 6 → EReal := relu (addb P.a18 (mdown0 P v))

/-- The hip's message down. -/
def hdown : Fin 4 → EReal := relu (addb P.a22 (mm P.a21 (relu (addb P.a20 (mm P.a19 (mdown P v))))))

/-- The knee's message down. -/
def kdown : Fin 2 → EReal := relu (addb P.a26 (mm P.a25 (relu (addb P.a24 (mm P.a23 (hdown P v))))))

/-- The hip's action. -/
def hact : Fin 1 → EReal :=
  addb P.a30 (mm P.a29 (relu (addb P.a28 (mm P.a27 (cat3 (cols 2 v : Fin 1 → EReal) (cols 8 v : Fin 1 → EReal) (mdown P v) : Fin 8 → EReal)))))

/-- The knee's action before its second layer. -/
def kpre : Fin 4 → EReal :=
  relu (addb P.a32 (mm P.a31 (cat3 (cols 3 v : Fin 1 → EReal) (cols 9 v : Fin 1 → EReal) (hdown P v) : Fin 6 → EReal)))

/-- The knee's action. -/
def kact : Fin 1 → EReal := addb P.a34 (mm P.a33 (kpre P v))

/-- The foot's action. -/
def fact : Fin 1 → EReal :=
  addb P.a38 (mm P.a37 (relu (addb P.a36 (mm P.a35 (cat3 (cols 4 v : Fin 1 → EReal) (cols 10 v : Fin 1 → EReal) (kdown P v) : Fin 4 → EReal)))))

/-- The result row: the hip's, the foot's and the knee's action. -/
def net : Fin 3 → EReal := cat3 (hact P v) (fact P v) (kact P v)

/-- The result ARRAY of the tree applied to every row of `X`. -/
def G {N : Nat} (X : (⟨2, ![N, 11]⟩ : Shape).Idx → EReal) : (⟨2, ![N, 3]⟩ : Shape).Idx → EReal := lift1 (net P) X

end Cert.Net

end
-- ==== Proof.KernelBody.lean ====
/-
  The kernel body's stored block, as the perceptron tree applied to every row of the input block.

  The body reads its whole input block `x` (8000 rows of eleven numbers) and the thirty-eight parameter arrays, and
  stores one block of 8000 rows of three numbers. Its arithmetic is a chain of named intermediate values; each is
  proved here to be a function of rows lifted to the block — a band of columns of `x`, a message on the way up or
  down the tree (Proof/Net.lean) — by rewriting every vector operation into its row form (Proof/LibRows.lean,
  Proof/LibRowsCat.lean: a matrix product into a zero accumulator is the row times the matrix, a bias cast to one row
  and broadcast down is added to every row, the maximum with a zero splat is the maximum with zero, a concatenation
  along the feature axis lays rows side by side, a slice takes a band of columns) and comparing rows.
-/
import proofs.«160508_j9448928051825_1_alg».proof.Proof.Gen.KernelIdeal.Skeleton
import proofs.«160508_j9448928051825_1_alg».proof.Proof.LibRowsCat
import proofs.«160508_j9448928051825_1_alg».proof.Proof.Net

noncomputable section

namespace Cert.KernelIdeal.Body

open Cert.KernelIdeal Cert.KernelIdeal.Gen Idealize.ShloMosaic Idealize.ShloMosaic.ValueIdx Cert.Lib.Rows Cert.Net

/-! ## The body's ten matrix products, row by row -/

theorem mm_2x2 (prec : Option ContractPrecision) (L : FVec Ideal S8000x2 .f32) (W : FVec Ideal S2x2 .f32) :
    matmul dot_S8000x2_S2x2_S8000x2_1_0_0_1_n_n prec L W (constant S8000x2 .f32 0x00000000#32) = lift1 (mm W) L :=
  matmul_eq_lift dot_S8000x2_S2x2_S8000x2_1_0_0_1_n_n rfl rfl rfl rfl (fun _ _ => rfl) (fun _ _ => rfl) prec L W

theorem mm_4x4 (prec : Option ContractPrecision) (L : FVec Ideal S8000x4 .f32) (W : FVec Ideal S4x4 .f32) :
    matmul dot_S8000x4_S4x4_S8000x4_1_0_0_1_n_n prec L W (constant S8000x4 .f32 0x00000000#32) = lift1 (mm W) L :=
  matmul_eq_lift dot_S8000x4_S4x4_S8000x4_1_0_0_1_n_n rfl rfl rfl rfl (fun _ _ => rfl) (fun _ _ => rfl) prec L W

theorem mm_6x6 (prec : Option ContractPrecision) (L : FVec Ideal S8000x6 .f32) (W : FVec Ideal S6x6 .f32) :
    matmul dot_S8000x6_S6x6_S8000x6_1_0_0_1_n_n prec L W (constant S8000x6 .f32 0x00000000#32) = lift1 (mm W) L :=
  matmul_eq_lift dot_S8000x6_S6x6_S8000x6_1_0_0_1_n_n rfl rfl rfl rfl (fun _ _ => rfl) (fun _ _ => rfl) prec L W

theorem mm_11x16 (prec : Option ContractPrecision) (L : FVec Ideal S8000x11 .f32) (W : FVec Ideal S11x16 .f32) :
    matmul dot_S8000x11_S11x16_S8000x16_1_0_0_1_n_n prec L W (constant S8000x16 .f32 0x00000000#32) = lift1 (mm W) L :=
  matmul_eq_lift dot_S8000x11_S11x16_S8000x16_1_0_0_1_n_n rfl rfl rfl rfl (fun _ _ => rfl) (fun _ _ => rfl) prec L W

theorem mm_16x16 (prec : Option ContractPrecision) (L : FVec Ideal S8000x16 .f32) (W : FVec Ideal S16x16 .f32) :
    matmul dot_S8000x16_S16x16_S8000x16_1_0_0_1_n_n prec L W (constant S8000x16 .f32 0x00000000#32) = lift1 (mm W) L :=
  matmul_eq_lift dot_S8000x16_S16x16_S8000x16_1_0_0_1_n_n rfl rfl rfl rfl (fun _ _ => rfl) (fun _ _ => rfl) prec L W

theorem mm_16x6 (prec : Option ContractPrecision) (L : FVec Ideal S8000x16 .f32) (W : FVec Ideal S16x6 .f32) :
    matmul dot_S8000x16_S16x6_S8000x6_1_0_0_1_n_n prec L W (constant S8000x6 .f32 0x00000000#32) = lift1 (mm W) L :=
  matmul_eq_lift dot_S8000x16_S16x6_S8000x6_1_0_0_1_n_n rfl rfl rfl rfl (fun _ _ => rfl) (fun _ _ => rfl) prec L W

theorem mm_6x4 (prec : Option ContractPrecision) (L : FVec Ideal S8000x6 .f32) (W : FVec Ideal S6x4 .f32) :
    matmul dot_S8000x6_S6x4_S8000x4_1_0_0_1_n_n prec L W (constant S8000x4 .f32 0x00000000#32) = lift1 (mm W) L :=
  matmul_eq_lift dot_S8000x6_S6x4_S8000x4_1_0_0_1_n_n rfl rfl rfl rfl (fun _ _ => rfl) (fun _ _ => rfl) prec L W

theorem mm_4x2 (prec : Option ContractPrecision) (L : FVec Ideal S8000x4 .f32) (W : FVec Ideal S4x2 .f32) :
    matmul dot_S8000x4_S4x2_S8000x2_1_0_0_1_n_n prec L W (constant S8000x2 .f32 0x00000000#32) = lift1 (mm W) L :=
  matmul_eq_lift dot_S8000x4_S4x2_S8000x2_1_0_0_1_n_n rfl rfl rfl rfl (fun _ _ => rfl) (fun _ _ => rfl) prec L W

theorem mm_8x4 (prec : Option ContractPrecision) (L : FVec Ideal S8000x8 .f32) (W : FVec Ideal S8x4 .f32) :
    matmul dot_S8000x8_S8x4_S8000x4_1_0_0_1_n_n prec L W (constant S8000x4 .f32 0x00000000#32) = lift1 (mm W) L :=
  matmul_eq_lift dot_S8000x8_S8x4_S8000x4_1_0_0_1_n_n rfl rfl rfl rfl (fun _ _ => rfl) (fun _ _ => rfl) prec L W

theorem mm_4x1 (prec : Option ContractPrecision) (L : FVec Ideal S8000x4 .f32) (W : FVec Ideal S4x1 .f32) :
    matmul dot_S8000x4_S4x1_S8000x1_1_0_0_1_n_n prec L W (constant S8000x1 .f32 0x00000000#32) = lift1 (mm W) L :=
  matmul_eq_lift dot_S8000x4_S4x1_S8000x1_1_0_0_1_n_n rfl rfl rfl rfl (fun _ _ => rfl) (fun _ _ => rfl) prec L W

/-! ## The named intermediate values -/

variable (P : Params) (x : Vec Ideal S8000x11 .f32)

theorem pay2_eq : k0_pay2 x = lift1 (cols 2 : (Fin 11 → EReal) → Fin 1 → EReal) x := by
  unfold k0_pay2; exact slice_eq_lift 2 x _
theorem pay3_eq : k0_pay3 x = lift1 (cols 3 : (Fin 11 → EReal) → Fin 1 → EReal) x := by
  unfold k0_pay3; exact slice_eq_lift 3 x _
theorem pay4_eq : k0_pay4 x = lift1 (cols 4 : (Fin 11 → EReal) → Fin 1 → EReal) x := by
  unfold k0_pay4; exact slice_eq_lift 4 x _
theorem pay5_eq : k0_pay5 x = lift1 (cols 8 : (Fin 11 → EReal) → Fin 1 → EReal) x := by
  unfold k0_pay5; exact slice_eq_lift 8 x _
theorem pay6_eq : k0_pay6 x = lift1 (cols 9 : (Fin 11 → EReal) → Fin 1 → EReal) x := by
  unfold k0_pay6; exact slice_eq_lift 9 x _
theorem pay7_eq : k0_pay7 x = lift1 (cols 10 : (Fin 11 → EReal) → Fin 1 → EReal) x := by
  unfold k0_pay7; exact slice_eq_lift 10 x _

/-- The root's observations: columns 0, 1 beside columns 5, 6, 7. -/
theorem pay8_eq : k0_pay8 x = lift1 mobs x := by
  unfold k0_pay8
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The foot's message before the second bias. -/
theorem pay9_eq : k0_pay9 (F := Ideal) P.a1 P.a2 P.a3 x = lift1 (fup0 P) x := by
  unfold k0_pay9
  rw [pay4_eq, pay7_eq]
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The root's message down before the third bias: the foot's, knee's and hip's messages on the way. -/
theorem pay11_eq : k0_pay11 (F := Ideal) P.a5 P.a6 P.a7 P.a8 P.a9 P.a10 P.a11 P.a12 P.a13 P.a14 P.a15 P.a16 P.a17
      (lift1 (cols 2 : (Fin 11 → EReal) → Fin 1 → EReal) x) (lift1 (cols 3 : (Fin 11 → EReal) → Fin 1 → EReal) x)
      (lift1 (cols 8 : (Fin 11 → EReal) → Fin 1 → EReal) x) (lift1 (cols 9 : (Fin 11 → EReal) → Fin 1 → EReal) x)
      (lift1 mobs x) (lift1 (fup0 P) x) (k0_pay10 (F := Ideal) P.a4) = lift1 (mdown0 P) x := by
  unfold k0_pay11 k0_pay10
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The root's message down. -/
theorem pay13_eq : k0_pay13 (F := Ideal) (lift1 (mdown0 P) x) (k0_pay12 (F := Ideal) P.a18) = lift1 (mdown P) x := by
  unfold k0_pay13 k0_pay12
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The hip's message down. -/
theorem pay14_eq : k0_pay14 (F := Ideal) P.a19 P.a20 P.a21 P.a22 (lift1 (mdown0 P) x) (k0_pay12 (F := Ideal) P.a18) = lift1 (hdown P) x := by
  unfold k0_pay14
  rw [pay13_eq]
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The knee's message down. -/
theorem pay15_eq : k0_pay15 (F := Ideal) P.a19 P.a20 P.a21 P.a22 P.a23 P.a24 P.a25 P.a26 (lift1 (mdown0 P) x) (k0_pay12 (F := Ideal) P.a18) = lift1 (kdown P) x := by
  unfold k0_pay15
  rw [pay14_eq]
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The hip's action. -/
theorem pay16_eq : k0_pay16 (F := Ideal) P.a27 P.a28 P.a29 P.a30 (lift1 (cols 2 : (Fin 11 → EReal) → Fin 1 → EReal) x)
      (lift1 (cols 8 : (Fin 11 → EReal) → Fin 1 → EReal) x) (lift1 (mdown0 P) x) (k0_pay12 (F := Ideal) P.a18) = lift1 (hact P) x := by
  unfold k0_pay16
  rw [pay13_eq]
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The knee's action before its second layer. -/
theorem pay17_eq : k0_pay17 (F := Ideal) P.a19 P.a20 P.a21 P.a22 P.a31 P.a32 (lift1 (cols 3 : (Fin 11 → EReal) → Fin 1 → EReal) x)
      (lift1 (cols 9 : (Fin 11 → EReal) → Fin 1 → EReal) x) (lift1 (mdown0 P) x) (k0_pay12 (F := Ideal) P.a18) = lift1 (kpre P) x := by
  unfold k0_pay17
  rw [pay14_eq]
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

/-- The stored block: the three actions side by side. -/
theorem pay1_eq : k0_pay1 (F := Ideal) P.a33 P.a34 P.a35 P.a36 P.a37 P.a38 (lift1 (cols 4 : (Fin 11 → EReal) → Fin 1 → EReal) x)
      (lift1 (cols 10 : (Fin 11 → EReal) → Fin 1 → EReal) x) (lift1 (kdown P) x) (lift1 (hact P) x) (lift1 (kpre P) x)
      (constant S8000x1 .f32 0x00000000#32) = lift1 (net P) x := by
  unfold k0_pay1
  simp only [mm_2x2, mm_4x4, mm_6x6, mm_11x16, mm_16x16, mm_16x6, mm_6x4, mm_4x2, mm_8x4, mm_4x1, addf_bias_vec, relu_vec, concat2_eq_lift, concat3_eq_lift, slice_eq_lift]
  refine ext_rows fun r => ?_
  simp only [rowOf_lift1, rowOf_lift2, rowOf_lift3]
  rfl

end Cert.KernelIdeal.Body

end
-- ==== Proof.KernelValue.lean ====
/-
  From the blocks to the whole array: after the kernel's run its result array holds the perceptron tree of every
  row of the input array.

  The grid has 250 points; at point `t` the input window holds rows `8000 t … 8000 t + 7999` of `x` (all eleven
  columns), every parameter window holds its whole array (block index zero on every axis), and the output window's
  block is rows `8000 t … 8000 t + 7999` of the result (all three columns). The body stores the tree of each row of its
  input block (Proof/KernelBody.lean), so what point `t` writes back is block `t` of `G` — the tree applied to every row
  of `x` (Proof/Net.lean) —, and the 250 blocks cover the two million rows: row `r` lies in block `r / 8000`.
-/
import proofs.«160508_j9448928051825_1_alg».proof.Proof.FrameKernelIdeal
import proofs.«160508_j9448928051825_1_alg».proof.Proof.KernelBody
import Idealize.ShloMosaic.Lib.Pipeline.Value

noncomputable section

namespace Cert.KernelIdeal.Whole

open Cert.KernelIdeal Cert.KernelIdeal.Gen Cert.KernelIdeal.GenP Idealize.ShloMosaic Idealize.ShloMosaic.TcCoe Idealize.SL.Sem
open Idealize.ShloMosaic.ValueIdx Cert.Lib.Rows Cert.Net Cert.KernelIdeal.Body
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-! ## The body's result block -/

/-- The block the body leaves in the output window's buffer is the tree of every row of the input block. -/
theorem out_eq (P : Params) (x : Vec Ideal S8000x11 .f32) :
    out0_39 (F := Ideal) x P.a1 P.a2 P.a3 P.a4 P.a5 P.a6 P.a7 P.a8 P.a9 P.a10 P.a11 P.a12 P.a13 P.a14 P.a15 P.a16 P.a17 P.a18 P.a19 P.a20 P.a21 P.a22 P.a23 P.a24 P.a25 P.a26 P.a27 P.a28 P.a29 P.a30 P.a31 P.a32 P.a33 P.a34 P.a35 P.a36 P.a37 P.a38 = lift1 (net P) x := by
  unfold out0_39
  rw [View.canon_unit_zero hz2]
  simp only [View.ld_unit_zero (S := S2x2) hz2, View.ld_unit_zero (S := S4x4) hz2, View.ld_unit_zero (S := S6x6) hz2, View.ld_unit_zero (S := S11x16) hz2, View.ld_unit_zero (S := S16x16) hz2, View.ld_unit_zero (S := S16x6) hz2, View.ld_unit_zero (S := S6x4) hz2, View.ld_unit_zero (S := S4x2) hz2, View.ld_unit_zero (S := S8x4) hz2, View.ld_unit_zero (S := S4x1) hz2, View.ld_unit_zero (S := S8000x11) hz2, View.ld_unit_zero (S := S2) hz1, View.ld_unit_zero (S := S4) hz1, View.ld_unit_zero (S := S6) hz1, View.ld_unit_zero (S := S16) hz1, View.ld_unit_zero (S := S1) hz1]
  rw [pay2_eq, pay3_eq, pay4_eq, pay5_eq, pay6_eq, pay7_eq, pay8_eq, pay9_eq P, pay11_eq P, pay15_eq P, pay16_eq P,
    pay17_eq P, pay1_eq P]

/-! ## The windows' blocks -/

/-- The parameter arrays as the region finds them. -/
def params (c : Dev nD) : Params := ⟨V m c main_arg1, V m c main_arg2, V m c main_arg3, V m c main_arg4, V m c main_arg5, V m c main_arg6, V m c main_arg7, V m c main_arg8, V m c main_arg9, V m c main_arg10, V m c main_arg11, V m c main_arg12, V m c main_arg13, V m c main_arg14, V m c main_arg15, V m c main_arg16, V m c main_arg17, V m c main_arg18, V m c main_arg19, V m c main_arg20, V m c main_arg21, V m c main_arg22, V m c main_arg23, V m c main_arg24, V m c main_arg25, V m c main_arg26, V m c main_arg27, V m c main_arg28, V m c main_arg29, V m c main_arg30, V m c main_arg31, V m c main_arg32, V m c main_arg33, V m c main_arg34, V m c main_arg35, V m c main_arg36, V m c main_arg37, V m c main_arg38⟩

theorem blk1 (c : Dev nD) (t : Fin cfg0.N) : iblk m c 1 t = (params m c).a1 := by
  funext y
  show V m c main_arg1 (((cfg0.win 1).blk t).view.emb y) = V m c main_arg1 y
  refine congrArg (V m c main_arg1) (funext fun a => Fin.ext ?_)
  match a with
    | ⟨0, _⟩ =>
      show win0_1.index t (0 : Fin 2) * 2 + 1 * (y 0).val = (y 0).val
      rw [show win0_1.index t (0 : Fin 2) = 0 from rfl]; omega
    | ⟨1, _⟩ =>
      show win0_1.index t (1 : Fin 2) * 2 + 1 * (y 1).val = (y 1).val
      rw [show win0_1.index t (1 : Fin 2) = 0 from rfl]; omega

theorem blk2 (c : Dev nD) (t : Fin cfg0.N) : iblk m c 2 t = (params m c).a2 := by
  funext y
  show V m c main_arg2 (((cfg0.win 2).blk t).view.emb y) = V m c main_arg2 y
  refine congrArg (V m c main_arg2) (funext fun a => Fin.ext ?_)
  match a with
    | ⟨0, _⟩ =>
      show win0_2.index t (0 : Fin 1) * 2 + 1 * (y 0).val = (y 0).val
      rw [show win0_2.index t (0 : Fin 1) = 0 from rfl]; omega

theorem blk3 (c : Dev nD) (t : Fin cfg0.N) : iblk m c 3 t = (params m c).a3 := by
  funext y
  show V m c main_arg3 (((cfg0.win 3).blk t).view.emb y) = V m c main_arg3 y
  refine congrArg (V m c main_arg3) (funext fun a => Fin.ext ?_)
  match a with
    | ⟨0, _⟩ =>
      show win0_3.index t (0 : Fin 2) * 2 + 1 * (y 0).val = (y 0).val
      rw [show win0_3.index t (0 : Fin 2) = 0 from rfl]; omega
    | ⟨1, _⟩ =>
      show win0_3.index t (1 : Fin 2) * 2 + 1 * (y 1).val = (y 1).val
      rw [show win0_3.index t (1 : Fin 2) = 0 from rfl]; omega

theorem blk4 (c : Dev nD) (t : Fin cfg0.N) : iblk m c 4 t = (params m c).a4 := by
  funext y
  show V m c main_arg4 (((cfg0.win 4).blk t).view.emb y) = V m c main_arg4 y
  refine congrArg (V m c main_arg4) (funext fun a => Fin.ext ?_)
  match a with
    | ⟨0, _⟩ =>
      show win0_4.index t (0 : Fin 1) * 2 + 1 * (y 0).val = (y 0).val
      rw [show win0_4.index t (0 : Fin 1) = 0 from rfl]; omega

theorem blk5 (c : Dev nD) (t : Fin cfg0.N) : iblk m c 5 t = (params m c).a5 := by
  funext y
  show V m c main_arg5 (((cfg0.win 5).blk t).view.emb y) = V m c main_arg5 y
  refine congrArg (V m c main_arg5) (funext fun a => Fin.ext ?_)
  match a with
    | ⟨0, _⟩ =>
      show win0_5.index t (0 : Fin 2) * 4 + 1 * (y 0).val = (y 0).val
      rw [show win0_5.index t (0 : Fin 2) = 0 from rfl]; omega
    | ⟨1, _⟩ =>
      show win0_5.index t (1 : Fin 2) * 4 + 1 * (y 1).val = (y 1).val
      rw [show win0_5.index t (1 : Fin 2) = 0 from rfl]; omega

theorem blk6 (c : Dev nD) (t : Fin cfg0.N) : iblk m c 6 t = (params m c).a6 := by
  funext y
  show V m c main_arg6 (((cfg0.win 6).blk t).view.emb y) = V m c main_arg6 y
  refine congrArg (V m c main_arg6) (funext fun a => Fin.ext ?_)
  match a with
    | ⟨0, _⟩ =>
      show win0_6.index t (0 : Fin 1) * 4 + 1 * (y 0).val = (y 0).val
      rw [show win0_6.index t (0 : Fin 1) = 0 from rfl]; omega

theorem blk7 (c : Dev nD) (t : Fin cfg0.N) : iblk m c 7 t = (params m c).a7 := by
  funext y
  show V m c main_arg7 (((cfg0.win 7).blk t).view.emb y) = V m c main_arg7 y
  refine congrArg (V m c main_arg7) (funext fun a => Fin.ext ?_)
  match a with
    | ⟨0, _⟩ =>
      show win0_7.index t (0 : Fin 2) * 4 + 1 * (y 0).val = (y 0).val
      rw [show win0_7.index t (0 : Fin 2) = 0 from rfl]; omega
    | ⟨1, _⟩ =>
      show win0_7.index t (1 : Fin 2) * 4 + 1 * (y 1).val = (y 1).val
      rw [show win0_7.index t (1 : Fin 2) = 0 from rfl]; omega

theorem blk8 (c : Dev nD) (t : Fin cfg0.N) : iblk m c 8 t = (params m c).a8 := by
  funext y
  show V m c main_arg8 (((cfg0.win 8).blk t).view.emb y) = V m c main_arg8 y
  refine congrArg (V m c main_arg8) (funext fun a => Fin.ext ?_)
  match a with
    | ⟨0, _⟩ =>
      show win0_8.index t (0 : Fin 1) * 4 + 1 * (y 0).val = (y 0).val
      rw [show win0_8.index t (0 : Fin 1) = 0 from rfl]; omega

theorem blk9 (c : Dev nD) (t : Fin cfg0.N) : iblk m c 9 t = (params m c).a9 := by
  funext y
  show V m c main_arg9 (((cfg0.win 9).blk t).view.emb y) = V m c main_arg9 y
  refine congrArg (V m c main_arg9) (funext fun a => Fin.ext ?_)
  match a with
    | ⟨0, _⟩ =>
      show win0_9.index t (0 : Fin 2) * 6 + 1 * (y 0).val = (y 0).val
      rw [show win0_9.index t (0 : Fin 2) = 0 from rfl]; omega
    | ⟨1, _⟩ =>
      show win0_9.index t (1 : Fin 2) * 6 + 1 * (y 1).val = (y 1).val
      rw [show win0_9.index t (1 : Fin 2) = 0 from rfl]; omega

theorem blk10 (c : Dev nD) (t : Fin cfg0.N) : iblk m c 10 t = (params m c).a10 := by
  funext y
  show V m c main_arg10 (((cfg0.win 10).blk t).view.emb y) = V m c main_arg10 y
  refine congrArg (V m c main_arg10) (funext fun a => Fin.ext ?_)
  match a with
    | ⟨0, _⟩ =>
      show win0_10.index t (0 : Fin 1) * 6 + 1 * (y 0).val = (y 0).val
      rw [show win0_10.index t (0 : Fin 1) = 0 from rfl]; omega

theorem blk11 (c : Dev nD) (t : Fin cfg0.N) : iblk m c 11 t = (params m c).a11 := by
  funext y
  show V m c main_arg11 (((cfg0.win 11).blk t).view.emb y) = V m c main_arg11 y
  refine congrArg (V m c main_arg11) (funext fun a => Fin.ext ?_)
  match a with
    | ⟨0, _⟩ =>
      show win0_11.index t (0 : Fin 2) * 6 + 1 * (y 0).val = (y 0).val
      rw [show win0_11.index t (0 : Fin 2) = 0 from rfl]; omega
    | ⟨1, _⟩ =>
      show win0_11.index t (1 : Fin 2) * 6 + 1 * (y 1).val = (y 1).val
      rw [show win0_11.index t (1 : Fin 2) = 0 from rfl]; omega

theorem blk12 (c : Dev nD) (t : Fin cfg0.N) : iblk m c 12 t = (params m c).a12 := by
  funext y
  show V m c main_arg12 (((cfg0.win 12).blk t).view.emb y) = V m c main_arg12 y
  refine congrArg (V m c main_arg12) (funext fun a => Fin.ext ?_)
  match a with
    | ⟨0, _⟩ =>
      show win0_12.index t (0 : Fin 1) * 6 + 1 * (y 0).val = (y 0).val
      rw [show win0_12.index t (0 : Fin 1) = 0 from rfl]; omega

theorem blk13 (c : Dev nD) (t : Fin cfg0.N) : iblk m c 13 t = (params m c).a13 := by
  funext y
  show V m c main_arg13 (((cfg0.win 13).blk t).view.emb y) = V m c main_arg13 y
  refine congrArg (V m c main_arg13) (funext fun a => Fin.ext ?_)
  match a with
    | ⟨0, _⟩ =>
      show win0_13.index t (0 : Fin 2) * 11 + 1 * (y 0).val = (y 0).val
      rw [show win0_13.index t (0 : Fin 2) = 0 from rfl]; omega
    | ⟨1, _⟩ =>
      show win0_13.index t (1 : Fin 2) * 16 + 1 * (y 1).val = (y 1).val
      rw [show win0_13.index t (1 : Fin 2) = 0 from rfl]; omega

theorem blk14 (c : Dev nD) (t : Fin cfg0.N) : iblk m c 14 t = (params m c).a14 := by
  funext y
  show V m c main_arg14 (((cfg0.win 14).blk t).view.emb y) = V m c main_arg14 y
  refine congrArg (V m c main_arg14) (funext fun a => Fin.ext ?_)
  match a with
    | ⟨0, _⟩ =>
      show win0_14.index t (0 : Fin 1) * 16 + 1 * (y 0).val = (y 0).val
      rw [show win0_14.index t (0 : Fin 1) = 0 from rfl]; omega

theorem blk15 (c : Dev nD) (t : Fin cfg0.N) : iblk m c 15 t = (params m c).a15 := by
  funext y
  show V m c main_arg15 (((cfg0.win 15).blk t).view.emb y) = V m c main_arg15 y
  refine congrArg (V m c main_arg15) (funext fun a => Fin.ext ?_)
  match a with
    | ⟨0, _⟩ =>
      show win0_15.index t (0 : Fin 2) * 16 + 1 * (y 0).val = (y 0).val
      rw [show win0_15.index t (0 : Fin 2) = 0 from rfl]; omega
    | ⟨1, _⟩ =>
      show win0_15.index t (1 : Fin 2) * 16 + 1 * (y 1).val = (y 1).val
      rw [show win0_15.index t (1 : Fin 2) = 0 from rfl]; omega

theorem blk16 (c : Dev nD) (t : Fin cfg0.N) : iblk m c 16 t = (params m c).a16 := by
  funext y
  show V m c main_arg16 (((cfg0.win 16).blk t).view.emb y) = V m c main_arg16 y
  refine congrArg (V m c main_arg16) (funext fun a => Fin.ext ?_)
  match a with
    | ⟨0, _⟩ =>
      show win0_16.index t (0 : Fin 1) * 16 + 1 * (y 0).val = (y 0).val
      rw [show win0_16.index t (0 : Fin 1) = 0 from rfl]; omega

theorem blk17 (c : Dev nD) (t : Fin cfg0.N) : iblk m c 17 t = (params m c).a17 := by
  funext y
  show V m c main_arg17 (((cfg0.win 17).blk t).view.emb y) = V m c main_arg17 y
  refine congrArg (V m c main_arg17) (funext fun a => Fin.ext ?_)
  match a with
    | ⟨0, _⟩ =>
      show win0_17.index t (0 : Fin 2) * 16 + 1 * (y 0).val = (y 0).val
      rw [show win0_17.index t (0 : Fin 2) = 0 from rfl]; omega
    | ⟨1, _⟩ =>
      show win0_17.index t (1 : Fin 2) * 6 + 1 * (y 1).val = (y 1).val
      rw [show win0_17.index t (1 : Fin 2) = 0 from rfl]; omega

theorem blk18 (c : Dev nD) (t : Fin cfg0.N) : iblk m c 18 t = (params m c).a18 := by
  funext y
  show V m c main_arg18 (((cfg0.win 18).blk t).view.emb y) = V m c main_arg18 y
  refine congrArg (V m c main_arg18) (funext fun a => Fin.ext ?_)
  match a with
    | ⟨0, _⟩ =>
      show win0_18.index t (0 : Fin 1) * 6 + 1 * (y 0).val = (y 0).val
      rw [show win0_18.index t (0 : Fin 1) = 0 from rfl]; omega

theorem blk19 (c : Dev nD) (t : Fin cfg0.N) : iblk m c 19 t = (params m c).a19 := by
  funext y
  show V m c main_arg19 (((cfg0.win 19).blk t).view.emb y) = V m c main_arg19 y
  refine congrArg (V m c main_arg19) (funext fun a => Fin.ext ?_)
  match a with
    | ⟨0, _⟩ =>
      show win0_19.index t (0 : Fin 2) * 6 + 1 * (y 0).val = (y 0).val
      rw [show win0_19.index t (0 : Fin 2) = 0 from rfl]; omega
    | ⟨1, _⟩ =>
      show win0_19.index t (1 : Fin 2) * 4 + 1 * (y 1).val = (y 1).val
      rw [show win0_19.index t (1 : Fin 2) = 0 from rfl]; omega

theorem blk20 (c : Dev nD) (t : Fin cfg0.N) : iblk m c 20 t = (params m c).a20 := by
  funext y
  show V m c main_arg20 (((cfg0.win 20).blk t).view.emb y) = V m c main_arg20 y
  refine congrArg (V m c main_arg20) (funext fun a => Fin.ext ?_)
  match a with
    | ⟨0, _⟩ =>
      show win0_20.index t (0 : Fin 1) * 4 + 1 * (y 0).val = (y 0).val
      rw [show win0_20.index t (0 : Fin 1) = 0 from rfl]; omega

theorem blk21 (c : Dev nD) (t : Fin cfg0.N) : iblk m c 21 t = (params m c).a21 := by
  funext y
  show V m c main_arg21 (((cfg0.win 21).blk t).view.emb y) = V m c main_arg21 y
  refine congrArg (V m c main_arg21) (funext fun a => Fin.ext ?_)
  match a with
    | ⟨0, _⟩ =>
      show win0_21.index t (0 : Fin 2) * 4 + 1 * (y 0).val = (y 0).val
      rw [show win0_21.index t (0 : Fin 2) = 0 from rfl]; omega
    | ⟨1, _⟩ =>
      show win0_21.index t (1 : Fin 2) * 4 + 1 * (y 1).val = (y 1).val
      rw [show win0_21.index t (1 : Fin 2) = 0 from rfl]; omega

theorem blk22 (c : Dev nD) (t : Fin cfg0.N) : iblk m c 22 t = (params m c).a22 := by
  funext y
  show V m c main_arg22 (((cfg0.win 22).blk t).view.emb y) = V m c main_arg22 y
  refine congrArg (V m c main_arg22) (funext fun a => Fin.ext ?_)
  match a with
    | ⟨0, _⟩ =>
      show win0_22.index t (0 : Fin 1) * 4 + 1 * (y 0).val = (y 0).val
      rw [show win0_22.index t (0 : Fin 1) = 0 from rfl]; omega

theorem blk23 (c : Dev nD) (t : Fin cfg0.N) : iblk m c 23 t = (params m c).a23 := by
  funext y
  show V m c main_arg23 (((cfg0.win 23).blk t).view.emb y) = V m c main_arg23 y
  refine congrArg (V m c main_arg23) (funext fun a => Fin.ext ?_)
  match a with
    | ⟨0, _⟩ =>
      show win0_23.index t (0 : Fin 2) * 4 + 1 * (y 0).val = (y 0).val
      rw [show win0_23.index t (0 : Fin 2) = 0 from rfl]; omega
    | ⟨1, _⟩ =>
      show win0_23.index t (1 : Fin 2) * 2 + 1 * (y 1).val = (y 1).val
      rw [show win0_23.index t (1 : Fin 2) = 0 from rfl]; omega

theorem blk24 (c : Dev nD) (t : Fin cfg0.N) : iblk m c 24 t = (params m c).a24 := by
  funext y
  show V m c main_arg24 (((cfg0.win 24).blk t).view.emb y) = V m c main_arg24 y
  refine congrArg (V m c main_arg24) (funext fun a => Fin.ext ?_)
  match a with
    | ⟨0, _⟩ =>
      show win0_24.index t (0 : Fin 1) * 2 + 1 * (y 0).val = (y 0).val
      rw [show win0_24.index t (0 : Fin 1) = 0 from rfl]; omega

theorem blk25 (c : Dev nD) (t : Fin cfg0.N) : iblk m c 25 t = (params m c).a25 := by
  funext y
  show V m c main_arg25 (((cfg0.win 25).blk t).view.emb y) = V m c main_arg25 y
  refine congrArg (V m c main_arg25) (funext fun a => Fin.ext ?_)
  match a with
    | ⟨0, _⟩ =>
      show win0_25.index t (0 : Fin 2) * 2 + 1 * (y 0).val = (y 0).val
      rw [show win0_25.index t (0 : Fin 2) = 0 from rfl]; omega
    | ⟨1, _⟩ =>
      show win0_25.index t (1 : Fin 2) * 2 + 1 * (y 1).val = (y 1).val
      rw [show win0_25.index t (1 : Fin 2) = 0 from rfl]; omega

theorem blk26 (c : Dev nD) (t : Fin cfg0.N) : iblk m c 26 t = (params m c).a26 := by
  funext y
  show V m c main_arg26 (((cfg0.win 26).blk t).view.emb y) = V m c main_arg26 y
  refine congrArg (V m c main_arg26) (funext fun a => Fin.ext ?_)
  match a with
    | ⟨0, _⟩ =>
      show win0_26.index t (0 : Fin 1) * 2 + 1 * (y 0).val = (y 0).val
      rw [show win0_26.index t (0 : Fin 1) = 0 from rfl]; omega

theorem blk27 (c : Dev nD) (t : Fin cfg0.N) : iblk m c 27 t = (params m c).a27 := by
  funext y
  show V m c main_arg27 (((cfg0.win 27).blk t).view.emb y) = V m c main_arg27 y
  refine congrArg (V m c main_arg27) (funext fun a => Fin.ext ?_)
  match a with
    | ⟨0, _⟩ =>
      show win0_27.index t (0 : Fin 2) * 8 + 1 * (y 0).val = (y 0).val
      rw [show win0_27.index t (0 : Fin 2) = 0 from rfl]; omega
    | ⟨1, _⟩ =>
      show win0_27.index t (1 : Fin 2) * 4 + 1 * (y 1).val = (y 1).val
      rw [show win0_27.index t (1 : Fin 2) = 0 from rfl]; omega

theorem blk28 (c : Dev nD) (t : Fin cfg0.N) : iblk m c 28 t = (params m c).a28 := by
  funext y
  show V m c main_arg28 (((cfg0.win 28).blk t).view.emb y) = V m c main_arg28 y
  refine congrArg (V m c main_arg28) (funext fun a => Fin.ext ?_)
  match a with
    | ⟨0, _⟩ =>
      show win0_28.index t (0 : Fin 1) * 4 + 1 * (y 0).val = (y 0).val
      rw [show win0_28.index t (0 : Fin 1) = 0 from rfl]; omega

theorem blk29 (c : Dev nD) (t : Fin cfg0.N) : iblk m c 29 t = (params m c).a29 := by
  funext y
  show V m c main_arg29 (((cfg0.win 29).blk t).view.emb y) = V m c main_arg29 y
  refine congrArg (V m c main_arg29) (funext fun a => Fin.ext ?_)
  match a with
    | ⟨0, _⟩ =>
      show win0_29.index t (0 : Fin 2) * 4 + 1 * (y 0).val = (y 0).val
      rw [show win0_29.index t (0 : Fin 2) = 0 from rfl]; omega
    | ⟨1, _⟩ =>
      show win0_29.index t (1 : Fin 2) * 1 + 1 * (y 1).val = (y 1).val
      rw [show win0_29.index t (1 : Fin 2) = 0 from rfl]; omega

theorem blk30 (c : Dev nD) (t : Fin cfg0.N) : iblk m c 30 t = (params m c).a30 := by
  funext y
  show V m c main_arg30 (((cfg0.win 30).blk t).view.emb y) = V m c main_arg30 y
  refine congrArg (V m c main_arg30) (funext fun a => Fin.ext ?_)
  match a with
    | ⟨0, _⟩ =>
      show win0_30.index t (0 : Fin 1) * 1 + 1 * (y 0).val = (y 0).val
      rw [show win0_30.index t (0 : Fin 1) = 0 from rfl]; omega

theorem blk31 (c : Dev nD) (t : Fin cfg0.N) : iblk m c 31 t = (params m c).a31 := by
  funext y
  show V m c main_arg31 (((cfg0.win 31).blk t).view.emb y) = V m c main_arg31 y
  refine congrArg (V m c main_arg31) (funext fun a => Fin.ext ?_)
  match a with
    | ⟨0, _⟩ =>
      show win0_31.index t (0 : Fin 2) * 6 + 1 * (y 0).val = (y 0).val
      rw [show win0_31.index t (0 : Fin 2) = 0 from rfl]; omega
    | ⟨1, _⟩ =>
      show win0_31.index t (1 : Fin 2) * 4 + 1 * (y 1).val = (y 1).val
      rw [show win0_31.index t (1 : Fin 2) = 0 from rfl]; omega

theorem blk32 (c : Dev nD) (t : Fin cfg0.N) : iblk m c 32 t = (params m c).a32 := by
  funext y
  show V m c main_arg32 (((cfg0.win 32).blk t).view.emb y) = V m c main_arg32 y
  refine congrArg (V m c main_arg32) (funext fun a => Fin.ext ?_)
  match a with
    | ⟨0, _⟩ =>
      show win0_32.index t (0 : Fin 1) * 4 + 1 * (y 0).val = (y 0).val
      rw [show win0_32.index t (0 : Fin 1) = 0 from rfl]; omega

theorem blk33 (c : Dev nD) (t : Fin cfg0.N) : iblk m c 33 t = (params m c).a33 := by
  funext y
  show V m c main_arg33 (((cfg0.win 33).blk t).view.emb y) = V m c main_arg33 y
  refine congrArg (V m c main_arg33) (funext fun a => Fin.ext ?_)
  match a with
    | ⟨0, _⟩ =>
      show win0_33.index t (0 : Fin 2) * 4 + 1 * (y 0).val = (y 0).val
      rw [show win0_33.index t (0 : Fin 2) = 0 from rfl]; omega
    | ⟨1, _⟩ =>
      show win0_33.index t (1 : Fin 2) * 1 + 1 * (y 1).val = (y 1).val
      rw [show win0_33.index t (1 : Fin 2) = 0 from rfl]; omega

theorem blk34 (c : Dev nD) (t : Fin cfg0.N) : iblk m c 34 t = (params m c).a34 := by
  funext y
  show V m c main_arg34 (((cfg0.win 34).blk t).view.emb y) = V m c main_arg34 y
  refine congrArg (V m c main_arg34) (funext fun a => Fin.ext ?_)
  match a with
    | ⟨0, _⟩ =>
      show win0_34.index t (0 : Fin 1) * 1 + 1 * (y 0).val = (y 0).val
      rw [show win0_34.index t (0 : Fin 1) = 0 from rfl]; omega

theorem blk35 (c : Dev nD) (t : Fin cfg0.N) : iblk m c 35 t = (params m c).a35 := by
  funext y
  show V m c main_arg35 (((cfg0.win 35).blk t).view.emb y) = V m c main_arg35 y
  refine congrArg (V m c main_arg35) (funext fun a => Fin.ext ?_)
  match a with
    | ⟨0, _⟩ =>
      show win0_35.index t (0 : Fin 2) * 4 + 1 * (y 0).val = (y 0).val
      rw [show win0_35.index t (0 : Fin 2) = 0 from rfl]; omega
    | ⟨1, _⟩ =>
      show win0_35.index t (1 : Fin 2) * 4 + 1 * (y 1).val = (y 1).val
      rw [show win0_35.index t (1 : Fin 2) = 0 from rfl]; omega

theorem blk36 (c : Dev nD) (t : Fin cfg0.N) : iblk m c 36 t = (params m c).a36 := by
  funext y
  show V m c main_arg36 (((cfg0.win 36).blk t).view.emb y) = V m c main_arg36 y
  refine congrArg (V m c main_arg36) (funext fun a => Fin.ext ?_)
  match a with
    | ⟨0, _⟩ =>
      show win0_36.index t (0 : Fin 1) * 4 + 1 * (y 0).val = (y 0).val
      rw [show win0_36.index t (0 : Fin 1) = 0 from rfl]; omega

theorem blk37 (c : Dev nD) (t : Fin cfg0.N) : iblk m c 37 t = (params m c).a37 := by
  funext y
  show V m c main_arg37 (((cfg0.win 37).blk t).view.emb y) = V m c main_arg37 y
  refine congrArg (V m c main_arg37) (funext fun a => Fin.ext ?_)
  match a with
    | ⟨0, _⟩ =>
      show win0_37.index t (0 : Fin 2) * 4 + 1 * (y 0).val = (y 0).val
      rw [show win0_37.index t (0 : Fin 2) = 0 from rfl]; omega
    | ⟨1, _⟩ =>
      show win0_37.index t (1 : Fin 2) * 1 + 1 * (y 1).val = (y 1).val
      rw [show win0_37.index t (1 : Fin 2) = 0 from rfl]; omega

theorem blk38 (c : Dev nD) (t : Fin cfg0.N) : iblk m c 38 t = (params m c).a38 := by
  funext y
  show V m c main_arg38 (((cfg0.win 38).blk t).view.emb y) = V m c main_arg38 y
  refine congrArg (V m c main_arg38) (funext fun a => Fin.ext ?_)
  match a with
    | ⟨0, _⟩ =>
      show win0_38.index t (0 : Fin 1) * 1 + 1 * (y 0).val = (y 0).val
      rw [show win0_38.index t (0 : Fin 1) = 0 from rfl]; omega

/-! ## What a point writes back -/

/-- Point `t` writes back block `t` of the tree of every row of `x`. -/
theorem flushed_eq (c : Dev nD) (t : Fin cfg0.N) :
    (dats m 0 c).flushed 39 t = ((cfg0.win 39).blk t).view.read (Elt Ideal) (G (params m c) (V m c main_arg0)) := by
  show (cfg0.win 39).cut (grid0.coords t) ((dats m 0 c).after 39 t) = _
  rw [after0_39, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, blk25 m c t, blk26 m c t, blk27 m c t, blk28 m c t, blk29 m c t, blk30 m c t, blk31 m c t, blk32 m c t, blk33 m c t, blk34 m c t, blk35 m c t, blk36 m c t, blk37 m c t, blk38 m c t, out_eq (params m c) (iblk m c 0 t)]
  funext y
  show net (params m c) (rowOf (iblk m c 0 t) (y 0)) (y 1)
    = net (params m c) (rowOf (V m c main_arg0) ((((cfg0.win 39).blk t).view.emb y) 0)) ((((cfg0.win 39).blk t).view.emb y) 1)
  have hrow : rowOf (iblk m c 0 t) (y 0) = rowOf (V m c main_arg0) ((((cfg0.win 39).blk t).view.emb y) 0) := by
    funext k
    show V m c main_arg0 (((cfg0.win 0).blk t).view.emb (ix2 (y 0) k))
      = V m c main_arg0 (ix2 ((((cfg0.win 39).blk t).view.emb y) 0) k)
    refine congrArg (V m c main_arg0) (funext fun a => Fin.ext ?_)
    match a with
    | ⟨0, _⟩ =>
      show win0_0.index t (0 : Fin 2) * 8000 + 1 * (y 0).val = win0_39.index t (0 : Fin 2) * 8000 + 1 * (y 0).val
      rfl
    | ⟨1, _⟩ =>
      show win0_0.index t (1 : Fin 2) * 11 + 1 * k.val = k.val
      rw [show win0_0.index t (1 : Fin 2) = 0 from rfl]; omega
  have hcol : (((cfg0.win 39).blk t).view.emb y) 1 = y 1 := by
    refine Fin.ext ?_
    show win0_39.index t (1 : Fin 2) * 3 + 1 * (y 1).val = (y 1).val
    rw [show win0_39.index t (1 : Fin 2) = 0 from rfl]; omega
  rw [hrow, hcol]

/-! ## The cover -/

/-- The output's block index at point `t` is `t` (decided over the 250 points). -/
theorem idx_pt : ∀ t : Fin cfg0.N, win0_39.index t (0 : Fin 2) = t.val :=
  (by decide +kernel : ∀ t : Fin grid0.N, win0_39.index t (0 : Fin 2) = t.val)

/-- An index of the result array is in point `t`'s block iff each coordinate is in the block's range on its axis. -/
theorem mem_blk (t : Fin cfg0.N) (i : S2000000x3.Idx) :
    i ∈ ((cfg0.win 39).blk t).view.set ↔ ∀ a : Fin 2, win0_39.index t a * S8000x3.size a ≤ (i a).val
      ∧ (i a).val < win0_39.index t a * S8000x3.size a + S8000x3.size a := by
  show i ∈ ((View.whole main_v0).slice (win0_39.rect t)).set ↔ _
  rw [View.set_slice_whole, Rect.mem_set_unit]
  exact Iff.rfl

/-- Every row lies in the block of the point numbered by the row's quotient by 8000. -/
theorem cover (i : S2000000x3.Idx) :
    ∃ t : Fin cfg0.N, (cfg0.win 39).flush t = true ∧ i ∈ ((cfg0.win 39).blk t).view.set := by
  have hi0 : (i 0).val < 2000000 := (i 0).isLt
  have hi1 : (i 1).val < 3 := (i 1).isLt
  have hN : cfg0.N = 250 := N_0
  have hq : (i 0).val / 8000 < cfg0.N := by rw [hN]; omega
  refine ⟨⟨(i 0).val / 8000, hq⟩, flush0_39 _, ?_⟩
  rw [mem_blk]
  have e0 : win0_39.index ⟨(i 0).val / 8000, hq⟩ (0 : Fin 2) = (i 0).val / 8000 := idx_pt ⟨(i 0).val / 8000, hq⟩
  have e1 : win0_39.index ⟨(i 0).val / 8000, hq⟩ (1 : Fin 2) = 0 := rfl
  intro a
  match a with
  | ⟨0, _⟩ =>
    show win0_39.index ⟨(i 0).val / 8000, hq⟩ (0 : Fin 2) * 8000 ≤ (i 0).val
      ∧ (i 0).val < win0_39.index ⟨(i 0).val / 8000, hq⟩ (0 : Fin 2) * 8000 + 8000
    rw [e0]; omega
  | ⟨1, _⟩ =>
    show win0_39.index ⟨(i 0).val / 8000, hq⟩ (1 : Fin 2) * 3 ≤ (i 1).val
      ∧ (i 1).val < win0_39.index ⟨(i 0).val / 8000, hq⟩ (1 : Fin 2) * 3 + 3
    rw [e1]; omega

/-! ## The array after the run, and the run -/

/-- The result array after the run is the tree of every row of `x`. -/
theorem final (c : Dev nD) : (dats m 0 c).arrAt 39 cfg0.N = G (params m c) (V m c main_arg0) :=
  (dats m 0 c).arrAt_eq_of_cover 39 _ (fun t _ => flushed_eq m c t) cover

/-- After the frame run the result array is the array the proof data computes. -/
theorem post (r : PUnit × MemSt nD τ sig (Elt Ideal)) (h : Pipeline.FramePost cfgs (dats m) 0 (V m) r) (c : Dev nD) :
    r.2.mem ((c : Thread nD τ).loc main_v0) = (dats m 0 c).arrAt 39 cfg0.N :=
  (h c).1 39

/-! Each argument array is as launched after the run: its window stages it and never writes it back. -/

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem kept11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

theorem kept12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

theorem kept13 (r : PUnit × MemSt nD τ sig (Elt Ideal)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

theorem kept14 (r : PUnit × MemSt nD τ sig (Elt Ideal)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

theorem kept15 (r : PUnit × MemSt nD τ sig (Elt Ideal)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

theorem kept16 (r : PUnit × MemSt nD τ sig (Elt Ideal)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))

theorem kept17 (r : PUnit × MemSt nD τ sig (Elt Ideal)) (h : Pipeline.FramePost cfgs (dats m) 0 (V m) r) (c : Dev nD) :
    r.2.mem ((c : Thread nD τ).loc main_arg17) = m ((c : Thread nD τ).loc main_arg17) :=
  ((h c).1 17).trans (((dats m 0 c).arrAt_in 17 rfl _).trans ((A_eq m c 17).trans (V_main_arg17 m c)))

theorem kept18 (r : PUnit × MemSt nD τ sig (Elt Ideal)) (h : Pipeline.FramePost cfgs (dats m) 0 (V m) r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))

theorem kept19 (r : PUnit × MemSt nD τ sig (Elt Ideal)) (h : Pipeline.FramePost cfgs (dats m) 0 (V m) r) (c : Dev nD) :
    r.2.mem ((c : Thread nD τ).loc main_arg19) = m ((c : Thread nD τ).loc main_arg19) :=
  ((h c).1 19).trans (((dats m 0 c).arrAt_in 19 rfl _).trans ((A_eq m c 19).trans (V_main_arg19 m c)))

theorem kept20 (r : PUnit × MemSt nD τ sig (Elt Ideal)) (h : Pipeline.FramePost cfgs (dats m) 0 (V m) r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))

theorem kept21 (r : PUnit × MemSt nD τ sig (Elt Ideal)) (h : Pipeline.FramePost cfgs (dats m) 0 (V m) r) (c : Dev nD) :
    r.2.mem ((c : Thread nD τ).loc main_arg21) = m ((c : Thread nD τ).loc main_arg21) :=
  ((h c).1 21).trans (((dats m 0 c).arrAt_in 21 rfl _).trans ((A_eq m c 21).trans (V_main_arg21 m c)))

theorem kept22 (r : PUnit × MemSt nD τ sig (Elt Ideal)) (h : Pipeline.FramePost cfgs (dats m) 0 (V m) r) (c : Dev nD) :
    r.2.mem ((c : Thread nD τ).loc main_arg22) = m ((c : Thread nD τ).loc main_arg22) :=
  ((h c).1 22).trans (((dats m 0 c).arrAt_in 22 rfl _).trans ((A_eq m c 22).trans (V_main_arg22 m c)))

theorem kept23 (r : PUnit × MemSt nD τ sig (Elt Ideal)) (h : Pipeline.FramePost cfgs (dats m) 0 (V m) r) (c : Dev nD) :
    r.2.mem ((c : Thread nD τ).loc main_arg23) = m ((c : Thread nD τ).loc main_arg23) :=
  ((h c).1 23).trans (((dats m 0 c).arrAt_in 23 rfl _).trans ((A_eq m c 23).trans (V_main_arg23 m c)))

theorem kept24 (r : PUnit × MemSt nD τ sig (Elt Ideal)) (h : Pipeline.FramePost cfgs (dats m) 0 (V m) r) (c : Dev nD) :
    r.2.mem ((c : Thread nD τ).loc main_arg24) = m ((c : Thread nD τ).loc main_arg24) :=
  ((h c).1 24).trans (((dats m 0 c).arrAt_in 24 rfl _).trans ((A_eq m c 24).trans (V_main_arg24 m c)))

theorem kept25 (r : PUnit × MemSt nD τ sig (Elt Ideal)) (h : Pipeline.FramePost cfgs (dats m) 0 (V m) r) (c : Dev nD) :
    r.2.mem ((c : Thread nD τ).loc main_arg25) = m ((c : Thread nD τ).loc main_arg25) :=
  ((h c).1 25).trans (((dats m 0 c).arrAt_in 25 rfl _).trans ((A_eq m c 25).trans (V_main_arg25 m c)))

theorem kept26 (r : PUnit × MemSt nD τ sig (Elt Ideal)) (h : Pipeline.FramePost cfgs (dats m) 0 (V m) r) (c : Dev nD) :
    r.2.mem ((c : Thread nD τ).loc main_arg26) = m ((c : Thread nD τ).loc main_arg26) :=
  ((h c).1 26).trans (((dats m 0 c).arrAt_in 26 rfl _).trans ((A_eq m c 26).trans (V_main_arg26 m c)))

theorem kept27 (r : PUnit × MemSt nD τ sig (Elt Ideal)) (h : Pipeline.FramePost cfgs (dats m) 0 (V m) r) (c : Dev nD) :
    r.2.mem ((c : Thread nD τ).loc main_arg27) = m ((c : Thread nD τ).loc main_arg27) :=
  ((h c).1 27).trans (((dats m 0 c).arrAt_in 27 rfl _).trans ((A_eq m c 27).trans (V_main_arg27 m c)))

theorem kept28 (r : PUnit × MemSt nD τ sig (Elt Ideal)) (h : Pipeline.FramePost cfgs (dats m) 0 (V m) r) (c : Dev nD) :
    r.2.mem ((c : Thread nD τ).loc main_arg28) = m ((c : Thread nD τ).loc main_arg28) :=
  ((h c).1 28).trans (((dats m 0 c).arrAt_in 28 rfl _).trans ((A_eq m c 28).trans (V_main_arg28 m c)))

theorem kept29 (r : PUnit × MemSt nD τ sig (Elt Ideal)) (h : Pipeline.FramePost cfgs (dats m) 0 (V m) r) (c : Dev nD) :
    r.2.mem ((c : Thread nD τ).loc main_arg29) = m ((c : Thread nD τ).loc main_arg29) :=
  ((h c).1 29).trans (((dats m 0 c).arrAt_in 29 rfl _).trans ((A_eq m c 29).trans (V_main_arg29 m c)))

theorem kept30 (r : PUnit × MemSt nD τ sig (Elt Ideal)) (h : Pipeline.FramePost cfgs (dats m) 0 (V m) r) (c : Dev nD) :
    r.2.mem ((c : Thread nD τ).loc main_arg30) = m ((c : Thread nD τ).loc main_arg30) :=
  ((h c).1 30).trans (((dats m 0 c).arrAt_in 30 rfl _).trans ((A_eq m c 30).trans (V_main_arg30 m c)))

theorem kept31 (r : PUnit × MemSt nD τ sig (Elt Ideal)) (h : Pipeline.FramePost cfgs (dats m) 0 (V m) r) (c : Dev nD) :
    r.2.mem ((c : Thread nD τ).loc main_arg31) = m ((c : Thread nD τ).loc main_arg31) :=
  ((h c).1 31).trans (((dats m 0 c).arrAt_in 31 rfl _).trans ((A_eq m c 31).trans (V_main_arg31 m c)))

theorem kept32 (r : PUnit × MemSt nD τ sig (Elt Ideal)) (h : Pipeline.FramePost cfgs (dats m) 0 (V m) r) (c : Dev nD) :
    r.2.mem ((c : Thread nD τ).loc main_arg32) = m ((c : Thread nD τ).loc main_arg32) :=
  ((h c).1 32).trans (((dats m 0 c).arrAt_in 32 rfl _).trans ((A_eq m c 32).trans (V_main_arg32 m c)))

theorem kept33 (r : PUnit × MemSt nD τ sig (Elt Ideal)) (h : Pipeline.FramePost cfgs (dats m) 0 (V m) r) (c : Dev nD) :
    r.2.mem ((c : Thread nD τ).loc main_arg33) = m ((c : Thread nD τ).loc main_arg33) :=
  ((h c).1 33).trans (((dats m 0 c).arrAt_in 33 rfl _).trans ((A_eq m c 33).trans (V_main_arg33 m c)))

theorem kept34 (r : PUnit × MemSt nD τ sig (Elt Ideal)) (h : Pipeline.FramePost cfgs (dats m) 0 (V m) r) (c : Dev nD) :
    r.2.mem ((c : Thread nD τ).loc main_arg34) = m ((c : Thread nD τ).loc main_arg34) :=
  ((h c).1 34).trans (((dats m 0 c).arrAt_in 34 rfl _).trans ((A_eq m c 34).trans (V_main_arg34 m c)))

theorem kept35 (r : PUnit × MemSt nD τ sig (Elt Ideal)) (h : Pipeline.FramePost cfgs (dats m) 0 (V m) r) (c : Dev nD) :
    r.2.mem ((c : Thread nD τ).loc main_arg35) = m ((c : Thread nD τ).loc main_arg35) :=
  ((h c).1 35).trans (((dats m 0 c).arrAt_in 35 rfl _).trans ((A_eq m c 35).trans (V_main_arg35 m c)))

theorem kept36 (r : PUnit × MemSt nD τ sig (Elt Ideal)) (h : Pipeline.FramePost cfgs (dats m) 0 (V m) r) (c : Dev nD) :
    r.2.mem ((c : Thread nD τ).loc main_arg36) = m ((c : Thread nD τ).loc main_arg36) :=
  ((h c).1 36).trans (((dats m 0 c).arrAt_in 36 rfl _).trans ((A_eq m c 36).trans (V_main_arg36 m c)))

theorem kept37 (r : PUnit × MemSt nD τ sig (Elt Ideal)) (h : Pipeline.FramePost cfgs (dats m) 0 (V m) r) (c : Dev nD) :
    r.2.mem ((c : Thread nD τ).loc main_arg37) = m ((c : Thread nD τ).loc main_arg37) :=
  ((h c).1 37).trans (((dats m 0 c).arrAt_in 37 rfl _).trans ((A_eq m c 37).trans (V_main_arg37 m c)))

theorem kept38 (r : PUnit × MemSt nD τ sig (Elt Ideal)) (h : Pipeline.FramePost cfgs (dats m) 0 (V m) r) (c : Dev nD) :
    r.2.mem ((c : Thread nD τ).loc main_arg38) = m ((c : Thread nD τ).loc main_arg38) :=
  ((h c).1 38).trans (((dats m 0 c).arrAt_in 38 rfl _).trans ((A_eq m c 38).trans (V_main_arg38 m c)))

set_option maxHeartbeats 2000000 in
/-- Every weakly fair execution of the kernel's program ends with the result array at the tree of every row of `x` and
    the argument arrays unchanged. -/
theorem run : θ_run defs (onTc (τ := τ) (main (F := Ideal))) ⟨m, fun _ => 0, ρ⟩ fun r => ∀ c : Dev nD,
      r.2.mem ((c : Thread nD τ).loc main_v0) = G (params m c) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36)
      ∧ r.2.mem ((c : Thread nD τ).loc main_arg37) = m ((c : Thread nD τ).loc main_arg37)
      ∧ r.2.mem ((c : Thread nD τ).loc main_arg38) = m ((c : Thread nD τ).loc main_arg38) :=
  (θ_run defs _ _).mono (fun r h c => ⟨(post m r h c).trans (final m c),
      kept0 m r h c,
      kept1 m r h c,
      kept2 m r h c,
      kept3 m r h c,
      kept4 m r h c,
      kept5 m r h c,
      kept6 m r h c,
      kept7 m r h c,
      kept8 m r h c,
      kept9 m r h c,
      kept10 m r h c,
      kept11 m r h c,
      kept12 m r h c,
      kept13 m r h c,
      kept14 m r h c,
      kept15 m r h c,
      kept16 m r h c,
      kept17 m r h c,
      kept18 m r h c,
      kept19 m r h c,
      kept20 m r h c,
      kept21 m r h c,
      kept22 m r h c,
      kept23 m r h c,
      kept24 m r h c,
      kept25 m r h c,
      kept26 m r h c,
      kept27 m r h c,
      kept28 m r h c,
      kept29 m r h c,
      kept30 m r h c,
      kept31 m r h c,
      kept32 m r h c,
      kept33 m r h c,
      kept34 m r h c,
      kept35 m r h c,
      kept36 m r h c,
      kept37 m r h c,
      kept38 m r h c⟩)
    (run_main m ρ)

end Cert.KernelIdeal.Whole

end
-- ==== Proof.RefTerm.lean ====
/-
  The reference program's result as ONE pure function of its thirty-nine argument arrays.

  The reference computes, over all two million rows at once, a small tree of perceptrons: from the eleven columns of
  `x` it cuts six single columns and gathers five more through a table of column numbers, and pushes concatenations
  of them through nineteen affine layers (a `dot_general` with a weight matrix plus a broadcast bias vector), each but
  the last of a branch followed by the maximum with zero. `refOut` is that composition, operation by operation in the
  program's order, each operation spelt as the program spells it; `colIdx` is the table of column numbers as the
  program computes it (negative entries wrapped by eleven, then made a column of start indices).
-/
import proofs.«160508_j9448928051825_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The start indices of the column gather: the literal table `[0, 1, 5, 6, 7]`, an entry below zero moved up by the
    number of columns, as one column. -/
def colIdx : IVec S5x1 32 :=
  have c : IVec S5 32 := fun i => lit0 (S5.rowMajor i)
  have v6 : IVec S5 32 := broadcastInDim S5 ![] bcast_S_S5 (constantI S_ 32 0#32)
  have v7 : IVec S5 1 := cmpi .slt c v6
  have v8 : IVec S5 32 := broadcastInDim S5 ![] bcast_S_S5 (constantI S_ 32 11#32)
  have v9 : IVec S5 32 := addi c v8
  have v10 : IVec S5 32 := select v7 v9 c
  broadcastInDim S5x1 ![0] bcast_S5_S5x1_0 v10

/-- The reference's result array, from its argument arrays. -/
def refOut (x : FVec F S2000000x11 .f32) (a1 : FVec F S2x2 .f32) (a2 : FVec F S2 .f32) (a3 : FVec F S2x2 .f32) (a4 : FVec F S2 .f32) (a5 : FVec F S4x4 .f32) (a6 : FVec F S4 .f32) (a7 : FVec F S4x4 .f32) (a8 : FVec F S4 .f32) (a9 : FVec F S6x6 .f32) (a10 : FVec F S6 .f32) (a11 : FVec F S6x6 .f32) (a12 : FVec F S6 .f32) (a13 : FVec F S11x16 .f32) (a14 : FVec F S16 .f32) (a15 : FVec F S16x16 .f32) (a16 : FVec F S16 .f32) (a17 : FVec F S16x6 .f32) (a18 : FVec F S6 .f32) (a19 : FVec F S6x4 .f32) (a20 : FVec F S4 .f32) (a21 : FVec F S4x4 .f32) (a22 : FVec F S4 .f32) (a23 : FVec F S4x2 .f32) (a24 : FVec F S2 .f32) (a25 : FVec F S2x2 .f32) (a26 : FVec F S2 .f32) (a27 : FVec F S8x4 .f32) (a28 : FVec F S4 .f32) (a29 : FVec F S4x1 .f32) (a30 : FVec F S1 .f32) (a31 : FVec F S6x4 .f32) (a32 : FVec F S4 .f32) (a33 : FVec F S4x1 .f32) (a34 : FVec F S1 .f32) (a35 : FVec F S4x4 .f32) (a36 : FVec F S4 .f32) (a37 : FVec F S4x1 .f32) (a38 : FVec F S1 .f32) : FVec F S2000000x3 .f32 :=
  have v0 : FVec F S2000000x1 .f32 := extractStridedSlice S2000000x1 ![0, 2] x slices_S2000000x11_S2000000x1_0_2
  have v1 : FVec F S2000000x1 .f32 := extractStridedSlice S2000000x1 ![0, 3] x slices_S2000000x11_S2000000x1_0_3
  have v2 : FVec F S2000000x1 .f32 := extractStridedSlice S2000000x1 ![0, 4] x slices_S2000000x11_S2000000x1_0_4
  have v3 : FVec F S2000000x1 .f32 := extractStridedSlice S2000000x1 ![0, 8] x slices_S2000000x11_S2000000x1_0_8
  have v4 : FVec F S2000000x1 .f32 := extractStridedSlice S2000000x1 ![0, 9] x slices_S2000000x11_S2000000x1_0_9
  have v5 : FVec F S2000000x1 .f32 := extractStridedSlice S2000000x1 ![0, 10] x slices_S2000000x11_S2000000x1_0_10
  have v12 : FVec F S2000000x5 .f32 := Host.gather gather_S2000000x11_S5x1_S2000000x5_0_1_n_n_1_1_20000001 x colIdx
  have v13 : FVec F S2000000x2 .f32 := concatenate S2000000x2 1 [⟨S2000000x1, v2⟩, ⟨S2000000x1, v5⟩] concatenates_S2000000x1_S2000000x1_S2000000x2_d1
  have v17 : FVec F S2000000x2 .f32 := addf (Host.dotGeneral dot_S2000000x2_S2x2_S2000000x2_1_0_0_1_n_n none v13 a1) (broadcastInDim S2000000x2 ![0, 1] bcast_S1x2_S2000000x2_0_1 (broadcastInDim S1x2 ![1] bcast_S2_S1x2_1 a2))
  have v18 : FVec F S2000000x2 .f32 := maximumf v17 (broadcastInDim S2000000x2 ![] bcast_S_S2000000x2 (constant S_ .f32 0x00000000#32))
  have v22 : FVec F S2000000x2 .f32 := addf (Host.dotGeneral dot_S2000000x2_S2x2_S2000000x2_1_0_0_1_n_n none v18 a3) (broadcastInDim S2000000x2 ![0, 1] bcast_S1x2_S2000000x2_0_1 (broadcastInDim S1x2 ![1] bcast_S2_S1x2_1 a4))
  have v23 : FVec F S2000000x2 .f32 := maximumf v22 (broadcastInDim S2000000x2 ![] bcast_S_S2000000x2 (constant S_ .f32 0x00000000#32))
  have v24 : FVec F S2000000x4 .f32 := concatenate S2000000x4 1 [⟨S2000000x1, v1⟩, ⟨S2000000x1, v4⟩, ⟨S2000000x2, v23⟩] concatenates_S2000000x1_S2000000x1_S2000000x2_S2000000x4_d1
  have v28 : FVec F S2000000x4 .f32 := addf (Host.dotGeneral dot_S2000000x4_S4x4_S2000000x4_1_0_0_1_n_n none v24 a5) (broadcastInDim S2000000x4 ![0, 1] bcast_S1x4_S2000000x4_0_1 (broadcastInDim S1x4 ![1] bcast_S4_S1x4_1 a6))
  have v29 : FVec F S2000000x4 .f32 := maximumf v28 (broadcastInDim S2000000x4 ![] bcast_S_S2000000x4 (constant S_ .f32 0x00000000#32))
  have v33 : FVec F S2000000x4 .f32 := addf (Host.dotGeneral dot_S2000000x4_S4x4_S2000000x4_1_0_0_1_n_n none v29 a7) (broadcastInDim S2000000x4 ![0, 1] bcast_S1x4_S2000000x4_0_1 (broadcastInDim S1x4 ![1] bcast_S4_S1x4_1 a8))
  have v34 : FVec F S2000000x4 .f32 := maximumf v33 (broadcastInDim S2000000x4 ![] bcast_S_S2000000x4 (constant S_ .f32 0x00000000#32))
  have v35 : FVec F S2000000x6 .f32 := concatenate S2000000x6 1 [⟨S2000000x1, v0⟩, ⟨S2000000x1, v3⟩, ⟨S2000000x4, v34⟩] concatenates_S2000000x1_S2000000x1_S2000000x4_S2000000x6_d1
  have v39 : FVec F S2000000x6 .f32 := addf (Host.dotGeneral dot_S2000000x6_S6x6_S2000000x6_1_0_0_1_n_n none v35 a9) (broadcastInDim S2000000x6 ![0, 1] bcast_S1x6_S2000000x6_0_1 (broadcastInDim S1x6 ![1] bcast_S6_S1x6_1 a10))
  have v40 : FVec F S2000000x6 .f32 := maximumf v39 (broadcastInDim S2000000x6 ![] bcast_S_S2000000x6 (constant S_ .f32 0x00000000#32))
  have v44 : FVec F S2000000x6 .f32 := addf (Host.dotGeneral dot_S2000000x6_S6x6_S2000000x6_1_0_0_1_n_n none v40 a11) (broadcastInDim S2000000x6 ![0, 1] bcast_S1x6_S2000000x6_0_1 (broadcastInDim S1x6 ![1] bcast_S6_S1x6_1 a12))
  have v45 : FVec F S2000000x6 .f32 := maximumf v44 (broadcastInDim S2000000x6 ![] bcast_S_S2000000x6 (constant S_ .f32 0x00000000#32))
  have v46 : FVec F S2000000x11 .f32 := concatenate S2000000x11 1 [⟨S2000000x5, v12⟩, ⟨S2000000x6, v45⟩] concatenates_S2000000x5_S2000000x6_S2000000x11_d1
  have v50 : FVec F S2000000x16 .f32 := addf (Host.dotGeneral dot_S2000000x11_S11x16_S2000000x16_1_0_0_1_n_n none v46 a13) (broadcastInDim S2000000x16 ![0, 1] bcast_S1x16_S2000000x16_0_1 (broadcastInDim S1x16 ![1] bcast_S16_S1x16_1 a14))
  have v51 : FVec F S2000000x16 .f32 := maximumf v50 (broadcastInDim S2000000x16 ![] bcast_S_S2000000x16 (constant S_ .f32 0x00000000#32))
  have v55 : FVec F S2000000x16 .f32 := addf (Host.dotGeneral dot_S2000000x16_S16x16_S2000000x16_1_0_0_1_n_n none v51 a15) (broadcastInDim S2000000x16 ![0, 1] bcast_S1x16_S2000000x16_0_1 (broadcastInDim S1x16 ![1] bcast_S16_S1x16_1 a16))
  have v56 : FVec F S2000000x16 .f32 := maximumf v55 (broadcastInDim S2000000x16 ![] bcast_S_S2000000x16 (constant S_ .f32 0x00000000#32))
  have v60 : FVec F S2000000x6 .f32 := addf (Host.dotGeneral dot_S2000000x16_S16x6_S2000000x6_1_0_0_1_n_n none v56 a17) (broadcastInDim S2000000x6 ![0, 1] bcast_S1x6_S2000000x6_0_1 (broadcastInDim S1x6 ![1] bcast_S6_S1x6_1 a18))
  have v61 : FVec F S2000000x6 .f32 := maximumf v60 (broadcastInDim S2000000x6 ![] bcast_S_S2000000x6 (constant S_ .f32 0x00000000#32))
  have v65 : FVec F S2000000x4 .f32 := addf (Host.dotGeneral dot_S2000000x6_S6x4_S2000000x4_1_0_0_1_n_n none v61 a19) (broadcastInDim S2000000x4 ![0, 1] bcast_S1x4_S2000000x4_0_1 (broadcastInDim S1x4 ![1] bcast_S4_S1x4_1 a20))
  have v66 : FVec F S2000000x4 .f32 := maximumf v65 (broadcastInDim S2000000x4 ![] bcast_S_S2000000x4 (constant S_ .f32 0x00000000#32))
  have v70 : FVec F S2000000x4 .f32 := addf (Host.dotGeneral dot_S2000000x4_S4x4_S2000000x4_1_0_0_1_n_n none v66 a21) (broadcastInDim S2000000x4 ![0, 1] bcast_S1x4_S2000000x4_0_1 (broadcastInDim S1x4 ![1] bcast_S4_S1x4_1 a22))
  have v71 : FVec F S2000000x4 .f32 := maximumf v70 (broadcastInDim S2000000x4 ![] bcast_S_S2000000x4 (constant S_ .f32 0x00000000#32))
  have v75 : FVec F S2000000x2 .f32 := addf (Host.dotGeneral dot_S2000000x4_S4x2_S2000000x2_1_0_0_1_n_n none v71 a23) (broadcastInDim S2000000x2 ![0, 1] bcast_S1x2_S2000000x2_0_1 (broadcastInDim S1x2 ![1] bcast_S2_S1x2_1 a24))
  have v76 : FVec F S2000000x2 .f32 := maximumf v75 (broadcastInDim S2000000x2 ![] bcast_S_S2000000x2 (constant S_ .f32 0x00000000#32))
  have v80 : FVec F S2000000x2 .f32 := addf (Host.dotGeneral dot_S2000000x2_S2x2_S2000000x2_1_0_0_1_n_n none v76 a25) (broadcastInDim S2000000x2 ![0, 1] bcast_S1x2_S2000000x2_0_1 (broadcastInDim S1x2 ![1] bcast_S2_S1x2_1 a26))
  have v81 : FVec F S2000000x2 .f32 := maximumf v80 (broadcastInDim S2000000x2 ![] bcast_S_S2000000x2 (constant S_ .f32 0x00000000#32))
  have v82 : FVec F S2000000x8 .f32 := concatenate S2000000x8 1 [⟨S2000000x1, v0⟩, ⟨S2000000x1, v3⟩, ⟨S2000000x6, v61⟩] concatenates_S2000000x1_S2000000x1_S2000000x6_S2000000x8_d1
  have v86 : FVec F S2000000x4 .f32 := addf (Host.dotGeneral dot_S2000000x8_S8x4_S2000000x4_1_0_0_1_n_n none v82 a27) (broadcastInDim S2000000x4 ![0, 1] bcast_S1x4_S2000000x4_0_1 (broadcastInDim S1x4 ![1] bcast_S4_S1x4_1 a28))
  have v87 : FVec F S2000000x4 .f32 := maximumf v86 (broadcastInDim S2000000x4 ![] bcast_S_S2000000x4 (constant S_ .f32 0x00000000#32))
  have v91 : FVec F S2000000x1 .f32 := addf (Host.dotGeneral dot_S2000000x4_S4x1_S2000000x1_1_0_0_1_n_n none v87 a29) (broadcastInDim S2000000x1 ![0, 1] bcast_S1x1_S2000000x1_0_1 (broadcastInDim S1x1 ![1] bcast_S1_S1x1_1 a30))
  have v92 : FVec F S2000000x6 .f32 := concatenate S2000000x6 1 [⟨S2000000x1, v1⟩, ⟨S2000000x1, v4⟩, ⟨S2000000x4, v71⟩] concatenates_S2000000x1_S2000000x1_S2000000x4_S2000000x6_d1
  have v96 : FVec F S2000000x4 .f32 := addf (Host.dotGeneral dot_S2000000x6_S6x4_S2000000x4_1_0_0_1_n_n none v92 a31) (broadcastInDim S2000000x4 ![0, 1] bcast_S1x4_S2000000x4_0_1 (broadcastInDim S1x4 ![1] bcast_S4_S1x4_1 a32))
  have v97 : FVec F S2000000x4 .f32 := maximumf v96 (broadcastInDim S2000000x4 ![] bcast_S_S2000000x4 (constant S_ .f32 0x00000000#32))
  have v101 : FVec F S2000000x1 .f32 := addf (Host.dotGeneral dot_S2000000x4_S4x1_S2000000x1_1_0_0_1_n_n none v97 a33) (broadcastInDim S2000000x1 ![0, 1] bcast_S1x1_S2000000x1_0_1 (broadcastInDim S1x1 ![1] bcast_S1_S1x1_1 a34))
  have v102 : FVec F S2000000x4 .f32 := concatenate S2000000x4 1 [⟨S2000000x1, v2⟩, ⟨S2000000x1, v5⟩, ⟨S2000000x2, v81⟩] concatenates_S2000000x1_S2000000x1_S2000000x2_S2000000x4_d1
  have v106 : FVec F S2000000x4 .f32 := addf (Host.dotGeneral dot_S2000000x4_S4x4_S2000000x4_1_0_0_1_n_n none v102 a35) (broadcastInDim S2000000x4 ![0, 1] bcast_S1x4_S2000000x4_0_1 (broadcastInDim S1x4 ![1] bcast_S4_S1x4_1 a36))
  have v107 : FVec F S2000000x4 .f32 := maximumf v106 (broadcastInDim S2000000x4 ![] bcast_S_S2000000x4 (constant S_ .f32 0x00000000#32))
  have v111 : FVec F S2000000x1 .f32 := addf (Host.dotGeneral dot_S2000000x4_S4x1_S2000000x1_1_0_0_1_n_n none v107 a37) (broadcastInDim S2000000x1 ![0, 1] bcast_S1x1_S2000000x1_0_1 (broadcastInDim S1x1 ![1] bcast_S1_S1x1_1 a38))
  have v112 : FVec F S2000000x3 .f32 := concatenate S2000000x3 1 [⟨S2000000x1, v91⟩, ⟨S2000000x1, v111⟩, ⟨S2000000x1, v101⟩] concatenates_S2000000x1_S2000000x1_S2000000x1_S2000000x3_d1
  v112

end Cert.ReferenceIdeal.RefTerm

end
-- ==== Proof.RefRun.lean ====
/- The reference program's run, read back: @main of the reference as the LIST of its 148 host operations in
   program order — the hundred operations @main states itself and, at each of its sixteen calls of the module-local
   rectifier functions, the callee's three operations (the constant zero, its broadcast, the maximum) over the
   call's own buffers — and the run of that list: every weakly fair execution terminates with each buffer at the
   operations' fold over the launch contents; no operation writes an argument, and the result buffer ends at the
   reference's composed pure term `RefTerm.refOut` of the arguments' contents. -/
import proofs.«160508_j9448928051825_1_alg».proof.Proof.Gen.ReferenceIdeal
import Idealize.ShloMosaic.Lib.StableHlo.Run
import proofs.«160508_j9448928051825_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 76 operations of @main's statements 1 … 60: the index table [0, 1, 5, 6, 7] (negative entries wrapped by the
    column count, none is) and the six single-column slices of the input (columns 2, 3, 4 and 8, 9, 10), the gather of
    the five observed columns, then the three upward two-layer perceptrons (widths 2, 4 and 6, each over two sliced
    columns and the previous one's output), the concatenation of the observed columns with the last one's output to
    eleven columns, and the first two layers (to 16 and 16 columns) of the middle perceptron. Each layer is a product
    with its weights, the bias broadcast along the rows and added, and the rectifier's three operations (the
    constant zero, its broadcast, the maximum). -/
abbrev ops0 : List (HloOp τ sig (Elt F)) :=
  [ StableHlo.nullary main_c (fun i => lit0 (S5.rowMajor i)),
    StableHlo.unary main_arg0 main_v0 ((extractStridedSlice S2000000x1 ![0, 2] · slices_S2000000x11_S2000000x1_0_2) : (⟨S2000000x11, .f32⟩ : BufTy).Contents (Elt F) → (⟨S2000000x1, .f32⟩ : BufTy).Contents (Elt F)),
    StableHlo.unary main_arg0 main_v1 ((extractStridedSlice S2000000x1 ![0, 3] · slices_S2000000x11_S2000000x1_0_3) : (⟨S2000000x11, .f32⟩ : BufTy).Contents (Elt F) → (⟨S2000000x1, .f32⟩ : BufTy).Contents (Elt F)),
    StableHlo.unary main_arg0 main_v2 ((extractStridedSlice S2000000x1 ![0, 4] · slices_S2000000x11_S2000000x1_0_4) : (⟨S2000000x11, .f32⟩ : BufTy).Contents (Elt F) → (⟨S2000000x1, .f32⟩ : BufTy).Contents (Elt F)),
    StableHlo.unary main_arg0 main_v3 ((extractStridedSlice S2000000x1 ![0, 8] · slices_S2000000x11_S2000000x1_0_8) : (⟨S2000000x11, .f32⟩ : BufTy).Contents (Elt F) → (⟨S2000000x1, .f32⟩ : BufTy).Contents (Elt F)),
    StableHlo.unary main_arg0 main_v4 ((extractStridedSlice S2000000x1 ![0, 9] · slices_S2000000x11_S2000000x1_0_9) : (⟨S2000000x11, .f32⟩ : BufTy).Contents (Elt F) → (⟨S2000000x1, .f32⟩ : BufTy).Contents (Elt F)),
    StableHlo.unary main_arg0 main_v5 ((extractStridedSlice S2000000x1 ![0, 10] · slices_S2000000x11_S2000000x1_0_10) : (⟨S2000000x11, .f32⟩ : BufTy).Contents (Elt F) → (⟨S2000000x1, .f32⟩ : BufTy).Contents (Elt F)),
    StableHlo.nullary main_c_0 (constantI S_ 32 0#32),
    StableHlo.unary main_c_0 main_v6 (broadcastInDim S5 ![] bcast_S_S5 : (⟨S_, .i32⟩ : BufTy).Contents (Elt F) → (⟨S5, .i32⟩ : BufTy).Contents (Elt F)),
    StableHlo.binary main_c main_v6 main_v7 (cmpi .slt : (⟨S5, .i32⟩ : BufTy).Contents (Elt F) → (⟨S5, .i32⟩ : BufTy).Contents (Elt F) → (⟨S5, .i1⟩ : BufTy).Contents (Elt F)),
    StableHlo.nullary main_c_1 (constantI S_ 32 11#32),
    StableHlo.unary main_c_1 main_v8 (broadcastInDim S5 ![] bcast_S_S5 : (⟨S_, .i32⟩ : BufTy).Contents (Elt F) → (⟨S5, .i32⟩ : BufTy).Contents (Elt F)),
    StableHlo.binary main_c main_v8 main_v9 (addi : (⟨S5, .i32⟩ : BufTy).Contents (Elt F) → (⟨S5, .i32⟩ : BufTy).Contents (Elt F) → (⟨S5, .i32⟩ : BufTy).Contents (Elt F)),
    StableHlo.ternary main_v7 main_v9 main_c main_v10 (select : (⟨S5, .i1⟩ : BufTy).Contents (Elt F) → (⟨S5, .i32⟩ : BufTy).Contents (Elt F) → (⟨S5, .i32⟩ : BufTy).Contents (Elt F) → (⟨S5, .i32⟩ : BufTy).Contents (Elt F)),
    StableHlo.unary main_v10 main_v11 (broadcastInDim S5x1 ![0] bcast_S5_S5x1_0 : (⟨S5, .i32⟩ : BufTy).Contents (Elt F) → (⟨S5x1, .i32⟩ : BufTy).Contents (Elt F)),
    StableHlo.binary main_arg0 main_v11 main_v12 ((fun x i => Host.gather gather_S2000000x11_S5x1_S2000000x5_0_1_n_n_1_1_20000001 x i) : (⟨S2000000x11, .f32⟩ : BufTy).Contents (Elt F) → (⟨S5x1, .i32⟩ : BufTy).Contents (Elt F) → (⟨S2000000x5, .f32⟩ : BufTy).Contents (Elt F)),
    StableHlo.binary main_v2 main_v5 main_v13 ((fun a b => concatenate S2000000x2 1 [⟨S2000000x1, a⟩, ⟨S2000000x1, b⟩] concatenates_S2000000x1_S2000000x1_S2000000x2_d1) : (⟨S2000000x1, .f32⟩ : BufTy).Contents (Elt F) → (⟨S2000000x1, .f32⟩ : BufTy).Contents (Elt F) → (⟨S2000000x2, .f32⟩ : BufTy).Contents (Elt F)),
    StableHlo.binary main_v13 main_arg1 main_v14 ((fun l r => Host.dotGeneral dot_S2000000x2_S2x2_S2000000x2_1_0_0_1_n_n none l r) : (⟨S2000000x2, .f32⟩ : BufTy).Contents (Elt F) → (⟨S2x2, .f32⟩ : BufTy).Contents (Elt F) → (⟨S2000000x2, .f32⟩ : BufTy).Contents (Elt F)),
    StableHlo.unary main_arg2 main_v15 (broadcastInDim S1x2 ![1] bcast_S2_S1x2_1 : (⟨S2, .f32⟩ : BufTy).Contents (Elt F) → (⟨S1x2, .f32⟩ : BufTy).Contents (Elt F)),
    StableHlo.unary main_v15 main_v16 (broadcastInDim S2000000x2 ![0, 1] bcast_S1x2_S2000000x2_0_1 : (⟨S1x2, .f32⟩ : BufTy).Contents (Elt F) → (⟨S2000000x2, .f32⟩ : BufTy).Contents (Elt F)),
    StableHlo.binary main_v14 main_v16 main_v17 (addf : (⟨S2000000x2, .f32⟩ : BufTy).Contents (Elt F) → (⟨S2000000x2, .f32⟩ : BufTy).Contents (Elt F) → (⟨S2000000x2, .f32⟩ : BufTy).Contents (Elt F)),
    StableHlo.TRef.nullary main_call0.cst (constant S_ .f32 0x00000000#32),
    StableHlo.TRef.unary main_call0.cst main_call0.v0 (broadcastInDim S2000000x2 ![] bcast_S_S2000000x2),
    StableHlo.TRef.binary (.of main_v17) main_call0.v0 main_call0.v1 maximumf,
    StableHlo.binary main_v18 main_arg3 main_v19 ((fun l r => Host.dotGeneral dot_S2000000x2_S2x2_S2000000x2_1_0_0_1_n_n none l r) : (⟨S2000000x2, .f32⟩ : BufTy).Contents (Elt F) → (⟨S2x2, .f32⟩ : BufTy).Contents (Elt F) → (⟨S2000000x2, .f32⟩ : BufTy).Contents (Elt F)),
    StableHlo.unary main_arg4 main_v20 (broadcastInDim S1x2 ![1] bcast_S2_S1x2_1 : (⟨S2, .f32⟩ : BufTy).Contents (Elt F) → (⟨S1x2, .f32⟩ : BufTy).Contents (Elt F)),
    StableHlo.unary main_v20 main_v21 (broadcastInDim S2000000x2 ![0, 1] bcast_S1x2_S2000000x2_0_1 : (⟨S1x2, .f32⟩ : BufTy).Contents (Elt F) → (⟨S2000000x2, .f32⟩ : BufTy).Contents (Elt F)),
    StableHlo.binary main_v19 main_v21 main_v22 (addf : (⟨S2000000x2, .f32⟩ : BufTy).Contents (Elt F) → (⟨S2000000x2, .f32⟩ : BufTy).Contents (Elt F) → (⟨S2000000x2, .f32⟩ : BufTy).Contents (Elt F)),
    StableHlo.TRef.nullary main_call1.cst (constant S_ .f32 0x00000000#32),
    StableHlo.TRef.unary main_call1.cst main_call1.v0 (broadcastInDim S2000000x2 ![] bcast_S_S2000000x2),
    StableHlo.TRef.binary (.of main_v22) main_call1.v0 main_call1.v1 maximumf,
    StableHlo.nary ![main_v1, main_v4, main_v23] main_v24 (fun u => concatenate S2000000x4 1 [⟨S2000000x1, u 0⟩, ⟨S2000000x1, u 1⟩, ⟨S2000000x2, u 2⟩] concatenates_S2000000x1_S2000000x1_S2000000x2_S2000000x4_d1),
    StableHlo.binary main_v24 main_arg5 main_v25 ((fun l r => Host.dotGeneral dot_S2000000x4_S4x4_S2000000x4_1_0_0_1_n_n none l r) : (⟨S2000000x4, .f32⟩ : BufTy).Contents (Elt F) → (⟨S4x4, .f32⟩ : BufTy).Contents (Elt F) → (⟨S2000000x4, .f32⟩ : BufTy).Contents (Elt F)),
    StableHlo.unary main_arg6 main_v26 (broadcastInDim S1x4 ![1] bcast_S4_S1x4_1 : (⟨S4, .f32⟩ : BufTy).Contents (Elt F) → (⟨S1x4, .f32⟩ : BufTy).Contents (Elt F)),
    StableHlo.unary main_v26 main_v27 (broadcastInDim S2000000x4 ![0, 1] bcast_S1x4_S2000000x4_0_1 : (⟨S1x4, .f32⟩ : BufTy).Contents (Elt F) → (⟨S2000000x4, .f32⟩ : BufTy).Contents (Elt F)),
    StableHlo.binary main_v25 main_v27 main_v28 (addf : (⟨S2000000x4, .f32⟩ : BufTy).Contents (Elt F) → (⟨S2000000x4, .f32⟩ : BufTy).Contents (Elt F) → (⟨S2000000x4, .f32⟩ : BufTy).Contents (Elt F)),
    StableHlo.TRef.nullary main_call2.cst (constant S_ .f32 0x00000000#32),
    StableHlo.TRef.unary main_call2.cst main_call2.v0 (broadcastInDim S2000000x4 ![] bcast_S_S2000000x4),
    StableHlo.TRef.binary (.of main_v28) main_call2.v0 main_call2.v1 maximumf,
    StableHlo.binary main_v29 main_arg7 main_v30 ((fun l r => Host.dotGeneral dot_S2000000x4_S4x4_S2000000x4_1_0_0_1_n_n none l r) : (⟨S2000000x4, .f32⟩ : BufTy).Contents (Elt F) → (⟨S4x4, .f32⟩ : BufTy).Contents (Elt F) → (⟨S2000000x4, .f32⟩ : BufTy).Contents (Elt F)),
    StableHlo.unary main_arg8 main_v31 (broadcastInDim S1x4 ![1] bcast_S4_S1x4_1 : (⟨S4, .f32⟩ : BufTy).Contents (Elt F) → (⟨S1x4, .f32⟩ : BufTy).Contents (Elt F)),
    StableHlo.unary main_v31 main_v32 (broadcastInDim S2000000x4 ![0, 1] bcast_S1x4_S2000000x4_0_1 : (⟨S1x4, .f32⟩ : BufTy).Contents (Elt F) → (⟨S2000000x4, .f32⟩ : BufTy).Contents (Elt F)),
    StableHlo.binary main_v30 main_v32 main_v33 (addf : (⟨S2000000x4, .f32⟩ : BufTy).Contents (Elt F) → (⟨S2000000x4, .f32⟩ : BufTy).Contents (Elt F) → (⟨S2000000x4, .f32⟩ : BufTy).Contents (Elt F)),
    StableHlo.TRef.nullary main_call3.cst (constant S_ .f32 0x00000000#32),
    StableHlo.TRef.unary main_call3.cst main_call3.v0 (broadcastInDim S2000000x4 ![] bcast_S_S2000000x4),
    StableHlo.TRef.binary (.of main_v33) main_call3.v0 main_call3.v1 maximumf,
    StableHlo.nary ![main_v0, main_v3, main_v34] main_v35 (fun u => concatenate S2000000x6 1 [⟨S2000000x1, u 0⟩, ⟨S2000000x1, u 1⟩, ⟨S2000000x4, u 2⟩] concatenates_S2000000x1_S2000000x1_S2000000x4_S2000000x6_d1),
    StableHlo.binary main_v35 main_arg9 main_v36 ((fun l r => Host.dotGeneral dot_S2000000x6_S6x6_S2000000x6_1_0_0_1_n_n none l r) : (⟨S2000000x6, .f32⟩ : BufTy).Contents (Elt F) → (⟨S6x6, .f32⟩ : BufTy).Contents (Elt F) → (⟨S2000000x6, .f32⟩ : BufTy).Contents (Elt F)),
    StableHlo.unary main_arg10 main_v37 (broadcastInDim S1x6 ![1] bcast_S6_S1x6_1 : (⟨S6, .f32⟩ : BufTy).Contents (Elt F) → (⟨S1x6, .f32⟩ : BufTy).Contents (Elt F)),
    StableHlo.unary main_v37 main_v38 (broadcastInDim S2000000x6 ![0, 1] bcast_S1x6_S2000000x6_0_1 : (⟨S1x6, .f32⟩ : BufTy).Contents (Elt F) → (⟨S2000000x6, .f32⟩ : BufTy).Contents (Elt F)),
    StableHlo.binary main_v36 main_v38 main_v39 (addf : (⟨S2000000x6, .f32⟩ : BufTy).Contents (Elt F) → (⟨S2000000x6, .f32⟩ : BufTy).Contents (Elt F) → (⟨S2000000x6, .f32⟩ : BufTy).Contents (Elt F)),
    StableHlo.TRef.nullary main_call4.cst (constant S_ .f32 0x00000000#32),
    StableHlo.TRef.unary main_call4.cst main_call4.v0 (broadcastInDim S2000000x6 ![] bcast_S_S2000000x6),
    StableHlo.TRef.binary (.of main_v39) main_call4.v0 main_call4.v1 maximumf,
    StableHlo.binary main_v40 main_arg11 main_v41 ((fun l r => Host.dotGeneral dot_S2000000x6_S6x6_S2000000x6_1_0_0_1_n_n none l r) : (⟨S2000000x6, .f32⟩ : BufTy).Contents (Elt F) → (⟨S6x6, .f32⟩ : BufTy).Contents (Elt F) → (⟨S2000000x6, .f32⟩ : BufTy).Contents (Elt F)),
    StableHlo.unary main_arg12 main_v42 (broadcastInDim S1x6 ![1] bcast_S6_S1x6_1 : (⟨S6, .f32⟩ : BufTy).Contents (Elt F) → (⟨S1x6, .f32⟩ : BufTy).Contents (Elt F)),
    StableHlo.unary main_v42 main_v43 (broadcastInDim S2000000x6 ![0, 1] bcast_S1x6_S2000000x6_0_1 : (⟨S1x6, .f32⟩ : BufTy).Contents (Elt F) → (⟨S2000000x6, .f32⟩ : BufTy).Contents (Elt F)),
    StableHlo.binary main_v41 main_v43 main_v44 (addf : (⟨S2000000x6, .f32⟩ : BufTy).Contents (Elt F) → (⟨S2000000x6, .f32⟩ : BufTy).Contents (Elt F) → (⟨S2000000x6, .f32⟩ : BufTy).Contents (Elt F)),
    StableHlo.TRef.nullary main_call5.cst (constant S_ .f32 0x00000000#32),
    StableHlo.TRef.unary main_call5.cst main_call5.v0 (broadcastInDim S2000000x6 ![] bcast_S_S2000000x6),
    StableHlo.TRef.binary (.of main_v44) main_call5.v0 main_call5.v1 maximumf,
    StableHlo.binary main_v12 main_v45 main_v46 ((fun a b => concatenate S2000000x11 1 [⟨S2000000x5, a⟩, ⟨S2000000x6, b⟩] concatenates_S2000000x5_S2000000x6_S2000000x11_d1) : (⟨S2000000x5, .f32⟩ : BufTy).Contents (Elt F) → (⟨S2000000x6, .f32⟩ : BufTy).Contents (Elt F) → (⟨S2000000x11, .f32⟩ : BufTy).Contents (Elt F)),
    StableHlo.binary main_v46 main_arg13 main_v47 ((fun l r => Host.dotGeneral dot_S2000000x11_S11x16_S2000000x16_1_0_0_1_n_n none l r) : (⟨S2000000x11, .f32⟩ : BufTy).Contents (Elt F) → (⟨S11x16, .f32⟩ : BufTy).Contents (Elt F) → (⟨S2000000x16, .f32⟩ : BufTy).Contents (Elt F)),
    StableHlo.unary main_arg14 main_v48 (broadcastInDim S1x16 ![1] bcast_S16_S1x16_1 : (⟨S16, .f32⟩ : BufTy).Contents (Elt F) → (⟨S1x16, .f32⟩ : BufTy).Contents (Elt F)),
    StableHlo.unary main_v48 main_v49 (broadcastInDim S2000000x16 ![0, 1] bcast_S1x16_S2000000x16_0_1 : (⟨S1x16, .f32⟩ : BufTy).Contents (Elt F) → (⟨S2000000x16, .f32⟩ : BufTy).Contents (Elt F)),
    StableHlo.binary main_v47 main_v49 main_v50 (addf : (⟨S2000000x16, .f32⟩ : BufTy).Contents (Elt F) → (⟨S2000000x16, .f32⟩ : BufTy).Contents (Elt F) → (⟨S2000000x16, .f32⟩ : BufTy).Contents (Elt F)),
    StableHlo.TRef.nullary main_call6.cst (constant S_ .f32 0x00000000#32),
    StableHlo.TRef.unary main_call6.cst main_call6.v0 (broadcastInDim S2000000x16 ![] bcast_S_S2000000x16),
    StableHlo.TRef.binary (.of main_v50) main_call6.v0 main_call6.v1 maximumf,
    StableHlo.binary main_v51 main_arg15 main_v52 ((fun l r => Host.dotGeneral dot_S2000000x16_S16x16_S2000000x16_1_0_0_1_n_n none l r) : (⟨S2000000x16, .f32⟩ : BufTy).Contents (Elt F) → (⟨S16x16, .f32⟩ : BufTy).Contents (Elt F) → (⟨S2000000x16, .f32⟩ : BufTy).Contents (Elt F)),
    StableHlo.unary main_arg16 main_v53 (broadcastInDim S1x16 ![1] bcast_S16_S1x16_1 : (⟨S16, .f32⟩ : BufTy).Contents (Elt F) → (⟨S1x16, .f32⟩ : BufTy).Contents (Elt F)),
    StableHlo.unary main_v53 main_v54 (broadcastInDim S2000000x16 ![0, 1] bcast_S1x16_S2000000x16_0_1 : (⟨S1x16, .f32⟩ : BufTy).Contents (Elt F) → (⟨S2000000x16, .f32⟩ : BufTy).Contents (Elt F)),
    StableHlo.binary main_v52 main_v54 main_v55 (addf : (⟨S2000000x16, .f32⟩ : BufTy).Contents (Elt F) → (⟨S2000000x16, .f32⟩ : BufTy).Contents (Elt F) → (⟨S2000000x16, .f32⟩ : BufTy).Contents (Elt F)),
    StableHlo.TRef.nullary main_call7.cst (constant S_ .f32 0x00000000#32),
    StableHlo.TRef.unary main_call7.cst main_call7.v0 (broadcastInDim S2000000x16 ![] bcast_S_S2000000x16),
    StableHlo.TRef.binary (.of main_v55) main_call7.v0 main_call7.v1 maximumf ]

/-- The 72 operations of @main's statements 61 … 116: the middle perceptron's third layer (to 6 columns), the two
    downward two-layer perceptrons (to 4 and to 2 columns), the three output heads — each over two sliced columns
    and one of those three outputs, a rectified layer to 4 columns and a linear layer to one — and the concatenation
    of the three output columns. -/
abbrev ops1 : List (HloOp τ sig (Elt F)) :=
  [ StableHlo.binary main_v56 main_arg17 main_v57 ((fun l r => Host.dotGeneral dot_S2000000x16_S16x6_S2000000x6_1_0_0_1_n_n none l r) : (⟨S2000000x16, .f32⟩ : BufTy).Contents (Elt F) → (⟨S16x6, .f32⟩ : BufTy).Contents (Elt F) → (⟨S2000000x6, .f32⟩ : BufTy).Contents (Elt F)),
    StableHlo.unary main_arg18 main_v58 (broadcastInDim S1x6 ![1] bcast_S6_S1x6_1 : (⟨S6, .f32⟩ : BufTy).Contents (Elt F) → (⟨S1x6, .f32⟩ : BufTy).Contents (Elt F)),
    StableHlo.unary main_v58 main_v59 (broadcastInDim S2000000x6 ![0, 1] bcast_S1x6_S2000000x6_0_1 : (⟨S1x6, .f32⟩ : BufTy).Contents (Elt F) → (⟨S2000000x6, .f32⟩ : BufTy).Contents (Elt F)),
    StableHlo.binary main_v57 main_v59 main_v60 (addf : (⟨S2000000x6, .f32⟩ : BufTy).Contents (Elt F) → (⟨S2000000x6, .f32⟩ : BufTy).Contents (Elt F) → (⟨S2000000x6, .f32⟩ : BufTy).Contents (Elt F)),
    StableHlo.TRef.nullary main_call8.cst (constant S_ .f32 0x00000000#32),
    StableHlo.TRef.unary main_call8.cst main_call8.v0 (broadcastInDim S2000000x6 ![] bcast_S_S2000000x6),
    StableHlo.TRef.binary (.of main_v60) main_call8.v0 main_call8.v1 maximumf,
    StableHlo.binary main_v61 main_arg19 main_v62 ((fun l r => Host.dotGeneral dot_S2000000x6_S6x4_S2000000x4_1_0_0_1_n_n none l r) : (⟨S2000000x6, .f32⟩ : BufTy).Contents (Elt F) → (⟨S6x4, .f32⟩ : BufTy).Contents (Elt F) → (⟨S2000000x4, .f32⟩ : BufTy).Contents (Elt F)),
    StableHlo.unary main_arg20 main_v63 (broadcastInDim S1x4 ![1] bcast_S4_S1x4_1 : (⟨S4, .f32⟩ : BufTy).Contents (Elt F) → (⟨S1x4, .f32⟩ : BufTy).Contents (Elt F)),
    StableHlo.unary main_v63 main_v64 (broadcastInDim S2000000x4 ![0, 1] bcast_S1x4_S2000000x4_0_1 : (⟨S1x4, .f32⟩ : BufTy).Contents (Elt F) → (⟨S2000000x4, .f32⟩ : BufTy).Contents (Elt F)),
    StableHlo.binary main_v62 main_v64 main_v65 (addf : (⟨S2000000x4, .f32⟩ : BufTy).Contents (Elt F) → (⟨S2000000x4, .f32⟩ : BufTy).Contents (Elt F) → (⟨S2000000x4, .f32⟩ : BufTy).Contents (Elt F)),
    StableHlo.TRef.nullary main_call9.cst (constant S_ .f32 0x00000000#32),
    StableHlo.TRef.unary main_call9.cst main_call9.v0 (broadcastInDim S2000000x4 ![] bcast_S_S2000000x4),
    StableHlo.TRef.binary (.of main_v65) main_call9.v0 main_call9.v1 maximumf,
    StableHlo.binary main_v66 main_arg21 main_v67 ((fun l r => Host.dotGeneral dot_S2000000x4_S4x4_S2000000x4_1_0_0_1_n_n none l r) : (⟨S2000000x4, .f32⟩ : BufTy).Contents (Elt F) → (⟨S4x4, .f32⟩ : BufTy).Contents (Elt F) → (⟨S2000000x4, .f32⟩ : BufTy).Contents (Elt F)),
    StableHlo.unary main_arg22 main_v68 (broadcastInDim S1x4 ![1] bcast_S4_S1x4_1 : (⟨S4, .f32⟩ : BufTy).Contents (Elt F) → (⟨S1x4, .f32⟩ : BufTy).Contents (Elt F)),
    StableHlo.unary main_v68 main_v69 (broadcastInDim S2000000x4 ![0, 1] bcast_S1x4_S2000000x4_0_1 : (⟨S1x4, .f32⟩ : BufTy).Contents (Elt F) → (⟨S2000000x4, .f32⟩ : BufTy).Contents (Elt F)),
    StableHlo.binary main_v67 main_v69 main_v70 (addf : (⟨S2000000x4, .f32⟩ : BufTy).Contents (Elt F) → (⟨S2000000x4, .f32⟩ : BufTy).Contents (Elt F) → (⟨S2000000x4, .f32⟩ : BufTy).Contents (Elt F)),
    StableHlo.TRef.nullary main_call10.cst (constant S_ .f32 0x00000000#32),
    StableHlo.TRef.unary main_call10.cst main_call10.v0 (broadcastInDim S2000000x4 ![] bcast_S_S2000000x4),
    StableHlo.TRef.binary (.of main_v70) main_call10.v0 main_call10.v1 maximumf,
    StableHlo.binary main_v71 main_arg23 main_v72 ((fun l r => Host.dotGeneral dot_S2000000x4_S4x2_S2000000x2_1_0_0_1_n_n none l r) : (⟨S2000000x4, .f32⟩ : BufTy).Contents (Elt F) → (⟨S4x2, .f32⟩ : BufTy).Contents (Elt F) → (⟨S2000000x2, .f32⟩ : BufTy).Contents (Elt F)),
    StableHlo.unary main_arg24 main_v73 (broadcastInDim S1x2 ![1] bcast_S2_S1x2_1 : (⟨S2, .f32⟩ : BufTy).Contents (Elt F) → (⟨S1x2, .f32⟩ : BufTy).Contents (Elt F)),
    StableHlo.unary main_v73 main_v74 (broadcastInDim S2000000x2 ![0, 1] bcast_S1x2_S2000000x2_0_1 : (⟨S1x2, .f32⟩ : BufTy).Contents (Elt F) → (⟨S2000000x2, .f32⟩ : BufTy).Contents (Elt F)),
    StableHlo.binary main_v72 main_v74 main_v75 (addf : (⟨S2000000x2, .f32⟩ : BufTy).Contents (Elt F) → (⟨S2000000x2, .f32⟩ : BufTy).Contents (Elt F) → (⟨S2000000x2, .f32⟩ : BufTy).Contents (Elt F)),
    StableHlo.TRef.nullary main_call11.cst (constant S_ .f32 0x00000000#32),
    StableHlo.TRef.unary main_call11.cst main_call11.v0 (broadcastInDim S2000000x2 ![] bcast_S_S2000000x2),
    StableHlo.TRef.binary (.of main_v75) main_call11.v0 main_call11.v1 maximumf,
    StableHlo.binary main_v76 main_arg25 main_v77 ((fun l r => Host.dotGeneral dot_S2000000x2_S2x2_S2000000x2_1_0_0_1_n_n none l r) : (⟨S2000000x2, .f32⟩ : BufTy).Contents (Elt F) → (⟨S2x2, .f32⟩ : BufTy).Contents (Elt F) → (⟨S2000000x2, .f32⟩ : BufTy).Contents (Elt F)),
    StableHlo.unary main_arg26 main_v78 (broadcastInDim S1x2 ![1] bcast_S2_S1x2_1 : (⟨S2, .f32⟩ : BufTy).Contents (Elt F) → (⟨S1x2, .f32⟩ : BufTy).Contents (Elt F)),
    StableHlo.unary main_v78 main_v79 (broadcastInDim S2000000x2 ![0, 1] bcast_S1x2_S2000000x2_0_1 : (⟨S1x2, .f32⟩ : BufTy).Contents (Elt F) → (⟨S2000000x2, .f32⟩ : BufTy).Contents (Elt F)),
    StableHlo.binary main_v77 main_v79 main_v80 (addf : (⟨S2000000x2, .f32⟩ : BufTy).Contents (Elt F) → (⟨S2000000x2, .f32⟩ : BufTy).Contents (Elt F) → (⟨S2000000x2, .f32⟩ : BufTy).Contents (Elt F)),
    StableHlo.TRef.nullary main_call12.cst (constant S_ .f32 0x00000000#32),
    StableHlo.TRef.unary main_call12.cst main_call12.v0 (broadcastInDim S2000000x2 ![] bcast_S_S2000000x2),
    StableHlo.TRef.binary (.of main_v80) main_call12.v0 main_call12.v1 maximumf,
    StableHlo.nary ![main_v0, main_v3, main_v61] main_v82 (fun u => concatenate S2000000x8 1 [⟨S2000000x1, u 0⟩, ⟨S2000000x1, u 1⟩, ⟨S2000000x6, u 2⟩] concatenates_S2000000x1_S2000000x1_S2000000x6_S2000000x8_d1),
    StableHlo.binary main_v82 main_arg27 main_v83 ((fun l r => Host.dotGeneral dot_S2000000x8_S8x4_S2000000x4_1_0_0_1_n_n none l r) : (⟨S2000000x8, .f32⟩ : BufTy).Contents (Elt F) → (⟨S8x4, .f32⟩ : BufTy).Contents (Elt F) → (⟨S2000000x4, .f32⟩ : BufTy).Contents (Elt F)),
    StableHlo.unary main_arg28 main_v84 (broadcastInDim S1x4 ![1] bcast_S4_S1x4_1 : (⟨S4, .f32⟩ : BufTy).Contents (Elt F) → (⟨S1x4, .f32⟩ : BufTy).Contents (Elt F)),
    StableHlo.unary main_v84 main_v85 (broadcastInDim S2000000x4 ![0, 1] bcast_S1x4_S2000000x4_0_1 : (⟨S1x4, .f32⟩ : BufTy).Contents (Elt F) → (⟨S2000000x4, .f32⟩ : BufTy).Contents (Elt F)),
    StableHlo.binary main_v83 main_v85 main_v86 (addf : (⟨S2000000x4, .f32⟩ : BufTy).Contents (Elt F) → (⟨S2000000x4, .f32⟩ : BufTy).Contents (Elt F) → (⟨S2000000x4, .f32⟩ : BufTy).Contents (Elt F)),
    StableHlo.TRef.nullary main_call13.cst (constant S_ .f32 0x00000000#32),
    StableHlo.TRef.unary main_call13.cst main_call13.v0 (broadcastInDim S2000000x4 ![] bcast_S_S2000000x4),
    StableHlo.TRef.binary (.of main_v86) main_call13.v0 main_call13.v1 maximumf,
    StableHlo.binary main_v87 main_arg29 main_v88 ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)),
    StableHlo.unary main_arg30 main_v89 (broadcastInDim S1x1 ![1] bcast_S1_S1x1_1 : (⟨S1, .f32⟩ : BufTy).Contents (Elt F) → (⟨S1x1, .f32⟩ : BufTy).Contents (Elt F)),
    StableHlo.unary main_v89 main_v90 (broadcastInDim S2000000x1 ![0, 1] bcast_S1x1_S2000000x1_0_1 : (⟨S1x1, .f32⟩ : BufTy).Contents (Elt F) → (⟨S2000000x1, .f32⟩ : BufTy).Contents (Elt F)),
    StableHlo.binary main_v88 main_v90 main_v91 (addf : (⟨S2000000x1, .f32⟩ : BufTy).Contents (Elt F) → (⟨S2000000x1, .f32⟩ : BufTy).Contents (Elt F) → (⟨S2000000x1, .f32⟩ : BufTy).Contents (Elt F)),
    StableHlo.nary ![main_v1, main_v4, main_v71] main_v92 (fun u => concatenate S2000000x6 1 [⟨S2000000x1, u 0⟩, ⟨S2000000x1, u 1⟩, ⟨S2000000x4, u 2⟩] concatenates_S2000000x1_S2000000x1_S2000000x4_S2000000x6_d1),
    StableHlo.binary main_v92 main_arg31 main_v93 ((fun l r => Host.dotGeneral dot_S2000000x6_S6x4_S2000000x4_1_0_0_1_n_n none l r) : (⟨S2000000x6, .f32⟩ : BufTy).Contents (Elt F) → (⟨S6x4, .f32⟩ : BufTy).Contents (Elt F) → (⟨S2000000x4, .f32⟩ : BufTy).Contents (Elt F)),
    StableHlo.unary main_arg32 main_v94 (broadcastInDim S1x4 ![1] bcast_S4_S1x4_1 : (⟨S4, .f32⟩ : BufTy).Contents (Elt F) → (⟨S1x4, .f32⟩ : BufTy).Contents (Elt F)),
    StableHlo.unary main_v94 main_v95 (broadcastInDim S2000000x4 ![0, 1] bcast_S1x4_S2000000x4_0_1 : (⟨S1x4, .f32⟩ : BufTy).Contents (Elt F) → (⟨S2000000x4, .f32⟩ : BufTy).Contents (Elt F)),
    StableHlo.binary main_v93 main_v95 main_v96 (addf : (⟨S2000000x4, .f32⟩ : BufTy).Contents (Elt F) → (⟨S2000000x4, .f32⟩ : BufTy).Contents (Elt F) → (⟨S2000000x4, .f32⟩ : BufTy).Contents (Elt F)),
    StableHlo.TRef.nullary main_call14.cst (constant S_ .f32 0x00000000#32),
    StableHlo.TRef.unary main_call14.cst main_call14.v0 (broadcastInDim S2000000x4 ![] bcast_S_S2000000x4),
    StableHlo.TRef.binary (.of main_v96) main_call14.v0 main_call14.v1 maximumf,
    StableHlo.binary main_v97 main_arg33 main_v98 ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)),
    StableHlo.unary main_arg34 main_v99 (broadcastInDim S1x1 ![1] bcast_S1_S1x1_1 : (⟨S1, .f32⟩ : BufTy).Contents (Elt F) → (⟨S1x1, .f32⟩ : BufTy).Contents (Elt F)),
    StableHlo.unary main_v99 main_v100 (broadcastInDim S2000000x1 ![0, 1] bcast_S1x1_S2000000x1_0_1 : (⟨S1x1, .f32⟩ : BufTy).Contents (Elt F) → (⟨S2000000x1, .f32⟩ : BufTy).Contents (Elt F)),
    StableHlo.binary main_v98 main_v100 main_v101 (addf : (⟨S2000000x1, .f32⟩ : BufTy).Contents (Elt F) → (⟨S2000000x1, .f32⟩ : BufTy).Contents (Elt F) → (⟨S2000000x1, .f32⟩ : BufTy).Contents (Elt F)),
    StableHlo.nary ![main_v2, main_v5, main_v81] main_v102 (fun u => concatenate S2000000x4 1 [⟨S2000000x1, u 0⟩, ⟨S2000000x1, u 1⟩, ⟨S2000000x2, u 2⟩] concatenates_S2000000x1_S2000000x1_S2000000x2_S2000000x4_d1),
    StableHlo.binary main_v102 main_arg35 main_v103 ((fun l r => Host.dotGeneral dot_S2000000x4_S4x4_S2000000x4_1_0_0_1_n_n none l r) : (⟨S2000000x4, .f32⟩ : BufTy).Contents (Elt F) → (⟨S4x4, .f32⟩ : BufTy).Contents (Elt F) → (⟨S2000000x4, .f32⟩ : BufTy).Contents (Elt F)),
    StableHlo.unary main_arg36 main_v104 (broadcastInDim S1x4 ![1] bcast_S4_S1x4_1 : (⟨S4, .f32⟩ : BufTy).Contents (Elt F) → (⟨S1x4, .f32⟩ : BufTy).Contents (Elt F)),
    StableHlo.unary main_v104 main_v105 (broadcastInDim S2000000x4 ![0, 1] bcast_S1x4_S2000000x4_0_1 : (⟨S1x4, .f32⟩ : BufTy).Contents (Elt F) → (⟨S2000000x4, .f32⟩ : BufTy).Contents (Elt F)),
    StableHlo.binary main_v103 main_v105 main_v106 (addf : (⟨S2000000x4, .f32⟩ : BufTy).Contents (Elt F) → (⟨S2000000x4, .f32⟩ : BufTy).Contents (Elt F) → (⟨S2000000x4, .f32⟩ : BufTy).Contents (Elt F)),
    StableHlo.TRef.nullary main_call15.cst (constant S_ .f32 0x00000000#32),
    StableHlo.TRef.unary main_call15.cst main_call15.v0 (broadcastInDim S2000000x4 ![] bcast_S_S2000000x4),
    StableHlo.TRef.binary (.of main_v106) main_call15.v0 main_call15.v1 maximumf,
    StableHlo.binary main_v107 main_arg37 main_v108 ((fun l r => Host.dotGeneral dot_S2000000x4_S4x1_S2000000x1_1_0_0_1_n_n none l r) : (⟨S2000000x4, .f32⟩ : BufTy).Contents (Elt F) → (⟨S4x1, .f32⟩ : BufTy).Contents (Elt F) → (⟨S2000000x1, .f32⟩ : BufTy).Contents (Elt F)),
    StableHlo.unary main_arg38 main_v109 (broadcastInDim S1x1 ![1] bcast_S1_S1x1_1 : (⟨S1, .f32⟩ : BufTy).Contents (Elt F) → (⟨S1x1, .f32⟩ : BufTy).Contents (Elt F)),
    StableHlo.unary main_v109 main_v110 (broadcastInDim S2000000x1 ![0, 1] bcast_S1x1_S2000000x1_0_1 : (⟨S1x1, .f32⟩ : BufTy).Contents (Elt F) → (⟨S2000000x1, .f32⟩ : BufTy).Contents (Elt F)),
    StableHlo.binary main_v108 main_v110 main_v111 (addf : (⟨S2000000x1, .f32⟩ : BufTy).Contents (Elt F) → (⟨S2000000x1, .f32⟩ : BufTy).Contents (Elt F) → (⟨S2000000x1, .f32⟩ : BufTy).Contents (Elt F)),
    StableHlo.nary ![main_v91, main_v111, main_v101] main_v112 (fun u => concatenate S2000000x3 1 [⟨S2000000x1, u 0⟩, ⟨S2000000x1, u 1⟩, ⟨S2000000x1, u 2⟩] concatenates_S2000000x1_S2000000x1_S2000000x1_S2000000x3_d1) ]

/-- @main's 148 operations, in order. -/
abbrev ops : List (HloOp τ sig (Elt F)) := ops0 ++ ops1

set_option maxRecDepth 4096 in
set_option maxHeartbeats 1600000 in
/-- The first window is that straight line: the rectifier functions' definitions unfolded at their calls and the
    records at their fields, both sides are one chain of `hlo` steps once sequencing is reassociated. -/
theorem main_part0_eq (c : Dev nD) : main_part0 (F := F) c = seq ops0 := by
  simp only [main_part0, fn_relu.body, fn_relu_0.body, fn_relu_1.body, fn_relu_2.body, seq, bind_assoc, pure_bind]

set_option maxRecDepth 4096 in
set_option maxHeartbeats 1600000 in
/-- The second window, likewise. -/
theorem main_part1_eq (c : Dev nD) : main_part1 (F := F) c = seq ops1 := by
  simp only [main_part1, fn_relu.body, fn_relu_0.body, fn_relu_1.body, fn_relu_2.body, seq, bind_assoc, pure_bind]

/-- @main runs its two windows in order: the concatenated line. -/
theorem main_eq (c : Dev nD) : main (F := F) c = seq ops := by
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- The contents after two lines run in order: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

theorem after_ops (V : Valuation τ sig (Elt F)) : after ops V = after ops1 (after ops0 V) := after_append ops0 ops1 V

theorem ops0_sub : (ops0 : List (HloOp τ sig (Elt F))).Forall fun op => op.bufs ⊆ tcRefs τ sig :=
  ⟨nullary_bufs_sub .., unary_bufs_sub .., unary_bufs_sub .., unary_bufs_sub .., unary_bufs_sub .., unary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub ..⟩

theorem ops1_sub : (ops1 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nary_bufs_sub ..⟩

/-- Every operation touches TensorCore references only. -/
theorem ops_sub : (ops : List (HloOp τ sig (Elt F))).Forall fun op => op.bufs ⊆ tcRefs τ sig :=
  List.forall_iff_forall_mem.2 fun op h => (List.mem_append.1 h).elim
    (List.forall_iff_forall_mem.1 ops0_sub op) (List.forall_iff_forall_mem.1 ops1_sub op)

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- Every operation determines what it writes (none allocates a buffer of arbitrary contents). -/
theorem ops_fresh : ∀ op ∈ (ops : List (HloOp τ sig (Elt F))), op.fresh = ∅ :=
  fun op h => (List.mem_append.1 h).elim
    (List.forall_iff_forall_mem.1 ops0_fresh op) (List.forall_iff_forall_mem.1 ops1_fresh op)

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## No operation writes an argument

Each operation writes one buffer, its result; the results are the references below, none of them an argument's. -/

/-- The references the line writes, in program order: one per operation, its result. -/
abbrev written : List (Ref sig .tc) :=
  [ main_c, main_v0, main_v1, main_v2, main_v3, main_v4, main_v5, main_c_0, main_v6, main_v7,
    main_c_1, main_v8, main_v9, main_v10, main_v11, main_v12, main_v13, main_v14, main_v15, main_v16,
    main_v17, main_call0_cst, main_call0_v0, main_v18, main_v19, main_v20, main_v21, main_v22, main_call1_cst, main_call1_v0,
    main_v23, main_v24, main_v25, main_v26, main_v27, main_v28, main_call2_cst, main_call2_v0, main_v29, main_v30,
    main_v31, main_v32, main_v33, main_call3_cst, main_call3_v0, main_v34, main_v35, main_v36, main_v37, main_v38,
    main_v39, main_call4_cst, main_call4_v0, main_v40, main_v41, main_v42, main_v43, main_v44, main_call5_cst, main_call5_v0,
    main_v45, main_v46, main_v47, main_v48, main_v49, main_v50, main_call6_cst, main_call6_v0, main_v51, main_v52,
    main_v53, main_v54, main_v55, main_call7_cst, main_call7_v0, main_v56, main_v57, main_v58, main_v59, main_v60,
    main_call8_cst, main_call8_v0, main_v61, main_v62, main_v63, main_v64, main_v65, main_call9_cst, main_call9_v0, main_v66,
    main_v67, main_v68, main_v69, main_v70, main_call10_cst, main_call10_v0, main_v71, main_v72, main_v73, main_v74,
    main_v75, main_call11_cst, main_call11_v0, main_v76, main_v77, main_v78, main_v79, main_v80, main_call12_cst, main_call12_v0,
    main_v81, main_v82, main_v83, main_v84, main_v85, main_v86, main_call13_cst, main_call13_v0, main_v87, main_v88,
    main_v89, main_v90, main_v91, main_v92, main_v93, main_v94, main_v95, main_v96, main_call14_cst, main_call14_v0,
    main_v97, main_v98, main_v99, main_v100, main_v101, main_v102, main_v103, main_v104, main_v105, main_v106,
    main_call15_cst, main_call15_v0, main_v107, main_v108, main_v109, main_v110, main_v111, main_v112 ]

/-- A result among `written` is, as a set of device buffers, within `written`'s. -/
theorem writes_sub_written (y : Ref sig .tc) (hy : y ∈ written) :
    ({Proc.devRef .tc y} : Finset (DevRef τ sig)) ⊆ (written.map (Proc.devRef (τ := τ) .tc)).toFinset :=
  Finset.singleton_subset_iff.mpr (List.mem_toFinset.mpr (List.mem_map_of_mem hy))

theorem ops0_writes : (ops0 : List (HloOp τ sig (Elt F))).Forall fun op =>
    op.writes ⊆ (written.map (Proc.devRef (τ := τ) .tc)).toFinset :=
  ⟨writes_sub_written main_c (by decide), writes_sub_written main_v0 (by decide), writes_sub_written main_v1 (by decide),
    writes_sub_written main_v2 (by decide), writes_sub_written main_v3 (by decide), writes_sub_written main_v4 (by decide),
    writes_sub_written main_v5 (by decide), writes_sub_written main_c_0 (by decide), writes_sub_written main_v6 (by decide),
    writes_sub_written main_v7 (by decide), writes_sub_written main_c_1 (by decide), writes_sub_written main_v8 (by decide),
    writes_sub_written main_v9 (by decide), writes_sub_written main_v10 (by decide), writes_sub_written main_v11 (by decide),
    writes_sub_written main_v12 (by decide), writes_sub_written main_v13 (by decide), writes_sub_written main_v14 (by decide),
    writes_sub_written main_v15 (by decide), writes_sub_written main_v16 (by decide), writes_sub_written main_v17 (by decide),
    writes_sub_written main_call0_cst (by decide), writes_sub_written main_call0_v0 (by decide), writes_sub_written main_v18 (by decide),
    writes_sub_written main_v19 (by decide), writes_sub_written main_v20 (by decide), writes_sub_written main_v21 (by decide),
    writes_sub_written main_v22 (by decide), writes_sub_written main_call1_cst (by decide), writes_sub_written main_call1_v0 (by decide),
    writes_sub_written main_v23 (by decide), writes_sub_written main_v24 (by decide), writes_sub_written main_v25 (by decide),
    writes_sub_written main_v26 (by decide), writes_sub_written main_v27 (by decide), writes_sub_written main_v28 (by decide),
    writes_sub_written main_call2_cst (by decide), writes_sub_written main_call2_v0 (by decide), writes_sub_written main_v29 (by decide),
    writes_sub_written main_v30 (by decide), writes_sub_written main_v31 (by decide), writes_sub_written main_v32 (by decide),
    writes_sub_written main_v33 (by decide), writes_sub_written main_call3_cst (by decide), writes_sub_written main_call3_v0 (by decide),
    writes_sub_written main_v34 (by decide), writes_sub_written main_v35 (by decide), writes_sub_written main_v36 (by decide),
    writes_sub_written main_v37 (by decide), writes_sub_written main_v38 (by decide), writes_sub_written main_v39 (by decide),
    writes_sub_written main_call4_cst (by decide), writes_sub_written main_call4_v0 (by decide), writes_sub_written main_v40 (by decide),
    writes_sub_written main_v41 (by decide), writes_sub_written main_v42 (by decide), writes_sub_written main_v43 (by decide),
    writes_sub_written main_v44 (by decide), writes_sub_written main_call5_cst (by decide), writes_sub_written main_call5_v0 (by decide),
    writes_sub_written main_v45 (by decide), writes_sub_written main_v46 (by decide), writes_sub_written main_v47 (by decide),
    writes_sub_written main_v48 (by decide), writes_sub_written main_v49 (by decide), writes_sub_written main_v50 (by decide),
    writes_sub_written main_call6_cst (by decide), writes_sub_written main_call6_v0 (by decide), writes_sub_written main_v51 (by decide),
    writes_sub_written main_v52 (by decide), writes_sub_written main_v53 (by decide), writes_sub_written main_v54 (by decide),
    writes_sub_written main_v55 (by decide), writes_sub_written main_call7_cst (by decide), writes_sub_written main_call7_v0 (by decide),
    writes_sub_written main_v56 (by decide)⟩

theorem ops1_writes : (ops1 : List (HloOp τ sig (Elt F))).Forall fun op =>
    op.writes ⊆ (written.map (Proc.devRef (τ := τ) .tc)).toFinset :=
  ⟨writes_sub_written main_v57 (by decide), writes_sub_written main_v58 (by decide), writes_sub_written main_v59 (by decide),
    writes_sub_written main_v60 (by decide), writes_sub_written main_call8_cst (by decide), writes_sub_written main_call8_v0 (by decide),
    writes_sub_written main_v61 (by decide), writes_sub_written main_v62 (by decide), writes_sub_written main_v63 (by decide),
    writes_sub_written main_v64 (by decide), writes_sub_written main_v65 (by decide), writes_sub_written main_call9_cst (by decide),
    writes_sub_written main_call9_v0 (by decide), writes_sub_written main_v66 (by decide), writes_sub_written main_v67 (by decide),
    writes_sub_written main_v68 (by decide), writes_sub_written main_v69 (by decide), writes_sub_written main_v70 (by decide),
    writes_sub_written main_call10_cst (by decide), writes_sub_written main_call10_v0 (by decide), writes_sub_written main_v71 (by decide),
    writes_sub_written main_v72 (by decide), writes_sub_written main_v73 (by decide), writes_sub_written main_v74 (by decide),
    writes_sub_written main_v75 (by decide), writes_sub_written main_call11_cst (by decide), writes_sub_written main_call11_v0 (by decide),
    writes_sub_written main_v76 (by decide), writes_sub_written main_v77 (by decide), writes_sub_written main_v78 (by decide),
    writes_sub_written main_v79 (by decide), writes_sub_written main_v80 (by decide), writes_sub_written main_call12_cst (by decide),
    writes_sub_written main_call12_v0 (by decide), writes_sub_written main_v81 (by decide), writes_sub_written main_v82 (by decide),
    writes_sub_written main_v83 (by decide), writes_sub_written main_v84 (by decide), writes_sub_written main_v85 (by decide),
    writes_sub_written main_v86 (by decide), writes_sub_written main_call13_cst (by decide), writes_sub_written main_call13_v0 (by decide),
    writes_sub_written main_v87 (by decide), writes_sub_written main_v88 (by decide), writes_sub_written main_v89 (by decide),
    writes_sub_written main_v90 (by decide), writes_sub_written main_v91 (by decide), writes_sub_written main_v92 (by decide),
    writes_sub_written main_v93 (by decide), writes_sub_written main_v94 (by decide), writes_sub_written main_v95 (by decide),
    writes_sub_written main_v96 (by decide), writes_sub_written main_call14_cst (by decide), writes_sub_written main_call14_v0 (by decide),
    writes_sub_written main_v97 (by decide), writes_sub_written main_v98 (by decide), writes_sub_written main_v99 (by decide),
    writes_sub_written main_v100 (by decide), writes_sub_written main_v101 (by decide), writes_sub_written main_v102 (by decide),
    writes_sub_written main_v103 (by decide), writes_sub_written main_v104 (by decide), writes_sub_written main_v105 (by decide),
    writes_sub_written main_v106 (by decide), writes_sub_written main_call15_cst (by decide), writes_sub_written main_call15_v0 (by decide),
    writes_sub_written main_v107 (by decide), writes_sub_written main_v108 (by decide), writes_sub_written main_v109 (by decide),
    writes_sub_written main_v110 (by decide), writes_sub_written main_v111 (by decide), writes_sub_written main_v112 (by decide)⟩

theorem ops_writes : (ops : List (HloOp τ sig (Elt F))).Forall fun op =>
    op.writes ⊆ (written.map (Proc.devRef (τ := τ) .tc)).toFinset :=
  List.forall_iff_forall_mem.2 fun op h => (List.mem_append.1 h).elim
    (List.forall_iff_forall_mem.1 ops0_writes op) (List.forall_iff_forall_mem.1 ops1_writes op)

/-- A reference the line does not write keeps its contents through the run. -/
theorem after_ops_of_not_written (V : Valuation τ sig (Elt F)) {r : Ref sig .tc} (hr : r ∉ written) :
    after ops V (r : DevRef τ sig) = V (r : DevRef τ sig) :=
  after_of_writes_sub ops V ops_writes hr

theorem arg0_eq (V : Valuation τ sig (Elt F)) :
    after ops V (main_arg0 : DevRef τ sig) = V (main_arg0 : DevRef τ sig) := after_ops_of_not_written V (by decide)
theorem arg1_eq (V : Valuation τ sig (Elt F)) :
    after ops V (main_arg1 : DevRef τ sig) = V (main_arg1 : DevRef τ sig) := after_ops_of_not_written V (by decide)
theorem arg2_eq (V : Valuation τ sig (Elt F)) :
    after ops V (main_arg2 : DevRef τ sig) = V (main_arg2 : DevRef τ sig) := after_ops_of_not_written V (by decide)
theorem arg3_eq (V : Valuation τ sig (Elt F)) :
    after ops V (main_arg3 : DevRef τ sig) = V (main_arg3 : DevRef τ sig) := after_ops_of_not_written V (by decide)
theorem arg4_eq (V : Valuation τ sig (Elt F)) :
    after ops V (main_arg4 : DevRef τ sig) = V (main_arg4 : DevRef τ sig) := after_ops_of_not_written V (by decide)
theorem arg5_eq (V : Valuation τ sig (Elt F)) :
    after ops V (main_arg5 : DevRef τ sig) = V (main_arg5 : DevRef τ sig) := after_ops_of_not_written V (by decide)
theorem arg6_eq (V : Valuation τ sig (Elt F)) :
    after ops V (main_arg6 : DevRef τ sig) = V (main_arg6 : DevRef τ sig) := after_ops_of_not_written V (by decide)
theorem arg7_eq (V : Valuation τ sig (Elt F)) :
    after ops V (main_arg7 : DevRef τ sig) = V (main_arg7 : DevRef τ sig) := after_ops_of_not_written V (by decide)
theorem arg8_eq (V : Valuation τ sig (Elt F)) :
    after ops V (main_arg8 : DevRef τ sig) = V (main_arg8 : DevRef τ sig) := after_ops_of_not_written V (by decide)
theorem arg9_eq (V : Valuation τ sig (Elt F)) :
    after ops V (main_arg9 : DevRef τ sig) = V (main_arg9 : DevRef τ sig) := after_ops_of_not_written V (by decide)
theorem arg10_eq (V : Valuation τ sig (Elt F)) :
    after ops V (main_arg10 : DevRef τ sig) = V (main_arg10 : DevRef τ sig) := after_ops_of_not_written V (by decide)
theorem arg11_eq (V : Valuation τ sig (Elt F)) :
    after ops V (main_arg11 : DevRef τ sig) = V (main_arg11 : DevRef τ sig) := after_ops_of_not_written V (by decide)
theorem arg12_eq (V : Valuation τ sig (Elt F)) :
    after ops V (main_arg12 : DevRef τ sig) = V (main_arg12 : DevRef τ sig) := after_ops_of_not_written V (by decide)
theorem arg13_eq (V : Valuation τ sig (Elt F)) :
    after ops V (main_arg13 : DevRef τ sig) = V (main_arg13 : DevRef τ sig) := after_ops_of_not_written V (by decide)
theorem arg14_eq (V : Valuation τ sig (Elt F)) :
    after ops V (main_arg14 : DevRef τ sig) = V (main_arg14 : DevRef τ sig) := after_ops_of_not_written V (by decide)
theorem arg15_eq (V : Valuation τ sig (Elt F)) :
    after ops V (main_arg15 : DevRef τ sig) = V (main_arg15 : DevRef τ sig) := after_ops_of_not_written V (by decide)
theorem arg16_eq (V : Valuation τ sig (Elt F)) :
    after ops V (main_arg16 : DevRef τ sig) = V (main_arg16 : DevRef τ sig) := after_ops_of_not_written V (by decide)
theorem arg17_eq (V : Valuation τ sig (Elt F)) :
    after ops V (main_arg17 : DevRef τ sig) = V (main_arg17 : DevRef τ sig) := after_ops_of_not_written V (by decide)
theorem arg18_eq (V : Valuation τ sig (Elt F)) :
    after ops V (main_arg18 : DevRef τ sig) = V (main_arg18 : DevRef τ sig) := after_ops_of_not_written V (by decide)
theorem arg19_eq (V : Valuation τ sig (Elt F)) :
    after ops V (main_arg19 : DevRef τ sig) = V (main_arg19 : DevRef τ sig) := after_ops_of_not_written V (by decide)
theorem arg20_eq (V : Valuation τ sig (Elt F)) :
    after ops V (main_arg20 : DevRef τ sig) = V (main_arg20 : DevRef τ sig) := after_ops_of_not_written V (by decide)
theorem arg21_eq (V : Valuation τ sig (Elt F)) :
    after ops V (main_arg21 : DevRef τ sig) = V (main_arg21 : DevRef τ sig) := after_ops_of_not_written V (by decide)
theorem arg22_eq (V : Valuation τ sig (Elt F)) :
    after ops V (main_arg22 : DevRef τ sig) = V (main_arg22 : DevRef τ sig) := after_ops_of_not_written V (by decide)
theorem arg23_eq (V : Valuation τ sig (Elt F)) :
    after ops V (main_arg23 : DevRef τ sig) = V (main_arg23 : DevRef τ sig) := after_ops_of_not_written V (by decide)
theorem arg24_eq (V : Valuation τ sig (Elt F)) :
    after ops V (main_arg24 : DevRef τ sig) = V (main_arg24 : DevRef τ sig) := after_ops_of_not_written V (by decide)
theorem arg25_eq (V : Valuation τ sig (Elt F)) :
    after ops V (main_arg25 : DevRef τ sig) = V (main_arg25 : DevRef τ sig) := after_ops_of_not_written V (by decide)
theorem arg26_eq (V : Valuation τ sig (Elt F)) :
    after ops V (main_arg26 : DevRef τ sig) = V (main_arg26 : DevRef τ sig) := after_ops_of_not_written V (by decide)
theorem arg27_eq (V : Valuation τ sig (Elt F)) :
    after ops V (main_arg27 : DevRef τ sig) = V (main_arg27 : DevRef τ sig) := after_ops_of_not_written V (by decide)
theorem arg28_eq (V : Valuation τ sig (Elt F)) :
    after ops V (main_arg28 : DevRef τ sig) = V (main_arg28 : DevRef τ sig) := after_ops_of_not_written V (by decide)
theorem arg29_eq (V : Valuation τ sig (Elt F)) :
    after ops V (main_arg29 : DevRef τ sig) = V (main_arg29 : DevRef τ sig) := after_ops_of_not_written V (by decide)
theorem arg30_eq (V : Valuation τ sig (Elt F)) :
    after ops V (main_arg30 : DevRef τ sig) = V (main_arg30 : DevRef τ sig) := after_ops_of_not_written V (by decide)
theorem arg31_eq (V : Valuation τ sig (Elt F)) :
    after ops V (main_arg31 : DevRef τ sig) = V (main_arg31 : DevRef τ sig) := after_ops_of_not_written V (by decide)
theorem arg32_eq (V : Valuation τ sig (Elt F)) :
    after ops V (main_arg32 : DevRef τ sig) = V (main_arg32 : DevRef τ sig) := after_ops_of_not_written V (by decide)
theorem arg33_eq (V : Valuation τ sig (Elt F)) :
    after ops V (main_arg33 : DevRef τ sig) = V (main_arg33 : DevRef τ sig) := after_ops_of_not_written V (by decide)
theorem arg34_eq (V : Valuation τ sig (Elt F)) :
    after ops V (main_arg34 : DevRef τ sig) = V (main_arg34 : DevRef τ sig) := after_ops_of_not_written V (by decide)
theorem arg35_eq (V : Valuation τ sig (Elt F)) :
    after ops V (main_arg35 : DevRef τ sig) = V (main_arg35 : DevRef τ sig) := after_ops_of_not_written V (by decide)
theorem arg36_eq (V : Valuation τ sig (Elt F)) :
    after ops V (main_arg36 : DevRef τ sig) = V (main_arg36 : DevRef τ sig) := after_ops_of_not_written V (by decide)
theorem arg37_eq (V : Valuation τ sig (Elt F)) :
    after ops V (main_arg37 : DevRef τ sig) = V (main_arg37 : DevRef τ sig) := after_ops_of_not_written V (by decide)
theorem arg38_eq (V : Valuation τ sig (Elt F)) :
    after ops V (main_arg38 : DevRef τ sig) = V (main_arg38 : DevRef τ sig) := after_ops_of_not_written V (by decide)

/-- A two-operand function applied, kept folded while its operands are rewritten. -/
def ap2 {α β γ : Type} (f : α → β → γ) (a : α) (b : β) : γ := f a b
/-- A three-operand function applied, kept folded while its operands are rewritten. -/
def ap3 {α β γ δ : Type} (f : α → β → γ → δ) (a : α) (b : β) (c : γ) : δ := f a b c

/-! ## The result buffer's contents: the composed term -/

section ApResults
variable {x a b y : Ref sig .tc}

/-- `binary_result` with the function's application kept folded: the operands' contents stay in argument position
    (a concatenation of two would otherwise take them inside its list of pieces) until they too are rewritten. -/
theorem binary_result_ap (f : a.ty.Contents (Elt F) → b.ty.Contents (Elt F) → y.ty.Contents (Elt F)) (ha hb hy)
    (G : Valuation τ sig (Elt F)) :
    (binary (τ := τ) a b y f ha hb hy).result G (no_index (Proc.devRef .tc y))
      = ap2 f (G (Proc.devRef .tc a)) (G (Proc.devRef .tc b)) := binary_result a b y f ha hb hy G

/-- `nary` over a literal family of three references (a concatenation of three operands): the result with each
    operand's contents at its own reference, the application kept folded likewise. -/
theorem nary3_result_ap
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = ap3 (fun (A : x.ty.Contents (Elt F)) (B : a.ty.Contents (Elt F)) (C : b.ty.Contents (Elt F)) =>
          f (Fin.cons A (Fin.cons B (Fin.cons C (fun i => i.elim0)))))
          (G (Proc.devRef .tc x)) (G (Proc.devRef .tc a)) (G (Proc.devRef .tc b)) := by
  unfold ap3
  rw [nary_result]; congr 1; funext k; fin_cases k <;> rfl

end ApResults

attribute [local irreducible] Host.gather concatenate extractStridedSlice broadcastInDim in
set_option maxRecDepth 8192 in
set_option maxHeartbeats 8000000 in
/-- The fold at the result buffer is `refOut` of the arguments' contents. The fold is unrolled (`after_cons`, the two
    windows one after the other); in one pass, outermost first, each operation's result at its own buffer is rewritten
    to its function of its operands' contents and at any other buffer to what was there (the references told apart by
    computation), a two- or three-operand function's application kept folded until its operands are rewritten too;
    the applications are then unfolded. What is left is the operations' composed term over the arguments' contents —
    `refOut`'s body, operation by operation — up to the typed references' casts, the identity at these literal
    references, and the three-piece families read at `0`, `1`, `2`: by computation, the gather, the slices, the
    broadcasts and the concatenations kept folded meanwhile (their bodies range over the two million rows; the equation
    never looks inside them). -/
theorem out_eq (V : Valuation τ sig (Elt F)) :
    after ops V (main_v112 : DevRef τ sig)
      = RefTerm.refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig))
          (V (main_arg16 : DevRef τ sig)) (V (main_arg17 : DevRef τ sig)) (V (main_arg18 : DevRef τ sig)) (V (main_arg19 : DevRef τ sig))
          (V (main_arg20 : DevRef τ sig)) (V (main_arg21 : DevRef τ sig)) (V (main_arg22 : DevRef τ sig)) (V (main_arg23 : DevRef τ sig))
          (V (main_arg24 : DevRef τ sig)) (V (main_arg25 : DevRef τ sig)) (V (main_arg26 : DevRef τ sig)) (V (main_arg27 : DevRef τ sig))
          (V (main_arg28 : DevRef τ sig)) (V (main_arg29 : DevRef τ sig)) (V (main_arg30 : DevRef τ sig)) (V (main_arg31 : DevRef τ sig))
          (V (main_arg32 : DevRef τ sig)) (V (main_arg33 : DevRef τ sig)) (V (main_arg34 : DevRef τ sig)) (V (main_arg35 : DevRef τ sig))
          (V (main_arg36 : DevRef τ sig)) (V (main_arg37 : DevRef τ sig)) (V (main_arg38 : DevRef τ sig)) := by
  rw [after_ops]
  simp (disch := decide) only [after_cons, after_nil,
      nullary_result', unary_result', binary_result_ap, ternary_result', nary3_result_ap,
      nullary_result_ne', unary_result_ne', binary_result_ne', ternary_result_ne', nary_result_ne']
  simp only [ap2, ap3]
  unfold RefTerm.refOut RefTerm.colIdx
  rfl

end Cert.ReferenceIdeal.RefRun

end
-- ==== Proof.LibRowsGather.lean ====
/-
  A gather of whole COLUMNS, row by row.

  `stablehlo.gather` with operand `[N, C]`, a column `[E, 1]` of start indices, offset axis 0 (the rows, taken whole),
  the operand's column axis collapsed and named by the start index: result entry `(r, e)` is the operand's entry in
  row `r` and the column that index word `e` names — read signed and clamped into `[0, C - 1]`. Row by row that is
  `pick`: the row's entries at the positions of a table (Proof/LibRows.lean).
-/
import proofs.«160508_j9448928051825_1_alg».proof.Proof.LibRows

noncomputable section

namespace Cert.Lib.Rows

open Idealize.ShloMosaic Idealize.ShloMosaic.ValueIdx

variable {α : Type}

/-- An axis of a rank-two shape is axis 0 or axis 1. -/
theorem fin2_cases (a : Fin 2) : a = 0 ∨ a = 1 := by
  rcases a with ⟨v, hv⟩
  interval_cases v
  · exact Or.inl rfl
  · exact Or.inr rfl

/-- The dimension numbers of a gather of whole columns. -/
abbrev colsDims (N C E : Nat)
    (wf : GatherDims.WF ⟨2, ![N, C]⟩ ⟨2, ![E, 1]⟩ ⟨2, ![N, E]⟩ [0] [1] [] [1] [] 1 ![N, 1]) :
    GatherDims ⟨2, ![N, C]⟩ ⟨2, ![E, 1]⟩ ⟨2, ![N, E]⟩ where
  offsetDims := [0]
  collapsedSliceDims := [1]
  operandBatchingDims := []
  startIndicesBatchingDims := []
  startIndexMap := [1]
  indexVectorDim := 1
  sliceSizes := ![N, 1]
  wf := wf

/-- Result entry `(r, e)` of a gather of columns is the operand at row `r` and the column `idx[e, 0]` names (read
    signed, clamped into `[0, C - 1]`). -/
theorem gather_cols_apply {N C E w : Nat} (hC : 0 < C)
    (wf : GatherDims.WF ⟨2, ![N, C]⟩ ⟨2, ![E, 1]⟩ ⟨2, ![N, E]⟩ [0] [1] [] [1] [] 1 ![N, 1])
    (x : (⟨2, ![N, C]⟩ : Shape).Idx → α) (idx : IVec ⟨2, ![E, 1]⟩ w) (r : Fin N) (e : Fin E) :
    Host.gather (colsDims N C E wf) x idx (ix2 r e)
      = x (ix2 r ⟨min (idx (ix2 e (0 : Fin 1))).toInt.toNat (C - 1), by omega⟩) := by
  unfold Host.gather
  congr 1
  funext a
  refine Fin.ext ?_
  show (colsDims N C E wf).start (ix2 r e) idx a + (colsDims N C E wf).batchCoord (ix2 r e) a
    + (colsDims N C E wf).offCoord (ix2 r e) a = _
  rw [GatherDims.batchCoord_eq_zero _ _ _ List.not_mem_nil]
  rcases fin2_cases a with rfl | rfl
  · have hs : (colsDims N C E wf).start (ix2 r e) idx (0 : Fin 2) = 0 := by
      unfold GatherDims.start
      rw [dif_neg (show (0 : Fin 2) ∉ ([1] : List (Fin 2)) by decide)]
    have ho : (colsDims N C E wf).offCoord (ix2 r e) (0 : Fin 2) = r.val := by
      unfold GatherDims.offCoord
      rw [dif_pos ((GatherDims.mem_sKept _ _).mpr
        ⟨(show (0 : Fin 2) ∉ ([1] : List (Fin 2)) by decide), List.not_mem_nil⟩)]
      rfl
    rw [hs, ho]
    show 0 + 0 + r.val = r.val
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 r e) ⟨List.idxOf (1 : Fin 2) (colsDims N C E wf).startIndexMap,
        List.idxOf_lt_length_iff.2 (List.mem_singleton.mpr rfl)⟩ = ix2 e (0 : Fin 1) := by
      funext b; refine Fin.ext ?_
      rcases fin2_cases b with rfl | rfl
      · rfl
      · rfl
    rw [hsi]
    rfl

/-- With every index word a column number, the gather is, row by row, the row's entries at the table's positions. -/
theorem gather_cols_eq_lift {N C E w : Nat}
    (wf : GatherDims.WF ⟨2, ![N, C]⟩ ⟨2, ![E, 1]⟩ ⟨2, ![N, E]⟩ [0] [1] [] [1] [] 1 ![N, 1])
    (x : (⟨2, ![N, C]⟩ : Shape).Idx → EReal) (idx : IVec ⟨2, ![E, 1]⟩ w) (tbl : Fin E → Fin C)
    (h0 : ∀ e, 0 ≤ (idx (ix2 e (0 : Fin 1))).toInt) (htbl : ∀ e, (idx (ix2 e (0 : Fin 1))).toInt = ((tbl e).val : Int)) :
    Host.gather (colsDims N C E wf) x idx = lift1 (pick tbl) x := by
  refine ext_ix2 fun r e => ?_
  have hC : 0 < C := Nat.lt_of_le_of_lt (Nat.zero_le _) (tbl e).isLt
  rw [gather_cols_apply hC wf x idx r e]
  show _ = x (ix2 r (tbl e))
  congr 2
  refine Fin.ext ?_
  show min (idx (ix2 e (0 : Fin 1))).toInt.toNat (C - 1) = (tbl e).val
  have := (tbl e).isLt
  have h1 := htbl e
  have h2 := h0 e
  omega

end Cert.Lib.Rows

end
-- ==== Proof.NetLift.lean ====
/-
  The perceptron tree on ARRAYS: each message of the tree (Proof/Net.lean), lifted to every row of an array `x` with
  any number of rows, is the lifted layers applied one after the other — stated for each message over the messages
  it reads, so that a long composition of lifted operations folds up message by message.
-/
import proofs.«160508_j9448928051825_1_alg».proof.Proof.Net

noncomputable section

namespace Cert.Net

open Idealize.ShloMosaic Idealize.ShloMosaic.ValueIdx Cert.Lib.Rows

variable {N : Nat} (P : Params) (x : (⟨2, ![N, 11]⟩ : Shape).Idx → EReal)

theorem mobs_lift : lift2 cat2 (lift1 (cols 0 : (Fin 11 → EReal) → Fin 2 → EReal) x) (lift1 (cols 5 : (Fin 11 → EReal) → Fin 3 → EReal) x)
    = lift1 mobs x := by
  refine ext_rows fun r => ?_
  simp only [rowOf_lift1, rowOf_lift2, rowOf_lift3]
  rfl

theorem fup_lift : (lift1 relu (lift1 (addb P.a4) (lift1 (mm P.a3) (lift1 relu (lift1 (addb P.a2) (lift1 (mm P.a1) (lift2 cat2 (lift1 (cols 4 : (Fin 11 → EReal) → Fin 1 → EReal) x) (lift1 (cols 10 : (Fin 11 → EReal) → Fin 1 → EReal) x)))))))) = lift1 (fup P) x := by
  refine ext_rows fun r => ?_
  simp only [rowOf_lift1, rowOf_lift2, rowOf_lift3]
  rfl

theorem kup_lift : (lift1 relu (lift1 (addb P.a8) (lift1 (mm P.a7) (lift1 relu (lift1 (addb P.a6) (lift1 (mm P.a5) (lift3 cat3 (lift1 (cols 3 : (Fin 11 → EReal) → Fin 1 → EReal) x) (lift1 (cols 9 : (Fin 11 → EReal) → Fin 1 → EReal) x) (lift1 (fup P) x)))))))) = lift1 (kup P) x := by
  refine ext_rows fun r => ?_
  simp only [rowOf_lift1, rowOf_lift2, rowOf_lift3]
  rfl

theorem hup_lift : (lift1 relu (lift1 (addb P.a12) (lift1 (mm P.a11) (lift1 relu (lift1 (addb P.a10) (lift1 (mm P.a9) (lift3 cat3 (lift1 (cols 2 : (Fin 11 → EReal) → Fin 1 → EReal) x) (lift1 (cols 8 : (Fin 11 → EReal) → Fin 1 → EReal) x) (lift1 (kup P) x)))))))) = lift1 (hup P) x := by
  refine ext_rows fun r => ?_
  simp only [rowOf_lift1, rowOf_lift2, rowOf_lift3]
  rfl

theorem mdown_lift : (lift1 relu (lift1 (addb P.a18) (lift1 (mm P.a17) (lift1 relu (lift1 (addb P.a16) (lift1 (mm P.a15) (lift1 relu (lift1 (addb P.a14) (lift1 (mm P.a13) (lift2 cat2 (lift1 mobs x) (lift1 (hup P) x))))))))))) = lift1 (mdown P) x := by
  refine ext_rows fun r => ?_
  simp only [rowOf_lift1, rowOf_lift2, rowOf_lift3]
  rfl

theorem hdown_lift : (lift1 relu (lift1 (addb P.a22) (lift1 (mm P.a21) (lift1 relu (lift1 (addb P.a20) (lift1 (mm P.a19) (lift1 (mdown P) x))))))) = lift1 (hdown P) x := by
  refine ext_rows fun r => ?_
  simp only [rowOf_lift1, rowOf_lift2, rowOf_lift3]
  rfl

theorem kdown_lift : (lift1 relu (lift1 (addb P.a26) (lift1 (mm P.a25) (lift1 relu (lift1 (addb P.a24) (lift1 (mm P.a23) (lift1 (hdown P) x))))))) = lift1 (kdown P) x := by
  refine ext_rows fun r => ?_
  simp only [rowOf_lift1, rowOf_lift2, rowOf_lift3]
  rfl

theorem hact_lift : (lift1 (addb P.a30) (lift1 (mm P.a29) (lift1 relu (lift1 (addb P.a28) (lift1 (mm P.a27) (lift3 cat3 (lift1 (cols 2 : (Fin 11 → EReal) → Fin 1 → EReal) x) (lift1 (cols 8 : (Fin 11 → EReal) → Fin 1 → EReal) x) (lift1 (mdown P) x))))))) = lift1 (hact P) x := by
  refine ext_rows fun r => ?_
  simp only [rowOf_lift1, rowOf_lift2, rowOf_lift3]
  rfl

theorem kact_lift : (lift1 (addb P.a34) (lift1 (mm P.a33) (lift1 relu (lift1 (addb P.a32) (lift1 (mm P.a31) (lift3 cat3 (lift1 (cols 3 : (Fin 11 → EReal) → Fin 1 → EReal) x) (lift1 (cols 9 : (Fin 11 → EReal) → Fin 1 → EReal) x) (lift1 (hdown P) x))))))) = lift1 (kact P) x := by
  refine ext_rows fun r => ?_
  simp only [rowOf_lift1, rowOf_lift2, rowOf_lift3]
  rfl

theorem fact_lift : (lift1 (addb P.a38) (lift1 (mm P.a37) (lift1 relu (lift1 (addb P.a36) (lift1 (mm P.a35) (lift3 cat3 (lift1 (cols 4 : (Fin 11 → EReal) → Fin 1 → EReal) x) (lift1 (cols 10 : (Fin 11 → EReal) → Fin 1 → EReal) x) (lift1 (kdown P) x))))))) = lift1 (fact P) x := by
  refine ext_rows fun r => ?_
  simp only [rowOf_lift1, rowOf_lift2, rowOf_lift3]
  rfl

theorem net_lift : lift3 cat3 (lift1 (hact P) x) (lift1 (fact P) x) (lift1 (kact P) x) = lift1 (net P) x := by
  refine ext_rows fun r => ?_
  simp only [rowOf_lift1, rowOf_lift2, rowOf_lift3]
  rfl

end Cert.Net

end
-- ==== Proof.RefValue.lean ====
/-
  The reference's result is the perceptron tree of every row of `x`.

  `refOut` (Proof/RefTerm.lean) is the reference program's composition of host operations over all two million rows.
  Each is the lift of a function of rows (Proof/LibRows.lean, Proof/LibRowsCat.lean, Proof/LibRowsGather.lean): a
  `dot_general` is the row times the matrix, the twice-broadcast bias is added to every row, the maximum with the
  broadcast zero is the maximum with zero, the concatenations lay rows side by side, the slices take single columns,
  and the gather through the table `[0, 1, 5, 6, 7]` takes those five entries of the row — which is columns 0, 1 beside
  columns 5, 6, 7, the kernel's spelling of the root's observations. Row by row the composition is `Net.net`.
-/
import proofs.«160508_j9448928051825_1_alg».proof.Proof.RefTerm
import proofs.«160508_j9448928051825_1_alg».proof.Proof.LibRowsCat
import proofs.«160508_j9448928051825_1_alg».proof.Proof.LibRowsGather
import proofs.«160508_j9448928051825_1_alg».proof.Proof.NetLift

noncomputable section

namespace Cert.ReferenceIdeal.RefValue

open Cert.ReferenceIdeal Cert.ReferenceIdeal.Gen Cert.ReferenceIdeal.RefTerm Idealize.ShloMosaic Idealize.ShloMosaic.ValueIdx
open Cert.Lib.Rows Cert.Net

/-! ## The reference's ten matrix products, row by row -/

theorem dg_2x2 (prec : Option ContractPrecision) (L : FVec Ideal S2000000x2 .f32) (W : FVec Ideal S2x2 .f32) :
    Host.dotGeneral dot_S2000000x2_S2x2_S2000000x2_1_0_0_1_n_n prec L W = lift1 (mm W) L :=
  dotGeneral_eq_lift dot_S2000000x2_S2x2_S2000000x2_1_0_0_1_n_n rfl rfl rfl rfl (fun _ _ => rfl) (fun _ _ => rfl) prec L W

theorem dg_4x4 (prec : Option ContractPrecision) (L : FVec Ideal S2000000x4 .f32) (W : FVec Ideal S4x4 .f32) :
    Host.dotGeneral dot_S2000000x4_S4x4_S2000000x4_1_0_0_1_n_n prec L W = lift1 (mm W) L :=
  dotGeneral_eq_lift dot_S2000000x4_S4x4_S2000000x4_1_0_0_1_n_n rfl rfl rfl rfl (fun _ _ => rfl) (fun _ _ => rfl) prec L W

theorem dg_6x6 (prec : Option ContractPrecision) (L : FVec Ideal S2000000x6 .f32) (W : FVec Ideal S6x6 .f32) :
    Host.dotGeneral dot_S2000000x6_S6x6_S2000000x6_1_0_0_1_n_n prec L W = lift1 (mm W) L :=
  dotGeneral_eq_lift dot_S2000000x6_S6x6_S2000000x6_1_0_0_1_n_n rfl rfl rfl rfl (fun _ _ => rfl) (fun _ _ => rfl) prec L W

theorem dg_11x16 (prec : Option ContractPrecision) (L : FVec Ideal S2000000x11 .f32) (W : FVec Ideal S11x16 .f32) :
    Host.dotGeneral dot_S2000000x11_S11x16_S2000000x16_1_0_0_1_n_n prec L W = lift1 (mm W) L :=
  dotGeneral_eq_lift dot_S2000000x11_S11x16_S2000000x16_1_0_0_1_n_n rfl rfl rfl rfl (fun _ _ => rfl) (fun _ _ => rfl) prec L W

theorem dg_16x16 (prec : Option ContractPrecision) (L : FVec Ideal S2000000x16 .f32) (W : FVec Ideal S16x16 .f32) :
    Host.dotGeneral dot_S2000000x16_S16x16_S2000000x16_1_0_0_1_n_n prec L W = lift1 (mm W) L :=
  dotGeneral_eq_lift dot_S2000000x16_S16x16_S2000000x16_1_0_0_1_n_n rfl rfl rfl rfl (fun _ _ => rfl) (fun _ _ => rfl) prec L W

theorem dg_16x6 (prec : Option ContractPrecision) (L : FVec Ideal S2000000x16 .f32) (W : FVec Ideal S16x6 .f32) :
    Host.dotGeneral dot_S2000000x16_S16x6_S2000000x6_1_0_0_1_n_n prec L W = lift1 (mm W) L :=
  dotGeneral_eq_lift dot_S2000000x16_S16x6_S2000000x6_1_0_0_1_n_n rfl rfl rfl rfl (fun _ _ => rfl) (fun _ _ => rfl) prec L W

theorem dg_6x4 (prec : Option ContractPrecision) (L : FVec Ideal S2000000x6 .f32) (W : FVec Ideal S6x4 .f32) :
    Host.dotGeneral dot_S2000000x6_S6x4_S2000000x4_1_0_0_1_n_n prec L W = lift1 (mm W) L :=
  dotGeneral_eq_lift dot_S2000000x6_S6x4_S2000000x4_1_0_0_1_n_n rfl rfl rfl rfl (fun _ _ => rfl) (fun _ _ => rfl) prec L W

theorem dg_4x2 (prec : Option ContractPrecision) (L : FVec Ideal S2000000x4 .f32) (W : FVec Ideal S4x2 .f32) :
    Host.dotGeneral dot_S2000000x4_S4x2_S2000000x2_1_0_0_1_n_n prec L W = lift1 (mm W) L :=
  dotGeneral_eq_lift dot_S2000000x4_S4x2_S2000000x2_1_0_0_1_n_n rfl rfl rfl rfl (fun _ _ => rfl) (fun _ _ => rfl) prec L W

theorem dg_8x4 (prec : Option ContractPrecision) (L : FVec Ideal S2000000x8 .f32) (W : FVec Ideal S8x4 .f32) :
    Host.dotGeneral dot_S2000000x8_S8x4_S2000000x4_1_0_0_1_n_n prec L W = lift1 (mm W) L :=
  dotGeneral_eq_lift dot_S2000000x8_S8x4_S2000000x4_1_0_0_1_n_n rfl rfl rfl rfl (fun _ _ => rfl) (fun _ _ => rfl) prec L W

theorem dg_4x1 (prec : Option ContractPrecision) (L : FVec Ideal S2000000x4 .f32) (W : FVec Ideal S4x1 .f32) :
    Host.dotGeneral dot_S2000000x4_S4x1_S2000000x1_1_0_0_1_n_n prec L W = lift1 (mm W) L :=
  dotGeneral_eq_lift dot_S2000000x4_S4x1_S2000000x1_1_0_0_1_n_n rfl rfl rfl rfl (fun _ _ => rfl) (fun _ _ => rfl) prec L W

/-! ## The gather of the root's observations -/

/-- The column numbers the gather's start indices name. -/
def tbl : Fin 5 → Fin 11 := ![0, 1, 5, 6, 7]

/-- Each start index, read signed, is its table entry (no entry is negative, so none is moved up by eleven). -/
theorem colIdx_val (e : Fin 5) : (colIdx (ix2 e (0 : Fin 1))).toInt = ((tbl e).val : Int) := by
  fin_cases e <;> decide

theorem gather_eq (x : FVec Ideal S2000000x11 .f32) :
    Host.gather gather_S2000000x11_S5x1_S2000000x5_0_1_n_n_1_1_20000001 x colIdx = lift1 (pick tbl) x :=
  gather_cols_eq_lift gather_S2000000x11_S5x1_S2000000x5_0_1_n_n_1_1_20000001_wf x colIdx tbl
    (fun e => by rw [colIdx_val e]; exact Int.natCast_nonneg _) colIdx_val

/-- The five gathered entries of a row are its entries 0, 1 beside its entries 5, 6, 7. -/
theorem pick_tbl (v : Fin 11 → EReal) : pick tbl v = mobs v := by
  funext j
  fin_cases j <;> rfl

/-! ## The composition -/

/-- The gathered observations, lifted. -/
theorem pick_lift {N : Nat} (x : (⟨2, ![N, 11]⟩ : Shape).Idx → EReal) : lift1 (pick tbl) x = lift1 mobs x :=
  congrArg (fun f => lift1 f x) (funext pick_tbl)

theorem refOut_eq (P : Params) (x : FVec Ideal S2000000x11 .f32) :
    refOut (F := Ideal) x P.a1 P.a2 P.a3 P.a4 P.a5 P.a6 P.a7 P.a8 P.a9 P.a10 P.a11 P.a12 P.a13 P.a14 P.a15 P.a16 P.a17 P.a18 P.a19 P.a20 P.a21 P.a22 P.a23 P.a24 P.a25 P.a26 P.a27 P.a28 P.a29 P.a30 P.a31 P.a32 P.a33 P.a34 P.a35 P.a36 P.a37 P.a38 = G P x := by
  unfold refOut G
  simp only [dg_2x2, dg_4x4, dg_6x6, dg_11x16, dg_16x16, dg_16x6, dg_6x4, dg_4x2, dg_8x4, dg_4x1, concat2_eq_lift, concat3_eq_lift, slice_eq_lift, gather_eq]
  repeat rw [addf_bias_host]
  repeat rw [relu_host]
  rw [pick_lift, fup_lift P x, kup_lift P x, hup_lift P x, mdown_lift P x, hdown_lift P x, kdown_lift P x, hact_lift P x,
    kact_lift P x, fact_lift P x, net_lift P x]

end Cert.ReferenceIdeal.RefValue

end
-- ==== Proof.lean ====
/-
  The five claims about the perceptron-tree kernel and its reference.

  Both programs apply one small tree of perceptrons to every row of `x : [2000000, 11]` (Proof/Net.lean): the kernel
  8000 rows at a time over a grid of 250 points, its thirty-eight parameter arrays whole in every block; the reference
  over all rows at once. At the ideal instance a matrix product is a plain sum of products over the feature index on
  both sides, a bias is added and the maximum with zero taken entry by entry, so both result arrays are the SAME
  function `Net.G` of the argument arrays, index by index — no law of the extended reals is needed beyond that, and the
  precondition is never opened. The kernel's side is Proof/KernelBody.lean (the body's block) and Proof/KernelValue.lean
  (the blocks cover the array); the reference's is Proof/RefRun.lean (its run), Proof/RefTerm.lean (its result as one
  term) and Proof/RefValue.lean (that term, row by row). The frames of the two kernel programs are the frame
  certificates of Proof/FrameKernel.lean and Proof/FrameKernelIdeal.lean; the reference's frame is its run with the
  result dropped; nothing was rewritten by idealization, so `preserves` is `True`.
-/
import proofs.«160508_j9448928051825_1_alg».proof.Defs
import proofs.«160508_j9448928051825_1_alg».proof.Proof.Gen.Kernel
import proofs.«160508_j9448928051825_1_alg».proof.Proof.Gen.KernelIdeal
import proofs.«160508_j9448928051825_1_alg».proof.Proof.Gen.ReferenceIdeal
import proofs.«160508_j9448928051825_1_alg».proof.Proof.Gen.Pre_finite_inputs
import proofs.«160508_j9448928051825_1_alg».proof.Proof.FrameKernel
import proofs.«160508_j9448928051825_1_alg».proof.Proof.KernelValue
import proofs.«160508_j9448928051825_1_alg».proof.Proof.RefRun
import proofs.«160508_j9448928051825_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's run leaves every argument array as launched: no operation writes one. -/
theorem frame_ri : Cert.frame_ReferenceIdeal := fun m ρ _ =>
  (θ_run Cert.ReferenceIdeal.defs _ _).mono (fun r h c => ⟨
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _),
      (h c Cert.ReferenceIdeal.main_arg14).trans (Cert.ReferenceIdeal.RefRun.arg14_eq _),
      (h c Cert.ReferenceIdeal.main_arg15).trans (Cert.ReferenceIdeal.RefRun.arg15_eq _),
      (h c Cert.ReferenceIdeal.main_arg16).trans (Cert.ReferenceIdeal.RefRun.arg16_eq _),
      (h c Cert.ReferenceIdeal.main_arg17).trans (Cert.ReferenceIdeal.RefRun.arg17_eq _),
      (h c Cert.ReferenceIdeal.main_arg18).trans (Cert.ReferenceIdeal.RefRun.arg18_eq _),
      (h c Cert.ReferenceIdeal.main_arg19).trans (Cert.ReferenceIdeal.RefRun.arg19_eq _),
      (h c Cert.ReferenceIdeal.main_arg20).trans (Cert.ReferenceIdeal.RefRun.arg20_eq _),
      (h c Cert.ReferenceIdeal.main_arg21).trans (Cert.ReferenceIdeal.RefRun.arg21_eq _),
      (h c Cert.ReferenceIdeal.main_arg22).trans (Cert.ReferenceIdeal.RefRun.arg22_eq _),
      (h c Cert.ReferenceIdeal.main_arg23).trans (Cert.ReferenceIdeal.RefRun.arg23_eq _),
      (h c Cert.ReferenceIdeal.main_arg24).trans (Cert.ReferenceIdeal.RefRun.arg24_eq _),
      (h c Cert.ReferenceIdeal.main_arg25).trans (Cert.ReferenceIdeal.RefRun.arg25_eq _),
      (h c Cert.ReferenceIdeal.main_arg26).trans (Cert.ReferenceIdeal.RefRun.arg26_eq _),
      (h c Cert.ReferenceIdeal.main_arg27).trans (Cert.ReferenceIdeal.RefRun.arg27_eq _),
      (h c Cert.ReferenceIdeal.main_arg28).trans (Cert.ReferenceIdeal.RefRun.arg28_eq _),
      (h c Cert.ReferenceIdeal.main_arg29).trans (Cert.ReferenceIdeal.RefRun.arg29_eq _),
      (h c Cert.ReferenceIdeal.main_arg30).trans (Cert.ReferenceIdeal.RefRun.arg30_eq _),
      (h c Cert.ReferenceIdeal.main_arg31).trans (Cert.ReferenceIdeal.RefRun.arg31_eq _),
      (h c Cert.ReferenceIdeal.main_arg32).trans (Cert.ReferenceIdeal.RefRun.arg32_eq _),
      (h c Cert.ReferenceIdeal.main_arg33).trans (Cert.ReferenceIdeal.RefRun.arg33_eq _),
      (h c Cert.ReferenceIdeal.main_arg34).trans (Cert.ReferenceIdeal.RefRun.arg34_eq _),
      (h c Cert.ReferenceIdeal.main_arg35).trans (Cert.ReferenceIdeal.RefRun.arg35_eq _),
      (h c Cert.ReferenceIdeal.main_arg36).trans (Cert.ReferenceIdeal.RefRun.arg36_eq _),
      (h c Cert.ReferenceIdeal.main_arg37).trans (Cert.ReferenceIdeal.RefRun.arg37_eq _),
      (h c Cert.ReferenceIdeal.main_arg38).trans (Cert.ReferenceIdeal.RefRun.arg38_eq _)⟩)
    (Cert.ReferenceIdeal.RefRun.run_main (F := Ideal) m ρ)

/-- Both result arrays are the tree of every row of `x`, of arguments that agree. -/
theorem algebraic : Cert.algebraic_KernelIdeal_ReferenceIdeal := by
  intro m g m' g' _ hagree
  refine ⟨fun c => Cert.Net.G (Cert.KernelIdeal.Whole.params m c)
    (m ((c.tc : Thread Cert.KernelIdeal.nD Cert.KernelIdeal.τ).loc Cert.KernelIdeal.main_arg0)),
    Cert.KernelIdeal.Whole.run m g, ?_⟩
  refine (θ_run Cert.ReferenceIdeal.defs _ _).mono (fun r h c => ⟨(h c Cert.ReferenceIdeal.main_v112).trans ?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _),
      (h c Cert.ReferenceIdeal.main_arg10).trans (Cert.ReferenceIdeal.RefRun.arg10_eq _),
      (h c Cert.ReferenceIdeal.main_arg11).trans (Cert.ReferenceIdeal.RefRun.arg11_eq _),
      (h c Cert.ReferenceIdeal.main_arg12).trans (Cert.ReferenceIdeal.RefRun.arg12_eq _),
      (h c Cert.ReferenceIdeal.main_arg13).trans (Cert.ReferenceIdeal.RefRun.arg13_eq _),
      (h c Cert.ReferenceIdeal.main_arg14).trans (Cert.ReferenceIdeal.RefRun.arg14_eq _),
      (h c Cert.ReferenceIdeal.main_arg15).trans (Cert.ReferenceIdeal.RefRun.arg15_eq _),
      (h c Cert.ReferenceIdeal.main_arg16).trans (Cert.ReferenceIdeal.RefRun.arg16_eq _),
      (h c Cert.ReferenceIdeal.main_arg17).trans (Cert.ReferenceIdeal.RefRun.arg17_eq _),
      (h c Cert.ReferenceIdeal.main_arg18).trans (Cert.ReferenceIdeal.RefRun.arg18_eq _),
      (h c Cert.ReferenceIdeal.main_arg19).trans (Cert.ReferenceIdeal.RefRun.arg19_eq _),
      (h c Cert.ReferenceIdeal.main_arg20).trans (Cert.ReferenceIdeal.RefRun.arg20_eq _),
      (h c Cert.ReferenceIdeal.main_arg21).trans (Cert.ReferenceIdeal.RefRun.arg21_eq _),
      (h c Cert.ReferenceIdeal.main_arg22).trans (Cert.ReferenceIdeal.RefRun.arg22_eq _),
      (h c Cert.ReferenceIdeal.main_arg23).trans (Cert.ReferenceIdeal.RefRun.arg23_eq _),
      (h c Cert.ReferenceIdeal.main_arg24).trans (Cert.ReferenceIdeal.RefRun.arg24_eq _),
      (h c Cert.ReferenceIdeal.main_arg25).trans (Cert.ReferenceIdeal.RefRun.arg25_eq _),
      (h c Cert.ReferenceIdeal.main_arg26).trans (Cert.ReferenceIdeal.RefRun.arg26_eq _),
      (h c Cert.ReferenceIdeal.main_arg27).trans (Cert.ReferenceIdeal.RefRun.arg27_eq _),
      (h c Cert.ReferenceIdeal.main_arg28).trans (Cert.ReferenceIdeal.RefRun.arg28_eq _),
      (h c Cert.ReferenceIdeal.main_arg29).trans (Cert.ReferenceIdeal.RefRun.arg29_eq _),
      (h c Cert.ReferenceIdeal.main_arg30).trans (Cert.ReferenceIdeal.RefRun.arg30_eq _),
      (h c Cert.ReferenceIdeal.main_arg31).trans (Cert.ReferenceIdeal.RefRun.arg31_eq _),
      (h c Cert.ReferenceIdeal.main_arg32).trans (Cert.ReferenceIdeal.RefRun.arg32_eq _),
      (h c Cert.ReferenceIdeal.main_arg33).trans (Cert.ReferenceIdeal.RefRun.arg33_eq _),
      (h c Cert.ReferenceIdeal.main_arg34).trans (Cert.ReferenceIdeal.RefRun.arg34_eq _),
      (h c Cert.ReferenceIdeal.main_arg35).trans (Cert.ReferenceIdeal.RefRun.arg35_eq _),
      (h c Cert.ReferenceIdeal.main_arg36).trans (Cert.ReferenceIdeal.RefRun.arg36_eq _),
      (h c Cert.ReferenceIdeal.main_arg37).trans (Cert.ReferenceIdeal.RefRun.arg37_eq _),
      (h c Cert.ReferenceIdeal.main_arg38).trans (Cert.ReferenceIdeal.RefRun.arg38_eq _)⟩)
    (Cert.ReferenceIdeal.RefRun.run_main (F := Ideal) m' g')
  rw [Cert.ReferenceIdeal.RefRun.out_eq]
  show Cert.ReferenceIdeal.RefTerm.refOut (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))
    (m' ((c.tc : Thread Cert.ReferenceIdeal.nD Cert.ReferenceIdeal.τ).loc Cert.ReferenceIdeal.main_arg20))
    (m' ((c.tc : Thread Cert.ReferenceIdeal.nD Cert.ReferenceIdeal.τ).loc Cert.ReferenceIdeal.main_arg21))
    (m' ((c.tc : Thread Cert.ReferenceIdeal.nD Cert.ReferenceIdeal.τ).loc Cert.ReferenceIdeal.main_arg22))
    (m' ((c.tc : Thread Cert.ReferenceIdeal.nD Cert.ReferenceIdeal.τ).loc Cert.ReferenceIdeal.main_arg23))
    (m' ((c.tc : Thread Cert.ReferenceIdeal.nD Cert.ReferenceIdeal.τ).loc Cert.ReferenceIdeal.main_arg24))
    (m' ((c.tc : Thread Cert.ReferenceIdeal.nD Cert.ReferenceIdeal.τ).loc Cert.ReferenceIdeal.main_arg25))
    (m' ((c.tc : Thread Cert.ReferenceIdeal.nD Cert.ReferenceIdeal.τ).loc Cert.ReferenceIdeal.main_arg26))
    (m' ((c.tc : Thread Cert.ReferenceIdeal.nD Cert.ReferenceIdeal.τ).loc Cert.ReferenceIdeal.main_arg27))
    (m' ((c.tc : Thread Cert.ReferenceIdeal.nD Cert.ReferenceIdeal.τ).loc Cert.ReferenceIdeal.main_arg28))
    (m' ((c.tc : Thread Cert.ReferenceIdeal.nD Cert.ReferenceIdeal.τ).loc Cert.ReferenceIdeal.main_arg29))
    (m' ((c.tc : Thread Cert.ReferenceIdeal.nD Cert.ReferenceIdeal.τ).loc Cert.ReferenceIdeal.main_arg30))
    (m' ((c.tc : Thread Cert.ReferenceIdeal.nD Cert.ReferenceIdeal.τ).loc Cert.ReferenceIdeal.main_arg31))
    (m' ((c.tc : Thread Cert.ReferenceIdeal.nD Cert.ReferenceIdeal.τ).loc Cert.ReferenceIdeal.main_arg32))
    (m' ((c.tc : Thread Cert.ReferenceIdeal.nD Cert.ReferenceIdeal.τ).loc Cert.ReferenceIdeal.main_arg33))
    (m' ((c.tc : Thread Cert.ReferenceIdeal.nD Cert.ReferenceIdeal.τ).loc Cert.ReferenceIdeal.main_arg34))
    (m' ((c.tc : Thread Cert.ReferenceIdeal.nD Cert.ReferenceIdeal.τ).loc Cert.ReferenceIdeal.main_arg35))
    (m' ((c.tc : Thread Cert.ReferenceIdeal.nD Cert.ReferenceIdeal.τ).loc Cert.ReferenceIdeal.main_arg36))
    (m' ((c.tc : Thread Cert.ReferenceIdeal.nD Cert.ReferenceIdeal.τ).loc Cert.ReferenceIdeal.main_arg37))
    (m' ((c.tc : Thread Cert.ReferenceIdeal.nD Cert.ReferenceIdeal.τ).loc Cert.ReferenceIdeal.main_arg38)) = _
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.1, (hagree c).2.2.2.2.2.2.2.2.2.2.2.2.2.2.2.2.2.2.2.2.2.2.2.2.2.2.2.2.2.2.2.2.2.2.2.2.2.2]
  exact Cert.ReferenceIdeal.RefValue.refOut_eq (Cert.KernelIdeal.Whole.params m c) _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
